-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v105)) (v2 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v105) = v1 c
          ∧ r.2.mem ((c.tc : Thread Cert.KernelIdeal.nD Cert.KernelIdeal.τ).loc Cert.KernelIdeal.main_v158) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v221) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part4 {F : FTy → Type} [FloatOps F] (main_arg20 : FVec F S128 .f32) (main_arg21 : FVec F S128x128 .f32) (main_arg22 : FVec F S128 .f32) (main_v63 : IVec S_ 1) (main_v67 : IVec S_ 1) : IVec S_ 1 :=
  let main_v68 : IVec S_ 1 := andi main_v63 main_v67
  let main_v69 : FVec F S128 .f32 := Host.absf main_arg20
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg21
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg22
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  main_v83

def fn_part3 {F : FTy → Type} [FloatOps F] (main_arg17 : FVec F S128x128 .f32) (main_arg18 : FVec F S128 .f32) (main_arg19 : FVec F S128x128 .f32) (main_arg20 : FVec F S128 .f32) (main_arg21 : FVec F S128x128 .f32) (main_arg22 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg17
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg19
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg20 main_arg21 main_arg22 main_v63 main_v67

def fn_part2 {F : FTy → Type} [FloatOps F] (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v33 : IVec S_ 1) : IVec S_ 1 :=
  let main_v34 : FVec F S128x128 .f32 := Host.absf main_arg13
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg14
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg15
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg16
  let main_cst_18 : FVec F S_ .f32 := constant S_ .f32 0x7F800000#32
  let main_v50 : FVec F S128 .f32 := broadcastInDim S128 ![] bcast_S_S128 main_cst_18
  fn_part3 (F := F) main_arg17 main_arg18 main_arg19 main_arg20 main_arg21 main_arg22 main_v48 main_v49 main_v50

def fn_part1 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128 .f32 := Host.absf main_arg10
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg11
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg12
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S50000x1 .f32) (main_arg1 : IVec S2x800000 32) (main_arg2 : IVec S50000 32) (main_arg3 : FVec F S50000x1 .f32) (main_arg4 : IVec S2x800000 32) (main_arg5 : IVec S50000 32) (main_arg6 : FVec F S50000x1 .f32) (main_arg7 : IVec S2x800000 32) (main_arg8 : IVec S50000 32) (main_arg9 : FVec F S1x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x128 .f32) (main_arg22 : FVec F S128 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S50000x1 .f32 := Host.absf main_arg3
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S50000x1 .f32 := Host.absf main_arg6
  let main_cst_2 : FVec F S_ .f32 := constant S_ .f32 0x7F800000#32
  let main_v10 : FVec F S50000x1 .f32 := broadcastInDim S50000x1 ![] bcast_S_S50000x1 main_cst_2
  let main_v11 : IVec S50000x1 1 := cmpf .olt main_v9 main_v10
  let main_c_3 : IVec S_ 1 := constantI S_ 1 1#1
  let main_v12 : IVec S_ 1 := (fun x v => Host.reduce IntOp.andi x v reducesTo_S50000x1_S_d0_1 h_S_) main_v11 main_c_3
  let main_v13 : IVec S_ 1 := andi main_v8 main_v12
  let main_v14 : FVec F S1x128 .f32 := Host.absf main_arg9
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg10 main_arg11 main_arg12 main_arg13 main_arg14 main_arg15 main_arg16 main_arg17 main_arg18 main_arg19 main_arg20 main_arg21 main_arg22 main_v13 main_v16
-- ==== Kernel.lean ====
abbrev S50000x1 : Shape := ⟨2, ![50000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S5000x128 : Shape := ⟨2, ![5000, 128]⟩
abbrev S800000x128 : Shape := ⟨2, ![800000, 128]⟩

abbrev nBuf : Space → Nat
  | .hbm => 230
  | .vmem => 90
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S50000x1, .f32⟩
  | 4 => ⟨S2x800000, .i32⟩
  | 5 => ⟨S50000, .i32⟩
  | 6 => ⟨S50000x1, .f32⟩
  | 7 => ⟨S2x800000, .i32⟩
  | 8 => ⟨S50000, .i32⟩
  | 9 => ⟨S1x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x1, .f32⟩
  | 36 => ⟨S_, .f32⟩
  | 37 => ⟨S50000x1, .f32⟩
  | 38 => ⟨S800000x1, .i32⟩
  | 39 => ⟨S50000x1, .f32⟩
  | 40 => ⟨S_, .i32⟩
  | 41 => ⟨S_, .f32⟩
  | 42 => ⟨S50000x128, .f32⟩
  | 43 => ⟨S_, .i32⟩
  | 44 => ⟨S_, .f32⟩
  | 45 => ⟨S50000x128, .f32⟩
  | 46 => ⟨S_, .i32⟩
  | 47 => ⟨S_, .f32⟩
  | 48 => ⟨S128x128, .f32⟩
  | 49 => ⟨S1x128, .f32⟩
  | 50 => ⟨S1x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1x128, .f32⟩
  | 66 => ⟨S1x128, .f32⟩
  | 67 => ⟨S50000x128, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S_, .f32⟩
  | 78 => ⟨S50000x128, .f32⟩
  | 79 => ⟨S800000x1, .i32⟩
  | 80 => ⟨S50000x128, .f32⟩
  | 81 => ⟨S1x128, .f32⟩
  | 82 => ⟨S1x128, .f32⟩
  | 83 => ⟨S50000x128, .f32⟩
  | 84 => ⟨S_, .f32⟩
  | 85 => ⟨S128x128, .f32⟩
  | 86 => ⟨S50000x1, .i32⟩
  | 87 => ⟨S128x128, .f32⟩
  | 88 => ⟨S128x128, .f32⟩
  | 89 => ⟨S1x128, .f32⟩
  | 90 => ⟨S128x128, .f32⟩
  | 91 => ⟨S128x128, .f32⟩
  | 92 => ⟨S1x800000, .i32⟩
  | 93 => ⟨S800000, .i32⟩
  | 94 => ⟨S1x800000, .i32⟩
  | 95 => ⟨S800000, .i32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x1, .f32⟩
  | 105 => ⟨S_, .f32⟩
  | 106 => ⟨S50000x1, .f32⟩
  | 107 => ⟨S800000x1, .i32⟩
  | 108 => ⟨S50000x1, .f32⟩
  | 109 => ⟨S_, .i32⟩
  | 110 => ⟨S_, .f32⟩
  | 111 => ⟨S50000x128, .f32⟩
  | 112 => ⟨S_, .i32⟩
  | 113 => ⟨S_, .f32⟩
  | 114 => ⟨S50000x128, .f32⟩
  | 115 => ⟨S_, .i32⟩
  | 116 => ⟨S_, .f32⟩
  | 117 => ⟨S128x128, .f32⟩
  | 118 => ⟨S1x128, .f32⟩
  | 119 => ⟨S1x128, .f32⟩
  | 120 => ⟨S50000x128, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x1, .f32⟩

abbrev hbmTy0_1 (i : Nat) : BufTy := match i % 128 with
  | 0 => ⟨S800000x1, .i32⟩
  | 1 => ⟨S800000x128, .f32⟩
  | 2 => ⟨S_, .f32⟩
  | 3 => ⟨S50000x128, .f32⟩
  | 4 => ⟨S800000x1, .i32⟩
  | 5 => ⟨S50000x128, .f32⟩
  | 6 => ⟨S1x128, .f32⟩
  | 7 => ⟨S1x128, .f32⟩
  | 8 => ⟨S50000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S1x128, .f32⟩
  | 23 => ⟨S1x128, .f32⟩
  | 24 => ⟨S50000x128, .f32⟩
  | 25 => ⟨S_, .f32⟩
  | 26 => ⟨S128x128, .f32⟩
  | 27 => ⟨S50000x1, .i32⟩
  | 28 => ⟨S128x128, .f32⟩
  | 29 => ⟨S128x128, .f32⟩
  | 30 => ⟨S1x128, .f32⟩
  | 31 => ⟨S128x128, .f32⟩
  | 32 => ⟨S128x128, .f32⟩
  | 33 => ⟨S1x800000, .i32⟩
  | 34 => ⟨S800000, .i32⟩
  | 35 => ⟨S1x800000, .i32⟩
  | 36 => ⟨S800000, .i32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x1, .f32⟩
  | 46 => ⟨S_, .f32⟩
  | 47 => ⟨S50000x1, .f32⟩
  | 48 => ⟨S800000x1, .i32⟩
  | 49 => ⟨S50000x1, .f32⟩
  | 50 => ⟨S_, .i32⟩
  | 51 => ⟨S_, .f32⟩
  | 52 => ⟨S50000x128, .f32⟩
  | 53 => ⟨S_, .i32⟩
  | 54 => ⟨S_, .f32⟩
  | 55 => ⟨S50000x128, .f32⟩
  | 56 => ⟨S_, .i32⟩
  | 57 => ⟨S_, .f32⟩
  | 58 => ⟨S128x128, .f32⟩
  | 59 => ⟨S1x128, .f32⟩
  | 60 => ⟨S1x128, .f32⟩
  | 61 => ⟨S50000x128, .f32⟩
  | 62 => ⟨S_, .i32⟩
  | 63 => ⟨S800000, .i32⟩
  | 64 => ⟨S800000, .i1⟩
  | 65 => ⟨S_, .i32⟩
  | 66 => ⟨S800000, .i32⟩
  | 67 => ⟨S800000, .i32⟩
  | 68 => ⟨S800000, .i32⟩
  | 69 => ⟨S800000x1, .i32⟩
  | 70 => ⟨S800000x128, .f32⟩
  | 71 => ⟨S_, .f32⟩
  | 72 => ⟨S50000x128, .f32⟩
  | 73 => ⟨S800000x1, .i32⟩
  | 74 => ⟨S50000x128, .f32⟩
  | 75 => ⟨S1x128, .f32⟩
  | 76 => ⟨S1x128, .f32⟩
  | 77 => ⟨S50000x128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S1x128, .f32⟩
  | 92 => ⟨S1x128, .f32⟩
  | 93 => ⟨S50000x128, .f32⟩
  | 94 => ⟨S_, .f32⟩
  | 95 => ⟨S128x128, .f32⟩
  | 96 => ⟨S50000x1, .i32⟩
  | 97 => ⟨S128x128, .f32⟩
  | 98 => ⟨S128x128, .f32⟩
  | 99 => ⟨S1x128, .f32⟩
  | 100 => ⟨S128x128, .f32⟩
  | 101 => ⟨S128x128, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x128, .f32⟩
  | .local _ .vmem, ⟨35, _⟩ => ⟨S1x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x128, .f32⟩
  | .local _ .vmem, ⟨65, _⟩ => ⟨S1x128, .f32⟩
  | .local _ .vmem, ⟨66, _⟩ => ⟨S128x128, .f32⟩
  | .local _ .vmem, ⟨67, _⟩ => ⟨S1x128, .f32⟩
  | .local _ .vmem, ⟨68, _⟩ => ⟨S5000x128, .f32⟩
  | .local _ .vmem, ⟨69, _⟩ => ⟨S5000x128, .f32⟩
  | .local _ .vmem, ⟨70, _⟩ => ⟨S5000x128, .f32⟩
  | .local _ .vmem, ⟨71, _⟩ => ⟨S5000x128, .f32⟩
  | .local _ .vmem, ⟨72, _⟩ => ⟨S5000x128, .f32⟩
  | .local _ .vmem, ⟨73, _⟩ => ⟨S5000x128, .f32⟩
  | .local _ .vmem, ⟨74, _⟩ => ⟨S128x128, .f32⟩
  | .local _ .vmem, ⟨75, _⟩ => ⟨S1x128, .f32⟩
  | .local _ .vmem, ⟨76, _⟩ => ⟨S128x128, .f32⟩
  | .local _ .vmem, ⟨77, _⟩ => ⟨S1x128, .f32⟩
  | .local _ .vmem, ⟨78, _⟩ => ⟨S5000x128, .f32⟩
  | .local _ .vmem, ⟨79, _⟩ => ⟨S5000x128, .f32⟩
  | .local _ .vmem, ⟨80, _⟩ => ⟨S5000x128, .f32⟩
  | .local _ .vmem, ⟨81, _⟩ => ⟨S5000x128, .f32⟩
  | .local _ .vmem, ⟨82, _⟩ => ⟨S5000x128, .f32⟩
  | .local _ .vmem, ⟨83, _⟩ => ⟨S5000x128, .f32⟩
  | .local _ .vmem, ⟨84, _⟩ => ⟨S128x128, .f32⟩
  | .local _ .vmem, ⟨85, _⟩ => ⟨S1x128, .f32⟩
  | .local _ .vmem, ⟨86, _⟩ => ⟨S128x128, .f32⟩
  | .local _ .vmem, ⟨87, _⟩ => ⟨S1x128, .f32⟩
  | .local _ .vmem, ⟨88, _⟩ => ⟨S5000x128, .f32⟩
  | .local _ .vmem, ⟨89, _⟩ => ⟨S5000x128, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_c_1 : Ref sig .tc := ⟨.hbm, 40, rfl⟩
abbrev main_call0_v0 : Ref sig .tc := ⟨.hbm, 41, rfl⟩
abbrev main_v14 : Ref sig .tc := ⟨.hbm, 42, rfl⟩
abbrev main_c_2 : Ref sig .tc := ⟨.hbm, 43, rfl⟩
abbrev main_call1_v0 : Ref sig .tc := ⟨.hbm, 44, rfl⟩
abbrev main_v15 : Ref sig .tc := ⟨.hbm, 45, rfl⟩
abbrev main_c_3 : Ref sig .tc := ⟨.hbm, 46, rfl⟩
abbrev main_call2_v0 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_c_4 : Ref sig .tc := ⟨.hbm, 52, rfl⟩
abbrev main_v20 : Ref sig .tc := ⟨.hbm, 53, rfl⟩
abbrev main_v21 : Ref sig .tc := ⟨.hbm, 54, rfl⟩
abbrev main_c_5 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_cst_6 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_c_7 : Ref sig .tc := ⟨.hbm, 68, rfl⟩
abbrev main_v33 : Ref sig .tc := ⟨.hbm, 69, rfl⟩
abbrev main_v34 : Ref sig .tc := ⟨.hbm, 70, rfl⟩
abbrev main_c_8 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_cst_9 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_cst_10 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_11 : Ref sig .tc := ⟨.hbm, 96, rfl⟩
abbrev main_v57 : Ref sig .tc := ⟨.hbm, 97, rfl⟩
abbrev main_v58 : Ref sig .tc := ⟨.hbm, 98, rfl⟩
abbrev main_c_12 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_13 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_c_14 : Ref sig .tc := ⟨.hbm, 109, rfl⟩
abbrev main_call3_v0 : Ref sig .tc := ⟨.hbm, 110, rfl⟩
abbrev main_v67 : Ref sig .tc := ⟨.hbm, 111, rfl⟩
abbrev main_c_15 : Ref sig .tc := ⟨.hbm, 112, rfl⟩
abbrev main_call4_v0 : Ref sig .tc := ⟨.hbm, 113, rfl⟩
abbrev main_v68 : Ref sig .tc := ⟨.hbm, 114, rfl⟩
abbrev main_c_16 : Ref sig .tc := ⟨.hbm, 115, rfl⟩
abbrev main_call5_v0 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_c_17 : Ref sig .tc := ⟨.hbm, 121, rfl⟩
abbrev main_v73 : Ref sig .tc := ⟨.hbm, 122, rfl⟩
abbrev main_v74 : Ref sig .tc := ⟨.hbm, 123, rfl⟩
abbrev main_c_18 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_cst_19 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_c_20 : Ref sig .tc := ⟨.hbm, 137, rfl⟩
abbrev main_v86 : Ref sig .tc := ⟨.hbm, 138, rfl⟩
abbrev main_v87 : Ref sig .tc := ⟨.hbm, 139, rfl⟩
abbrev main_c_21 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_cst_22 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_cst_23 : Ref sig .tc := ⟨.hbm, 153, rfl⟩
abbrev main_v99 : Ref sig .tc := ⟨.hbm, 154, rfl⟩
abbrev main_v100 : Ref sig .tc := ⟨.hbm, 155, rfl⟩
abbrev main_v101 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_c_24 : Ref sig .tc := ⟨.hbm, 165, rfl⟩
abbrev main_v110 : Ref sig .tc := ⟨.hbm, 166, rfl⟩
abbrev main_v111 : Ref sig .tc := ⟨.hbm, 167, rfl⟩
abbrev main_c_25 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_cst_26 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_c_27 : Ref sig .tc := ⟨.hbm, 178, rfl⟩
abbrev main_call6_v0 : Ref sig .tc := ⟨.hbm, 179, rfl⟩
abbrev main_v120 : Ref sig .tc := ⟨.hbm, 180, rfl⟩
abbrev main_c_28 : Ref sig .tc := ⟨.hbm, 181, rfl⟩
abbrev main_call7_v0 : Ref sig .tc := ⟨.hbm, 182, rfl⟩
abbrev main_v121 : Ref sig .tc := ⟨.hbm, 183, rfl⟩
abbrev main_c_29 : Ref sig .tc := ⟨.hbm, 184, rfl⟩
abbrev main_call8_v0 : Ref sig .tc := ⟨.hbm, 185, rfl⟩
abbrev main_v122 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_c_30 : Ref sig .tc := ⟨.hbm, 190, rfl⟩
abbrev main_v126 : Ref sig .tc := ⟨.hbm, 191, rfl⟩
abbrev main_v127 : Ref sig .tc := ⟨.hbm, 192, rfl⟩
abbrev main_c_31 : Ref sig .tc := ⟨.hbm, 193, rfl⟩
abbrev main_v128 : Ref sig .tc := ⟨.hbm, 194, rfl⟩
abbrev main_v129 : Ref sig .tc := ⟨.hbm, 195, rfl⟩
abbrev main_v130 : Ref sig .tc := ⟨.hbm, 196, rfl⟩
abbrev main_v131 : Ref sig .tc := ⟨.hbm, 197, rfl⟩
abbrev main_v132 : Ref sig .tc := ⟨.hbm, 198, rfl⟩
abbrev main_cst_32 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_v138 : Ref sig .tc := ⟨.hbm, 205, rfl⟩
abbrev main_c_33 : Ref sig .tc := ⟨.hbm, 206, rfl⟩
abbrev main_v139 : Ref sig .tc := ⟨.hbm, 207, rfl⟩
abbrev main_v140 : Ref sig .tc := ⟨.hbm, 208, rfl⟩
abbrev main_c_34 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_35 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_cst_36 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_v158 : Ref sig .tc := ⟨.hbm, 229, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg6_0 : Ref sig .tc := ⟨.vmem, 58, rfl⟩
abbrev cc5_stg6_1 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg3_0 : Ref sig .tc := ⟨.vmem, 65, rfl⟩
abbrev cc6_stg4_0 : Ref sig .tc := ⟨.vmem, 66, rfl⟩
abbrev cc6_stg5_0 : Ref sig .tc := ⟨.vmem, 67, rfl⟩
abbrev cc6_stg6_0 : Ref sig .tc := ⟨.vmem, 68, rfl⟩
abbrev cc6_stg6_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg6_0 : Ref sig .tc := ⟨.vmem, 78, rfl⟩
abbrev cc7_stg6_1 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg5_0 : Ref sig .tc := ⟨.vmem, 87, rfl⟩
abbrev cc8_stg6_0 : Ref sig .tc := ⟨.vmem, 88, rfl⟩
abbrev cc8_stg6_1 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem3_0 : DmaSem sig := 55
abbrev cc5_sem4_0 : DmaSem sig := 56
abbrev cc5_sem5_0 : DmaSem sig := 57
abbrev cc5_sem6_0 : DmaSem sig := 58
abbrev cc5_sem6_1 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem3_0 : DmaSem sig := 65
abbrev cc6_sem4_0 : DmaSem sig := 66
abbrev cc6_sem5_0 : DmaSem sig := 67
abbrev cc6_sem6_0 : DmaSem sig := 68
abbrev cc6_sem6_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem6_0 : DmaSem sig := 78
abbrev cc7_sem6_1 : DmaSem sig := 79
abbrev cc8_sem0_0 : DmaSem sig := 80
abbrev cc8_sem0_1 : DmaSem sig := 81
abbrev cc8_sem1_0 : DmaSem sig := 82
abbrev cc8_sem1_1 : DmaSem sig := 83
abbrev cc8_sem2_0 : DmaSem sig := 84
abbrev cc8_sem3_0 : DmaSem sig := 85
abbrev cc8_sem4_0 : DmaSem sig := 86
abbrev cc8_sem5_0 : DmaSem sig := 87
abbrev cc8_sem6_0 : DmaSem sig := 88
abbrev cc8_sem6_1 : DmaSem sig := 89

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S128x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 2 → Memref sig .tc .vmem S5000x128 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S128x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x128 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S128x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 2 → Memref sig .tc .vmem S5000x128 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x1 : S_.BroadcastsInDim S50000x1 (![] : Fin 0 → Fin S50000x1.rank)
  pads_S50000x1_S50000x128_000_01270 : S50000x1.Pads (![0, 0] : Fin 2 → Nat) ![0, 127] ![0, 0] S50000x128
  h_S_ : 0 < S_.numel
  pads_S1x128_S128x128_01270_000 : S1x128.Pads (![0, 0] : Fin 2 → Nat) ![127, 0] ![0, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S50000x128 : S_.BroadcastsInDim S50000x128 (![] : Fin 0 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S128_S1x128_1 : S128.BroadcastsInDim S1x128 (![1] : Fin 1 → Fin S1x128.rank)
  bcast_S1x128_S128x128_0_1 : S1x128.BroadcastsInDim S128x128 (![0, 1] : Fin 2 → Fin S128x128.rank)
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S50000x128.size a
  hwx6_1 : ∀ i : grid6.Coords, EltTy.bits .f32 = 32 ∨ (Rect.block (s := S50000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S128x128.size a ≤ S128x128.size a
  hwx6_2 : ∀ i : grid6.Coords, EltTy.bits .f32 = 32 ∨ (Rect.block (s := S128x128) S128x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x128.size a ≤ S128x128.size a
  hwx6_4 : ∀ i : grid6.Coords, EltTy.bits .f32 = 32 ∨ (Rect.block (s := S128x128) S128x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x128.size a ≤ S50000x128.size a
  hwx6_6 : ∀ i : grid6.Coords, EltTy.bits .f32 = 32 ∨ (Rect.block (s := S50000x128) S5000x128.size (cc6_transform_6 i) (hinb6_6 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S50000x128.size a
  hwx7_1 : ∀ i : grid7.Coords, EltTy.bits .f32 = 32 ∨ (Rect.block (s := S50000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S128x128.size a ≤ S128x128.size a
  hwx7_4 : ∀ i : grid7.Coords, EltTy.bits .f32 = 32 ∨ (Rect.block (s := S128x128) S128x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x128.size a ≤ S1x128.size a
  hwx7_5 : ∀ i : grid7.Coords, EltTy.bits .f32 = 32 ∨ (Rect.block (s := S1x128) S1x128.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x128.size a ≤ S50000x128.size a
  hwx7_6 : ∀ i : grid7.Coords, EltTy.bits .f32 = 32 ∨ (Rect.block (s := S50000x128) S5000x128.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S50000x128.size a
  hwx8_0 : ∀ i : grid8.Coords, EltTy.bits .f32 = 32 ∨ (Rect.block (s := S50000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S50000x128.size a
  hwx8_1 : ∀ i : grid8.Coords, EltTy.bits .f32 = 32 ∨ (Rect.block (s := S50000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S128x128.size a ≤ S128x128.size a
  hwx8_4 : ∀ i : grid8.Coords, EltTy.bits .f32 = 32 ∨ (Rect.block (s := S128x128) S128x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x128.size a ≤ S50000x128.size a
  hwx8_6 : ∀ i : grid8.Coords, EltTy.bits .f32 = 32 ∨ (Rect.block (s := S50000x128) S5000x128.size (cc8_transform_6 i) (hinb8_6 i)).WholeWords (EltTy.packing .f32)

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg11) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v32) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg19) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v44) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v45) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v67) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v69) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v70) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v71) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v72) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v83) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg15) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v84) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v85) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v85) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v98) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v120) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v121) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v122) S128x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v123) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S128x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v124) S1x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v125) S5000x128.size cc6_transform_6 reads6_6 true false 2 stage6_6 sem6_6
    hrank6 hreads6_6 hinb6_6 nbuf6_6 (Memref.isWhole_whole _) hwx6_6 hstage6_6

abbrev win6 : Fin 7 → Pipeline.Window sig grid6 := fun | 0 => win6_0 | 1 => win6_1 | 2 => win6_2 | 3 => win6_3 | 4 => win6_4 | 5 => win6_5 | 6 => win6_6 | ⟨_ + 7, h⟩ => absurd h (Nat.not_lt.2 (Nat.le_add_left _ _))
abbrev spec6 : Fin 7 → Pipeline.WinSpec sig grid6.rank := fun w => (win6 w).toWinSpec

abbrev win7_0 : Pipeline.Window sig grid7 :=
  Pipeline.Window.ofSpec (Memref.whole main_v125) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v135) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg13) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v136) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg15) S128x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v137) S1x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v138) S5000x128.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v138) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v148) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_arg17) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v149) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_arg19) S128x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v150) S1x128.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v151) S5000x128.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S50000 : Shape := ⟨1, ![50000]⟩
abbrev S1x128 : Shape := ⟨2, ![1, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x128 : Shape := ⟨2, ![50000, 128]⟩
abbrev S800000x128 : Shape := ⟨2, ![800000, 128]⟩

abbrev nBuf : Space → Nat
  | .hbm => 311
  | .vmem => 0
  | .smem => 0
  | _ => 0

abbrev hbmTy0_0 (i : Nat) : BufTy := match i % 128 with
  | 0 => ⟨S50000x1, .f32⟩
  | 1 => ⟨S2x800000, .i32⟩
  | 2 => ⟨S50000, .i32⟩
  | 3 => ⟨S50000x1, .f32⟩
  | 4 => ⟨S2x800000, .i32⟩
  | 5 => ⟨S50000, .i32⟩
  | 6 => ⟨S50000x1, .f32⟩
  | 7 => ⟨S2x800000, .i32⟩
  | 8 => ⟨S50000, .i32⟩
  | 9 => ⟨S1x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x128, .f32⟩
  | 22 => ⟨S128, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x1, .f32⟩
  | 36 => ⟨S_, .f32⟩
  | 37 => ⟨S50000x1, .f32⟩
  | 38 => ⟨S800000x1, .i32⟩
  | 39 => ⟨S50000x1, .f32⟩
  | 40 => ⟨S50000x1, .f32⟩
  | 41 => ⟨S50000x128, .f32⟩
  | 42 => ⟨S1x128, .f32⟩
  | 43 => ⟨S50000x128, .f32⟩
  | 44 => ⟨S50000x128, .f32⟩
  | 45 => ⟨S_, .f32⟩
  | 46 => ⟨S50000x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S50000x128, .f32⟩
  | 69 => ⟨S50000x128, .f32⟩
  | 70 => ⟨S1x128, .f32⟩
  | 71 => ⟨S50000x128, .f32⟩
  | 72 => ⟨S50000x128, .f32⟩
  | 73 => ⟨S_, .f32⟩
  | 74 => ⟨S50000x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S50000x128, .f32⟩
  | 97 => ⟨S50000x128, .f32⟩
  | 98 => ⟨S1x128, .f32⟩
  | 99 => ⟨S50000x128, .f32⟩
  | 100 => ⟨S50000x128, .f32⟩
  | 101 => ⟨S_, .f32⟩
  | 102 => ⟨S50000x128, .f32⟩
  | 103 => ⟨S50000x128, .f32⟩
  | 104 => ⟨S50000x128, .f32⟩
  | 105 => ⟨S1x128, .f32⟩
  | 106 => ⟨S50000x128, .f32⟩
  | 107 => ⟨S50000x128, .f32⟩
  | 108 => ⟨S_, .f32⟩
  | 109 => ⟨S50000x128, .f32⟩
  | 110 => ⟨S50000x128, .f32⟩
  | 111 => ⟨S_, .f32⟩
  | 112 => ⟨S128x128, .f32⟩
  | 113 => ⟨S50000x1, .i32⟩
  | 114 => ⟨S128x128, .f32⟩
  | 115 => ⟨S128x128, .f32⟩
  | 116 => ⟨S1x128, .f32⟩
  | 117 => ⟨S128x128, .f32⟩
  | 118 => ⟨S128x128, .f32⟩
  | 119 => ⟨S1x800000, .i32⟩
  | 120 => ⟨S800000, .i32⟩
  | 121 => ⟨S1x800000, .i32⟩
  | 122 => ⟨S800000, .i32⟩
  | 123 => ⟨S_, .i32⟩
  | 124 => ⟨S800000, .i32⟩
  | 125 => ⟨S800000, .i1⟩
  | 126 => ⟨S_, .i32⟩
  | 127 => ⟨S800000, .i32⟩
  | _ => ⟨S50000x1, .f32⟩

abbrev hbmTy0_1 (i : Nat) : BufTy := match i % 128 with
  | 0 => ⟨S800000, .i32⟩
  | 1 => ⟨S800000, .i32⟩
  | 2 => ⟨S800000x1, .i32⟩
  | 3 => ⟨S800000x1, .f32⟩
  | 4 => ⟨S_, .f32⟩
  | 5 => ⟨S50000x1, .f32⟩
  | 6 => ⟨S800000x1, .i32⟩
  | 7 => ⟨S50000x1, .f32⟩
  | 8 => ⟨S50000x1, .f32⟩
  | 9 => ⟨S50000x128, .f32⟩
  | 10 => ⟨S1x128, .f32⟩
  | 11 => ⟨S50000x128, .f32⟩
  | 12 => ⟨S50000x128, .f32⟩
  | 13 => ⟨S_, .f32⟩
  | 14 => ⟨S50000x128, .f32⟩
  | 15 => ⟨S50000x128, .f32⟩
  | 16 => ⟨S50000x128, .f32⟩
  | 17 => ⟨S1x128, .f32⟩
  | 18 => ⟨S50000x128, .f32⟩
  | 19 => ⟨S50000x128, .f32⟩
  | 20 => ⟨S_, .f32⟩
  | 21 => ⟨S50000x128, .f32⟩
  | 22 => ⟨S50000x128, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x128, .f32⟩
  | 32 => ⟨S_, .f32⟩
  | 33 => ⟨S50000x128, .f32⟩
  | 34 => ⟨S800000x1, .i32⟩
  | 35 => ⟨S50000x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S_, .f32⟩
  | 61 => ⟨S50000x128, .f32⟩
  | 62 => ⟨S800000x1, .i32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .f32⟩
  | 80 => ⟨S128x128, .f32⟩
  | 81 => ⟨S50000x1, .i32⟩
  | 82 => ⟨S128x128, .f32⟩
  | 83 => ⟨S128x128, .f32⟩
  | 84 => ⟨S1x128, .f32⟩
  | 85 => ⟨S128x128, .f32⟩
  | 86 => ⟨S128x128, .f32⟩
  | 87 => ⟨S1x800000, .i32⟩
  | 88 => ⟨S800000, .i32⟩
  | 89 => ⟨S1x800000, .i32⟩
  | 90 => ⟨S800000, .i32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x1, .f32⟩
  | 100 => ⟨S_, .f32⟩
  | 101 => ⟨S50000x1, .f32⟩
  | 102 => ⟨S800000x1, .i32⟩
  | 103 => ⟨S50000x1, .f32⟩
  | 104 => ⟨S50000x1, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S1x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x1, .f32⟩

abbrev hbmTy0_2 (i : Nat) : BufTy := match i % 128 with
  | 0 => ⟨S_, .f32⟩
  | 1 => ⟨S50000x128, .f32⟩
  | 2 => ⟨S800000x1, .i32⟩
  | 3 => ⟨S50000x128, .f32⟩
  | 4 => ⟨S50000x128, .f32⟩
  | 5 => ⟨S50000x128, .f32⟩
  | 6 => ⟨S1x128, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S50000x128, .f32⟩
  | 33 => ⟨S50000x128, .f32⟩
  | 34 => ⟨S1x128, .f32⟩
  | 35 => ⟨S50000x128, .f32⟩
  | 36 => ⟨S50000x128, .f32⟩
  | 37 => ⟨S_, .f32⟩
  | 38 => ⟨S50000x128, .f32⟩
  | 39 => ⟨S50000x128, .f32⟩
  | 40 => ⟨S50000x128, .f32⟩
  | 41 => ⟨S1x128, .f32⟩
  | 42 => ⟨S50000x128, .f32⟩
  | 43 => ⟨S50000x128, .f32⟩
  | 44 => ⟨S_, .f32⟩
  | 45 => ⟨S50000x128, .f32⟩
  | 46 => ⟨S50000x128, .f32⟩
  | 47 => ⟨S_, .f32⟩
  | 48 => ⟨S128x128, .f32⟩
  | 49 => ⟨S50000x1, .i32⟩
  | 50 => ⟨S128x128, .f32⟩
  | 51 => ⟨S128x128, .f32⟩
  | 52 => ⟨S1x128, .f32⟩
  | 53 => ⟨S128x128, .f32⟩
  | 54 => ⟨S128x128, .f32⟩
  | _ => ⟨S50000x1, .f32⟩

abbrev hbmTy (i : Nat) : BufTy := match i / 128 with
  | 0 => hbmTy0_0 i
  | 1 => hbmTy0_1 i
  | 2 => hbmTy0_2 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_c_1 : Ref sig .tc := ⟨.hbm, 55, rfl⟩
abbrev main_v25 : Ref sig .tc := ⟨.hbm, 56, rfl⟩
abbrev main_v26 : Ref sig .tc := ⟨.hbm, 57, rfl⟩
abbrev main_c_2 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_call2_cst : Ref sig .tc := ⟨.hbm, 73, rfl⟩
abbrev main_call2_v0 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_call3_cst : Ref sig .tc := ⟨.hbm, 80, rfl⟩
abbrev main_call3_v0 : Ref sig .tc := ⟨.hbm, 81, rfl⟩
abbrev main_v45 : Ref sig .tc := ⟨.hbm, 82, rfl⟩
abbrev main_c_4 : Ref sig .tc := ⟨.hbm, 83, rfl⟩
abbrev main_v46 : Ref sig .tc := ⟨.hbm, 84, rfl⟩
abbrev main_v47 : Ref sig .tc := ⟨.hbm, 85, rfl⟩
abbrev main_c_5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_call4_cst : Ref sig .tc := ⟨.hbm, 101, rfl⟩
abbrev main_call4_v0 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_call5_cst : Ref sig .tc := ⟨.hbm, 108, rfl⟩
abbrev main_call5_v0 : Ref sig .tc := ⟨.hbm, 109, rfl⟩
abbrev main_v66 : Ref sig .tc := ⟨.hbm, 110, rfl⟩
abbrev main_cst_7 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_c_8 : Ref sig .tc := ⟨.hbm, 123, rfl⟩
abbrev main_v78 : Ref sig .tc := ⟨.hbm, 124, rfl⟩
abbrev main_v79 : Ref sig .tc := ⟨.hbm, 125, rfl⟩
abbrev main_c_9 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_10 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_call6_cst : Ref sig .tc := ⟨.hbm, 141, rfl⟩
abbrev main_call6_v0 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_call7_cst : Ref sig .tc := ⟨.hbm, 148, rfl⟩
abbrev main_call7_v0 : Ref sig .tc := ⟨.hbm, 149, rfl⟩
abbrev main_v98 : Ref sig .tc := ⟨.hbm, 150, rfl⟩
abbrev main_c_11 : Ref sig .tc := ⟨.hbm, 151, rfl⟩
abbrev main_v99 : Ref sig .tc := ⟨.hbm, 152, rfl⟩
abbrev main_v100 : Ref sig .tc := ⟨.hbm, 153, rfl⟩
abbrev main_c_12 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_cst_13 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_call8_cst : Ref sig .tc := ⟨.hbm, 169, rfl⟩
abbrev main_call8_v0 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_call9_cst : Ref sig .tc := ⟨.hbm, 176, rfl⟩
abbrev main_call9_v0 : Ref sig .tc := ⟨.hbm, 177, rfl⟩
abbrev main_v119 : Ref sig .tc := ⟨.hbm, 178, rfl⟩
abbrev main_c_14 : Ref sig .tc := ⟨.hbm, 179, rfl⟩
abbrev main_v120 : Ref sig .tc := ⟨.hbm, 180, rfl⟩
abbrev main_v121 : Ref sig .tc := ⟨.hbm, 181, rfl⟩
abbrev main_c_15 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_cst_16 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_call10_cst : Ref sig .tc := ⟨.hbm, 197, rfl⟩
abbrev main_call10_v0 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_call11_cst : Ref sig .tc := ⟨.hbm, 204, rfl⟩
abbrev main_call11_v0 : Ref sig .tc := ⟨.hbm, 205, rfl⟩
abbrev main_v140 : Ref sig .tc := ⟨.hbm, 206, rfl⟩
abbrev main_cst_17 : Ref sig .tc := ⟨.hbm, 207, rfl⟩
abbrev main_v141 : Ref sig .tc := ⟨.hbm, 208, rfl⟩
abbrev main_v142 : Ref sig .tc := ⟨.hbm, 209, rfl⟩
abbrev main_v143 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_c_18 : Ref sig .tc := ⟨.hbm, 219, rfl⟩
abbrev main_v152 : Ref sig .tc := ⟨.hbm, 220, rfl⟩
abbrev main_v153 : Ref sig .tc := ⟨.hbm, 221, rfl⟩
abbrev main_c_19 : Ref sig .tc := ⟨.hbm, 222, rfl⟩
abbrev main_v154 : Ref sig .tc := ⟨.hbm, 223, rfl⟩
abbrev main_v155 : Ref sig .tc := ⟨.hbm, 224, rfl⟩
abbrev main_v156 : Ref sig .tc := ⟨.hbm, 225, rfl⟩
abbrev main_v157 : Ref sig .tc := ⟨.hbm, 226, rfl⟩
abbrev main_v158 : Ref sig .tc := ⟨.hbm, 227, rfl⟩
abbrev main_cst_20 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_call12_cst : Ref sig .tc := ⟨.hbm, 237, rfl⟩
abbrev main_call12_v0 : Ref sig .tc := ⟨.hbm, 238, rfl⟩
abbrev main_v167 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_v171 : Ref sig .tc := ⟨.hbm, 243, rfl⟩
abbrev main_call13_cst : Ref sig .tc := ⟨.hbm, 244, rfl⟩
abbrev main_call13_v0 : Ref sig .tc := ⟨.hbm, 245, rfl⟩
abbrev main_v172 : Ref sig .tc := ⟨.hbm, 246, rfl⟩
abbrev main_c_21 : Ref sig .tc := ⟨.hbm, 247, rfl⟩
abbrev main_v173 : Ref sig .tc := ⟨.hbm, 248, rfl⟩
abbrev main_v174 : Ref sig .tc := ⟨.hbm, 249, rfl⟩
abbrev main_c_22 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_cst_23 : Ref sig .tc := ⟨.hbm, 256, rfl⟩
abbrev main_v180 : Ref sig .tc := ⟨.hbm, 257, rfl⟩
abbrev main_v181 : Ref sig .tc := ⟨.hbm, 258, rfl⟩
abbrev main_v182 : Ref sig .tc := ⟨.hbm, 259, rfl⟩
abbrev main_v183 : Ref sig .tc := ⟨.hbm, 260, rfl⟩
abbrev main_v184 : Ref sig .tc := ⟨.hbm, 261, rfl⟩
abbrev main_v185 : Ref sig .tc := ⟨.hbm, 262, rfl⟩
abbrev main_v186 : Ref sig .tc := ⟨.hbm, 263, rfl⟩
abbrev main_v187 : Ref sig .tc := ⟨.hbm, 264, rfl⟩
abbrev main_call14_cst : Ref sig .tc := ⟨.hbm, 265, rfl⟩
abbrev main_call14_v0 : Ref sig .tc := ⟨.hbm, 266, rfl⟩
abbrev main_v188 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_call15_cst : Ref sig .tc := ⟨.hbm, 272, rfl⟩
abbrev main_call15_v0 : Ref sig .tc := ⟨.hbm, 273, rfl⟩
abbrev main_v193 : Ref sig .tc := ⟨.hbm, 274, rfl⟩
abbrev main_c_24 : Ref sig .tc := ⟨.hbm, 275, rfl⟩
abbrev main_v194 : Ref sig .tc := ⟨.hbm, 276, rfl⟩
abbrev main_v195 : Ref sig .tc := ⟨.hbm, 277, rfl⟩
abbrev main_c_25 : Ref sig .tc := ⟨.hbm, 278, rfl⟩
abbrev main_v196 : Ref sig .tc := ⟨.hbm, 279, rfl⟩
abbrev main_v197 : Ref sig .tc := ⟨.hbm, 280, rfl⟩
abbrev main_v198 : Ref sig .tc := ⟨.hbm, 281, rfl⟩
abbrev main_v199 : Ref sig .tc := ⟨.hbm, 282, rfl⟩
abbrev main_v200 : Ref sig .tc := ⟨.hbm, 283, rfl⟩
abbrev main_cst_26 : Ref sig .tc := ⟨.hbm, 284, rfl⟩
abbrev main_v201 : Ref sig .tc := ⟨.hbm, 285, rfl⟩
abbrev main_v202 : Ref sig .tc := ⟨.hbm, 286, rfl⟩
abbrev main_v203 : Ref sig .tc := ⟨.hbm, 287, rfl⟩
abbrev main_v204 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_call16_cst : Ref sig .tc := ⟨.hbm, 293, rfl⟩
abbrev main_call16_v0 : Ref sig .tc := ⟨.hbm, 294, rfl⟩
abbrev main_v209 : Ref sig .tc := ⟨.hbm, 295, rfl⟩
abbrev main_v210 : Ref sig .tc := ⟨.hbm, 296, rfl⟩
abbrev main_v211 : Ref sig .tc := ⟨.hbm, 297, rfl⟩
abbrev main_v212 : Ref sig .tc := ⟨.hbm, 298, rfl⟩
abbrev main_v213 : Ref sig .tc := ⟨.hbm, 299, rfl⟩
abbrev main_call17_cst : Ref sig .tc := ⟨.hbm, 300, rfl⟩
abbrev main_call17_v0 : Ref sig .tc := ⟨.hbm, 301, rfl⟩
abbrev main_v214 : Ref sig .tc := ⟨.hbm, 302, rfl⟩
abbrev main_cst_27 : Ref sig .tc := ⟨.hbm, 303, rfl⟩
abbrev main_v215 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x1 : S_.BroadcastsInDim S50000x1 (![] : Fin 0 → Fin S50000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S_S128x128 : S_.BroadcastsInDim S128x128 (![] : Fin 0 → Fin S128x128.rank)
  bcast_S50000_S50000x1_0 : S50000.BroadcastsInDim S50000x1 (![0] : Fin 1 → Fin S50000x1.rank)
  bcast_S1x128_S128x128_0_1 : S1x128.BroadcastsInDim S128x128 (![0, 1] : Fin 2 → Fin S128x128.rank)
  gather_S50000x1_S800000x1_S800000x1_1_0_n_n_0_1_11_wf : GatherDims.WF S50000x1 S800000x1 S800000x1 [1] [0] [] [0] [] 1 ![1, 1]
  scatter_S50000x1_S800000x1_S800000x1_1_0_0_1_wf : ScatterDims.WF S50000x1 S800000x1 S800000x1 [1] [0] [0] 1
  dot_S50000x1_S1x128_S50000x128_1_0_0_1_n_n_wf : DotDims.WF S50000x1 S1x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S128x128_S50000x1_S50000x128_1_0_0_1_wf : ScatterDims.WF S128x128 S50000x1 S50000x128 [1] [0] [0] 1
  dot_S128x128_S128x128_S128x128_1_0_0_1_n_n_wf : DotDims.WF S128x128 S128x128 S128x128 [1] [0] [0] [1] [] []

variable [Facts₀]

def gather_S50000x1_S800000x1_S800000x1_1_0_n_n_0_1_11 : GatherDims S50000x1 S800000x1 S800000x1 where
  offsetDims := [1]
  collapsedSliceDims := [0]
  operandBatchingDims := []
  startIndicesBatchingDims := []
  startIndexMap := [0]
  indexVectorDim := 1
  sliceSizes := ![1, 1]
  wf := gather_S50000x1_S800000x1_S800000x1_1_0_n_n_0_1_11_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S128x128_S50000x1_S50000x128_1_0_0_1 : ScatterDims S128x128 S50000x1 S50000x128 where
  updateWindowDims := [1]
  insertedWindowDims := [0]
  scatterDimsToOperandDims := [0]
  indexVectorDim := 1
  wf := scatter_S128x128_S50000x1_S50000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

class Facts : Prop extends Facts₀ where

variable [Facts]
-- ==== Proof.KernelRun.lean ====
/-
  The idealized kernel program's run with its three results kept.

  The program is nine launches of one tiled kernel among stretches of host operations. Its buffer contents at the
  boundaries between those segments form a fold from the launch memory: a host stretch applies its operations, a
  launch replaces its output array by what the tiles' write-backs leave and keeps every other buffer. This module
  states the run's conclusion with the three returned arrays read at the end of that fold, next to the statement
  that every argument array ends as launched: every weakly fair execution terminates without a fault, and in every
  final state each returned buffer holds the last boundary's contents there.
-/
import proofs.«142862_j27290222199187_1_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; in every final state the three returned
    buffers hold the contents of the last segment boundary, and every argument array is as launched. -/
theorem run : θ_run defs (onTc (τ := τ) (main (F := F))) ⟨m, fun _ => 0, ρ⟩ (fun r => ∀ c : Dev nD,
      r.2.mem ((c.tc : Thread nD τ).loc main_v52) = W37 m ρ c (Proc.devRef .tc main_v52)
      ∧ r.2.mem ((c.tc : Thread nD τ).loc main_v105) = W37 m ρ c (Proc.devRef .tc main_v105)
      ∧ r.2.mem ((c.tc : Thread nD τ).loc main_v158) = W37 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W37 m ρ c b)
    (hfin := fun c s' => by
      iintro ⟨⟨Hh, -⟩, HSI⟩
      unfold StableHlo.held
      imodintro
      iapply (pointsTo_read_all (Pipeline.ucRefs τ sig) (fun b => (((c : Thread nD τ)).1, b)) (W37 m ρ c) s')
      isplitl [Hh] <;> iassumption)
    (hQ := fun s h c =>
      ⟨h c _ (mem_uc main_v52 (by decide)),
       h c _ (mem_uc main_v105 (by decide)),
       h c _ (mem_uc main_v158 (by decide)),
       (h c _ (mem_uc main_arg0 (by decide))).trans (W37_main_arg0 m ρ c),
       (h c _ (mem_uc main_arg1 (by decide))).trans (W37_main_arg1 m ρ c),
       (h c _ (mem_uc main_arg2 (by decide))).trans (W37_main_arg2 m ρ c),
       (h c _ (mem_uc main_arg3 (by decide))).trans (W37_main_arg3 m ρ c),
       (h c _ (mem_uc main_arg4 (by decide))).trans (W37_main_arg4 m ρ c),
       (h c _ (mem_uc main_arg5 (by decide))).trans (W37_main_arg5 m ρ c),
       (h c _ (mem_uc main_arg6 (by decide))).trans (W37_main_arg6 m ρ c),
       (h c _ (mem_uc main_arg7 (by decide))).trans (W37_main_arg7 m ρ c),
       (h c _ (mem_uc main_arg8 (by decide))).trans (W37_main_arg8 m ρ c),
       (h c _ (mem_uc main_arg9 (by decide))).trans (W37_main_arg9 m ρ c),
       (h c _ (mem_uc main_arg10 (by decide))).trans (W37_main_arg10 m ρ c),
       (h c _ (mem_uc main_arg11 (by decide))).trans (W37_main_arg11 m ρ c),
       (h c _ (mem_uc main_arg12 (by decide))).trans (W37_main_arg12 m ρ c),
       (h c _ (mem_uc main_arg13 (by decide))).trans (W37_main_arg13 m ρ c),
       (h c _ (mem_uc main_arg14 (by decide))).trans (W37_main_arg14 m ρ c),
       (h c _ (mem_uc main_arg15 (by decide))).trans (W37_main_arg15 m ρ c),
       (h c _ (mem_uc main_arg16 (by decide))).trans (W37_main_arg16 m ρ c),
       (h c _ (mem_uc main_arg17 (by decide))).trans (W37_main_arg17 m ρ c),
       (h c _ (mem_uc main_arg18 (by decide))).trans (W37_main_arg18 m ρ c),
       (h c _ (mem_uc main_arg19 (by decide))).trans (W37_main_arg19 m ρ c),
       (h c _ (mem_uc main_arg20 (by decide))).trans (W37_main_arg20 m ρ c),
       (h c _ (mem_uc main_arg21 (by decide))).trans (W37_main_arg21 m ρ c),
       (h c _ (mem_uc main_arg22 (by decide))).trans (W37_main_arg22 m ρ c)⟩)

end Cert.KernelIdeal.Results

end
-- ==== Proof.KFoldBase.lean ====
/-
  Reading a buffer back through the tiled program's segment boundaries.

  The contents of the program's buffers at the boundaries between its segments form a fold from the launch memory.
  A host stretch rewrites exactly the buffers its operations return, each to its operation's value of the operands'
  contents just before; a launch rewrites exactly its output array. So a buffer's contents at a boundary are found
  by walking back: past every operation and launch that does not write it (the buffers are told apart as
  references, which is decidable), until the operation that does, whose value is then read in the same way.
  `fold_norm` is that walk as one pass of rewriting.
-/
import proofs.«142862_j27290222199187_1_alg».proof.Proof.Gen.KernelIdeal.Frame

set_option maxRecDepth 16384

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A buffer that is none of launch 0's arrays holds after the launch what it held before. -/
theorem W8_ne {b : Ref sig .tc} (hb : ∀ w, Pipeline.arrRef spec0 w ≠ b) :
    W8 m ρ c (no_index (Proc.devRef .tc b)) = W7 m ρ c (Proc.devRef .tc b) := W8_of_ne m ρ c b hb
/-- A buffer that is none of launch 1's arrays holds after the launch what it held before. -/
theorem W10_ne {b : Ref sig .tc} (hb : ∀ w, Pipeline.arrRef spec1 w ≠ b) :
    W10 m ρ c (no_index (Proc.devRef .tc b)) = W9 m ρ c (Proc.devRef .tc b) := W10_of_ne m ρ c b hb
/-- A buffer that is none of launch 2's arrays holds after the launch what it held before. -/
theorem W12_ne {b : Ref sig .tc} (hb : ∀ w, Pipeline.arrRef spec2 w ≠ b) :
    W12 m ρ c (no_index (Proc.devRef .tc b)) = W11 m ρ c (Proc.devRef .tc b) := W12_of_ne m ρ c b hb
/-- A buffer that is none of launch 3's arrays holds after the launch what it held before. -/
theorem W20_ne {b : Ref sig .tc} (hb : ∀ w, Pipeline.arrRef spec3 w ≠ b) :
    W20 m ρ c (no_index (Proc.devRef .tc b)) = W19 m ρ c (Proc.devRef .tc b) := W20_of_ne m ρ c b hb
/-- A buffer that is none of launch 4's arrays holds after the launch what it held before. -/
theorem W22_ne {b : Ref sig .tc} (hb : ∀ w, Pipeline.arrRef spec4 w ≠ b) :
    W22 m ρ c (no_index (Proc.devRef .tc b)) = W21 m ρ c (Proc.devRef .tc b) := W22_of_ne m ρ c b hb
/-- A buffer that is none of launch 5's arrays holds after the launch what it held before. -/
theorem W24_ne {b : Ref sig .tc} (hb : ∀ w, Pipeline.arrRef spec5 w ≠ b) :
    W24 m ρ c (no_index (Proc.devRef .tc b)) = W23 m ρ c (Proc.devRef .tc b) := W24_of_ne m ρ c b hb
/-- A buffer that is none of launch 6's arrays holds after the launch what it held before. -/
theorem W32_ne {b : Ref sig .tc} (hb : ∀ w, Pipeline.arrRef spec6 w ≠ b) :
    W32 m ρ c (no_index (Proc.devRef .tc b)) = W31 m ρ c (Proc.devRef .tc b) := W32_of_ne m ρ c b hb
/-- A buffer that is none of launch 7's arrays holds after the launch what it held before. -/
theorem W34_ne {b : Ref sig .tc} (hb : ∀ w, Pipeline.arrRef spec7 w ≠ b) :
    W34 m ρ c (no_index (Proc.devRef .tc b)) = W33 m ρ c (Proc.devRef .tc b) := W34_of_ne m ρ c b hb
/-- A buffer that is none of launch 8's arrays holds after the launch what it held before. -/
theorem W36_ne {b : Ref sig .tc} (hb : ∀ w, Pipeline.arrRef spec8 w ≠ b) :
    W36 m ρ c (no_index (Proc.devRef .tc b)) = W35 m ρ c (Proc.devRef .tc b) := W36_of_ne m ρ c b hb

/-- Launch 0 only reads `main_arg11` (its window 4): the array is after the launch what it was before. -/
theorem W8_in_arg11 : W8 m ρ c (no_index (Proc.devRef .tc main_arg11)) = W7 m ρ c (Proc.devRef .tc main_arg11) :=
  (W8_arr m ρ c 4).trans (((dat0 (V7 m ρ) c).arrAt_in 4 rfl _).trans (A_eq0 (V7 m ρ) c 4))
/-- Launch 1 only reads `main_arg13` (its window 2): the array is after the launch what it was before. -/
theorem W10_in_arg13 : W10 m ρ c (no_index (Proc.devRef .tc main_arg13)) = W9 m ρ c (Proc.devRef .tc main_arg13) :=
  (W10_arr m ρ c 2).trans (((dat1 (V9 m ρ) c).arrAt_in 2 rfl _).trans (A_eq1 (V9 m ρ) c 2))
/-- Launch 1 only reads `main_arg15` (its window 4): the array is after the launch what it was before. -/
theorem W10_in_arg15 : W10 m ρ c (no_index (Proc.devRef .tc main_arg15)) = W9 m ρ c (Proc.devRef .tc main_arg15) :=
  (W10_arr m ρ c 4).trans (((dat1 (V9 m ρ) c).arrAt_in 4 rfl _).trans (A_eq1 (V9 m ρ) c 4))
/-- Launch 2 only reads `main_arg17` (its window 2): the array is after the launch what it was before. -/
theorem W12_in_arg17 : W12 m ρ c (no_index (Proc.devRef .tc main_arg17)) = W11 m ρ c (Proc.devRef .tc main_arg17) :=
  (W12_arr m ρ c 2).trans (((dat2 (V11 m ρ) c).arrAt_in 2 rfl _).trans (A_eq2 (V11 m ρ) c 2))
/-- Launch 2 only reads `main_arg19` (its window 4): the array is after the launch what it was before. -/
theorem W12_in_arg19 : W12 m ρ c (no_index (Proc.devRef .tc main_arg19)) = W11 m ρ c (Proc.devRef .tc main_arg19) :=
  (W12_arr m ρ c 4).trans (((dat2 (V11 m ρ) c).arrAt_in 4 rfl _).trans (A_eq2 (V11 m ρ) c 4))
/-- Launch 3 only reads `main_arg11` (its window 4): the array is after the launch what it was before. -/
theorem W20_in_arg11 : W20 m ρ c (no_index (Proc.devRef .tc main_arg11)) = W19 m ρ c (Proc.devRef .tc main_arg11) :=
  (W20_arr m ρ c 4).trans (((dat3 (V19 m ρ) c).arrAt_in 4 rfl _).trans (A_eq3 (V19 m ρ) c 4))
/-- Launch 4 only reads `main_arg13` (its window 2): the array is after the launch what it was before. -/
theorem W22_in_arg13 : W22 m ρ c (no_index (Proc.devRef .tc main_arg13)) = W21 m ρ c (Proc.devRef .tc main_arg13) :=
  (W22_arr m ρ c 2).trans (((dat4 (V21 m ρ) c).arrAt_in 2 rfl _).trans (A_eq4 (V21 m ρ) c 2))
/-- Launch 4 only reads `main_arg15` (its window 4): the array is after the launch what it was before. -/
theorem W22_in_arg15 : W22 m ρ c (no_index (Proc.devRef .tc main_arg15)) = W21 m ρ c (Proc.devRef .tc main_arg15) :=
  (W22_arr m ρ c 4).trans (((dat4 (V21 m ρ) c).arrAt_in 4 rfl _).trans (A_eq4 (V21 m ρ) c 4))
/-- Launch 5 only reads `main_arg17` (its window 2): the array is after the launch what it was before. -/
theorem W24_in_arg17 : W24 m ρ c (no_index (Proc.devRef .tc main_arg17)) = W23 m ρ c (Proc.devRef .tc main_arg17) :=
  (W24_arr m ρ c 2).trans (((dat5 (V23 m ρ) c).arrAt_in 2 rfl _).trans (A_eq5 (V23 m ρ) c 2))
/-- Launch 5 only reads `main_arg19` (its window 4): the array is after the launch what it was before. -/
theorem W24_in_arg19 : W24 m ρ c (no_index (Proc.devRef .tc main_arg19)) = W23 m ρ c (Proc.devRef .tc main_arg19) :=
  (W24_arr m ρ c 4).trans (((dat5 (V23 m ρ) c).arrAt_in 4 rfl _).trans (A_eq5 (V23 m ρ) c 4))
/-- Launch 6 only reads `main_arg11` (its window 4): the array is after the launch what it was before. -/
theorem W32_in_arg11 : W32 m ρ c (no_index (Proc.devRef .tc main_arg11)) = W31 m ρ c (Proc.devRef .tc main_arg11) :=
  (W32_arr m ρ c 4).trans (((dat6 (V31 m ρ) c).arrAt_in 4 rfl _).trans (A_eq6 (V31 m ρ) c 4))
/-- Launch 7 only reads `main_arg13` (its window 2): the array is after the launch what it was before. -/
theorem W34_in_arg13 : W34 m ρ c (no_index (Proc.devRef .tc main_arg13)) = W33 m ρ c (Proc.devRef .tc main_arg13) :=
  (W34_arr m ρ c 2).trans (((dat7 (V33 m ρ) c).arrAt_in 2 rfl _).trans (A_eq7 (V33 m ρ) c 2))
/-- Launch 7 only reads `main_arg15` (its window 4): the array is after the launch what it was before. -/
theorem W34_in_arg15 : W34 m ρ c (no_index (Proc.devRef .tc main_arg15)) = W33 m ρ c (Proc.devRef .tc main_arg15) :=
  (W34_arr m ρ c 4).trans (((dat7 (V33 m ρ) c).arrAt_in 4 rfl _).trans (A_eq7 (V33 m ρ) c 4))
/-- Launch 8 only reads `main_arg17` (its window 2): the array is after the launch what it was before. -/
theorem W36_in_arg17 : W36 m ρ c (no_index (Proc.devRef .tc main_arg17)) = W35 m ρ c (Proc.devRef .tc main_arg17) :=
  (W36_arr m ρ c 2).trans (((dat8 (V35 m ρ) c).arrAt_in 2 rfl _).trans (A_eq8 (V35 m ρ) c 2))
/-- Launch 8 only reads `main_arg19` (its window 4): the array is after the launch what it was before. -/
theorem W36_in_arg19 : W36 m ρ c (no_index (Proc.devRef .tc main_arg19)) = W35 m ρ c (Proc.devRef .tc main_arg19) :=
  (W36_arr m ρ c 4).trans (((dat8 (V35 m ρ) c).arrAt_in 4 rfl _).trans (A_eq8 (V35 m ρ) c 4))

end Cert.KernelIdeal.Gen

/-- The walk back through the boundaries, as one pass: unfold the boundary contents to the folds they abbreviate,
    then read every operation's result at its own buffer and every other buffer through it, and every launch's
    non-arrays through it. Extra equations (an earlier launch's output, already read) may be given. -/
syntax "fold_norm" ("[" Lean.Parser.Tactic.simpLemma,* "]")? : tactic
open Cert.KernelIdeal Cert.KernelIdeal.Gen Idealize.ShloMosaic in
macro_rules
  | `(tactic| fold_norm) => `(tactic| simp (disch := decide) only [W1, W2, W3, W4, W5, W6, W7, W9, W11, W13, W14, W15, W16, W17, W18, W19, W21, W23, W25, W26, W27, W28, W29, W30, W31, W33, W35, W37, V7, V9, V11, V19, V21, V23, V31, V33, V35, hostOps0, hostOps0_1, hostOps0_2, hostOps0_3, hostOps0_4, hostOps0_5, hostOps0_6, hostOps1, hostOps2, hostOps3, hostOps3_1, hostOps3_2, hostOps3_3, hostOps3_4, hostOps3_5, hostOps3_6, hostOps4, hostOps5, hostOps6, hostOps6_1, hostOps6_2, hostOps6_3, hostOps6_4, hostOps6_5, hostOps6_6, hostOps7, hostOps8, hostOps9, StableHlo.after_cons, StableHlo.after_nil, StableHlo.nullary_result', StableHlo.unary_result', StableHlo.binary_result', StableHlo.ternary_result', StableHlo.quaternary_result', StableHlo.reshape_result', StableHlo.nullary_result_ne', StableHlo.unary_result_ne', StableHlo.binary_result_ne', StableHlo.ternary_result_ne', StableHlo.quaternary_result_ne', StableHlo.reshape_result_ne', W8_ne, W10_ne, W12_ne, W20_ne, W22_ne, W24_ne, W32_ne, W34_ne, W36_ne, W8_in_arg11, W10_in_arg13, W10_in_arg15, W12_in_arg17, W12_in_arg19, W20_in_arg11, W22_in_arg13, W22_in_arg15, W24_in_arg17, W24_in_arg19, W32_in_arg11, W34_in_arg13, W34_in_arg15, W36_in_arg17, W36_in_arg19])
  | `(tactic| fold_norm [$ls,*]) => `(tactic| simp (disch := decide) only [W1, W2, W3, W4, W5, W6, W7, W9, W11, W13, W14, W15, W16, W17, W18, W19, W21, W23, W25, W26, W27, W28, W29, W30, W31, W33, W35, W37, V7, V9, V11, V19, V21, V23, V31, V33, V35, hostOps0, hostOps0_1, hostOps0_2, hostOps0_3, hostOps0_4, hostOps0_5, hostOps0_6, hostOps1, hostOps2, hostOps3, hostOps3_1, hostOps3_2, hostOps3_3, hostOps3_4, hostOps3_5, hostOps3_6, hostOps4, hostOps5, hostOps6, hostOps6_1, hostOps6_2, hostOps6_3, hostOps6_4, hostOps6_5, hostOps6_6, hostOps7, hostOps8, hostOps9, StableHlo.after_cons, StableHlo.after_nil, StableHlo.nullary_result', StableHlo.unary_result', StableHlo.binary_result', StableHlo.ternary_result', StableHlo.quaternary_result', StableHlo.reshape_result', StableHlo.nullary_result_ne', StableHlo.unary_result_ne', StableHlo.binary_result_ne', StableHlo.ternary_result_ne', StableHlo.quaternary_result_ne', StableHlo.reshape_result_ne', W8_ne, W10_ne, W12_ne, W20_ne, W22_ne, W24_ne, W32_ne, W34_ne, W36_ne, W8_in_arg11, W10_in_arg13, W10_in_arg15, W12_in_arg17, W12_in_arg19, W20_in_arg11, W22_in_arg13, W22_in_arg15, W24_in_arg17, W24_in_arg19, W32_in_arg11, W34_in_arg13, W34_in_arg15, W36_in_arg17, W36_in_arg19, $ls,*])

end
-- ==== Proof.Mlp.lean ====
/-
  The two-layer perceptron of one graph-isomorphism layer, on the extended reals.

  A layer takes the node features `x` and the neighbour sums `a` (both `R × 128`), adds them, and applies
  `relu (relu (h · w1 + b1) · w2 + b2)` row by row, where `w1, w2` are `128 × 128` and the biases are kept as
  `1 × 128` arrays. Row `p` of the result depends only on row `p` of `x` and `a`: that is why a tile of rows of
  the result is the same function of the same tile of rows of the inputs, whatever the tile's height `R`.
  Everything is exact arithmetic on `EReal`: `relu t = max t 0`, sums are finite sums in the additive monoid.
-/
import Idealize.ShloMosaic.Lib.ValueIdx
import Idealize.ShloMosaic.PureOps.Ideal.Laws

noncomputable section

namespace Cert.Gin

open Idealize.ShloMosaic Idealize.ShloMosaic.ValueIdx

/-- `128 × 128`: a weight matrix. -/
abbrev SW : Shape := ⟨2, ![128, 128]⟩
/-- `1 × 128`: a bias kept as one row. -/
abbrev SB : Shape := ⟨2, ![1, 128]⟩
/-- `R × 128`: `R` rows of features. -/
abbrev SX (R : Nat) : Shape := ⟨2, ![R, 128]⟩

/-- Entry `q` of `relu (relu (h · w1 + b1) · w2 + b2)` for one feature row `h`. -/
def mlpRow (h : Fin 128 → EReal) (w1 : SW.Idx → EReal) (b1 : SB.Idx → EReal) (w2 : SW.Idx → EReal) (b2 : SB.Idx → EReal)
    (q : Fin 128) : EReal :=
  max ((∑ k : Fin 128, max ((∑ l : Fin 128, h l * w1 (ix2 l k)) + b1 (ix2 0 k)) 0 * w2 (ix2 k q)) + b2 (ix2 0 q)) 0

/-- The layer on `R` rows: entry `(p, q)` is `mlpRow` of row `p` of `x + a`. -/
def mlp {R : Nat} (x a : (SX R).Idx → EReal) (w1 : SW.Idx → EReal) (b1 : SB.Idx → EReal) (w2 : SW.Idx → EReal)
    (b2 : SB.Idx → EReal) : (SX R).Idx → EReal := fun i =>
  mlpRow (fun l => x (ix2 ⟨(i 0).val, idx2_lt0 i⟩ l) + a (ix2 ⟨(i 0).val, idx2_lt0 i⟩ l)) w1 b1 w2 b2 ⟨(i 1).val, idx2_lt1 i⟩

theorem mlp_ix2 {R : Nat} (x a : (SX R).Idx → EReal) (w1 : SW.Idx → EReal) (b1 : SB.Idx → EReal) (w2 : SW.Idx → EReal)
    (b2 : SB.Idx → EReal) (p : Fin R) (q : Fin 128) :
    mlp x a w1 b1 w2 b2 (ix2 p q) = mlpRow (fun l => x (ix2 p l) + a (ix2 p l)) w1 b1 w2 b2 q := rfl

/-- A length-`128` bias as one row. -/
def asRow (b : (⟨1, ![128]⟩ : Shape).Idx → EReal) : SB.Idx → EReal := fun i => b (ix1 ⟨(i 1).val, idx2_lt1 i⟩)

theorem asRow_ix2 (b : (⟨1, ![128]⟩ : Shape).Idx → EReal) (z : Fin 1) (q : Fin 128) : asRow b (ix2 z q) = b (ix1 q) := rfl

/-- A one-column array widened to `128` columns with zeros. -/
def padCols {R : Nat} (x : (⟨2, ![R, 1]⟩ : Shape).Idx → EReal) : (SX R).Idx → EReal := fun i =>
  if (i 1).val = 0 then x (ix2 ⟨(i 0).val, idx2_lt0 i⟩ 0) else 0

/-- A one-row matrix lengthened to `128` rows with zeros. -/
def padRows (w : (⟨2, ![1, 128]⟩ : Shape).Idx → EReal) : SW.Idx → EReal := fun i =>
  if (i 0).val = 0 then w (ix2 0 ⟨(i 1).val, idx2_lt1 i⟩) else 0

theorem padCols_ix2 {R : Nat} (x : (⟨2, ![R, 1]⟩ : Shape).Idx → EReal) (p : Fin R) (l : Fin 128) :
    padCols x (ix2 p l) = if l.val = 0 then x (ix2 p 0) else 0 := rfl

theorem padRows_ix2 (w : (⟨2, ![1, 128]⟩ : Shape).Idx → EReal) (l k : Fin 128) :
    padRows w (ix2 l k) = if l.val = 0 then w (ix2 0 k) else 0 := rfl

/-- The contraction of a zero-padded row with a zero-padded matrix is its one surviving term: every other term
    is `(0 + 0) * 0 = 0`, and adding zeros changes no extended real. -/
theorem sum_padded {R : Nat} (x a : (⟨2, ![R, 1]⟩ : Shape).Idx → EReal) (w : (⟨2, ![1, 128]⟩ : Shape).Idx → EReal)
    (p : Fin R) (k : Fin 128) :
    ∑ l : Fin 128, (padCols x (ix2 p l) + padCols a (ix2 p l)) * padRows w (ix2 l k)
      = (x (ix2 p 0) + a (ix2 p 0)) * w (ix2 0 k) := by
  rw [Finset.sum_eq_single (0 : Fin 128)]
  · simp only [padCols_ix2, padRows_ix2, Fin.val_zero, if_true]
  · intro l _ hl
    have hl' : l.val ≠ 0 := fun h => hl (Fin.ext h)
    simp only [padCols_ix2, padRows_ix2, if_neg hl', add_zero, mul_zero]
  · intro h; exact absurd (Finset.mem_univ _) h

end Cert.Gin

end
-- ==== Proof.KSpec.lean ====
/-
  One branch of the tiled program's host side, and how its staging operations read.

  Around its nine launches the tiled program runs the same gather, scatter-add and pooling operations as the
  reference. Before a first-layer launch it widens the one-column features and neighbour sums to `128` columns, and
  lengthens the one-row weight to `128` rows, padding with the integer zero converted to a float — the extended real
  `0` —, and it reshapes every length-`128` bias to one row. Read entry by entry: the widened arrays are the
  operand in column `0` (row `0`) and `0` elsewhere, the reshaped bias is the bias at the entry's column.
-/
import proofs.«142862_j27290222199187_1_alg».proof.Proof.Gen.KernelIdeal
import proofs.«142862_j27290222199187_1_alg».proof.Proof.Mlp
import Idealize.ShloMosaic.Lib.KernelVsHost
import Idealize.ShloMosaic.Lib.Pipeline.Value

noncomputable section

namespace Cert.Gin.K

open Cert.KernelIdeal Cert.KernelIdeal.Facts₀ Idealize.ShloMosaic Idealize.ShloMosaic.ValueIdx Cert.Gin

/-- Row `0` of the edge list: each edge's source node. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row `1` of the edge list: each edge's destination node. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- A negative node number counts from the end: `s + 50000` where `s < 0`. -/
def wrap (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- The neighbour sums of one-column features: gather each edge's source row, add it into the destination row. -/
def agg1 (e : (⟨S2x800000, .i32⟩ : BufTy).Contents (Elt Ideal)) (x : FVec Ideal S50000x1 .f32) : FVec Ideal S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 (dst e))
    (Host.gather gather_S50000x1_S800000x1_S800000x1_1_0_n_n_0_1_11 x
      (broadcastInDim S800000x1 ![0] bcast_S800000_S800000x1_0 (wrap (src e))))

/-- The neighbour sums of `128`-column features. -/
def agg (e : (⟨S2x800000, .i32⟩ : BufTy).Contents (Elt Ideal)) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst e))
    (Host.gather gather_S50000x128_S800000x1_S800000x128_1_0_n_n_0_1_1128 h
      (broadcastInDim S800000x1 ![0] bcast_S800000_S800000x1_0 (wrap (src e))))

/-- Sum the node rows of each graph, then the final linear map with its bias. -/
def pool (bt : (⟨S50000, .i32⟩ : BufTy).Contents (Elt Ideal)) (h : FVec Ideal S50000x128 .f32) (fcw : FVec Ideal S128x128 .f32) (fcb : FVec Ideal S128 .f32) :
    FVec Ideal S128x128 .f32 :=
  addf (Host.dotGeneral dot_S128x128_S128x128_S128x128_1_0_0_1_n_n none
      (Host.scatterAdd scatter_S128x128_S50000x1_S50000x128_1_0_0_1
        (broadcastInDim S128x128 ![] bcast_S_S128x128 (constant S_ .f32 0x00000000#32))
        (broadcastInDim S50000x1 ![0] bcast_S50000_S50000x1_0 bt) h) fcw)
    (broadcastInDim S128x128 ![0, 1] bcast_S1x128_S128x128_0_1 (broadcastInDim S1x128 ![1] bcast_S128_S1x128_1 fcb))

/-- The features after the first, second and third layer, each the layer function of the previous features and
    their neighbour sums. -/
def feat1 (x : FVec Ideal S50000x1 .f32) (e : (⟨S2x800000, .i32⟩ : BufTy).Contents (Elt Ideal)) (w11 : FVec Ideal S1x128 .f32) (b11 : FVec Ideal S128 .f32)
    (w12 : FVec Ideal S128x128 .f32) (b12 : FVec Ideal S128 .f32) : FVec Ideal S50000x128 .f32 :=
  mlp (R := 50000) (padCols x) (padCols (agg1 e x)) (padRows w11) (asRow b11) w12 (asRow b12)

def featNext (h : FVec Ideal S50000x128 .f32) (e : (⟨S2x800000, .i32⟩ : BufTy).Contents (Elt Ideal)) (w1 : FVec Ideal S128x128 .f32) (b1 : FVec Ideal S128 .f32)
    (w2 : FVec Ideal S128x128 .f32) (b2 : FVec Ideal S128 .f32) : FVec Ideal S50000x128 .f32 :=
  mlp (R := 50000) h (agg e h) w1 (asRow b1) w2 (asRow b2)

/-- One branch of the network: three layers, the pooling, the final linear map. -/
def branch (x : FVec Ideal S50000x1 .f32) (e : (⟨S2x800000, .i32⟩ : BufTy).Contents (Elt Ideal)) (bt : (⟨S50000, .i32⟩ : BufTy).Contents (Elt Ideal))
    (w11 : FVec Ideal S1x128 .f32) (b11 : FVec Ideal S128 .f32) (w12 : FVec Ideal S128x128 .f32) (b12 : FVec Ideal S128 .f32)
    (w21 : FVec Ideal S128x128 .f32) (b21 : FVec Ideal S128 .f32) (w22 : FVec Ideal S128x128 .f32) (b22 : FVec Ideal S128 .f32)
    (w31 : FVec Ideal S128x128 .f32) (b31 : FVec Ideal S128 .f32) (w32 : FVec Ideal S128x128 .f32) (b32 : FVec Ideal S128 .f32)
    (fcw : FVec Ideal S128x128 .f32) (fcb : FVec Ideal S128 .f32) : FVec Ideal S128x128 .f32 :=
  pool bt (featNext (featNext (feat1 x e w11 b11 w12 b12) e w21 b21 w22 b22) e w31 b31 w32 b32) fcw fcb

/-- The float the padding fills with: the integer zero converted. -/
abbrev padZero : FVec Ideal S_ .f32 := sitofp .f32 (constantI S_ 32 0#32)

theorem padZero_apply (i : S_.Idx) : padZero i = 0 := by
  show ((((0#32 : BitVec 32).toInt : ℤ) : ℝ) : EReal) = 0
  simp

/-- One column widened to `128` by padding on the right. -/
theorem pad_cols (x : FVec Ideal S50000x1 .f32) :
    pad S50000x128 ![0, 0] ![0, 127] ![0, 0] x padZero pads_S50000x1_S50000x128_000_01270 h_S_ = padCols (R := 50000) x := by
  funext i
  obtain ⟨p, l, rfl⟩ : ∃ (p : Fin 50000) (l : Fin 128), i = ix2 p l := ⟨i 0, i 1, eq_ix2 i⟩
  rw [padCols_ix2]
  by_cases hl : l.val = 0
  · rw [if_pos hl]
    exact pad_apply_of_inside _ _ _ x _ pads_S50000x1_S50000x128_000_01270 h_S_ (ix2 p l) (ix2 p 0) (fun a => match a with
      | ⟨0, _⟩ => by show p.val = 0 + p.val * (0 + 1); omega
      | ⟨1, _⟩ => by show l.val = 0 + 0 * (0 + 1); omega)
  · rw [if_neg hl, pad_apply_of_not_inside _ _ _ x _ pads_S50000x1_S50000x128_000_01270 h_S_ (ix2 p l) 1
      (by show ¬(0 ≤ l.val ∧ (l.val - 0) % (0 + 1) = 0 ∧ (l.val - 0) / (0 + 1) < 1); omega)]
    exact padZero_apply _

/-- One row lengthened to `128` by padding below. -/
theorem pad_rows (w : FVec Ideal S1x128 .f32) :
    pad S128x128 ![0, 0] ![127, 0] ![0, 0] w padZero pads_S1x128_S128x128_01270_000 h_S_ = padRows w := by
  funext i
  obtain ⟨l, k, rfl⟩ : ∃ (l : Fin 128) (k : Fin 128), i = ix2 l k := ⟨i 0, i 1, eq_ix2 i⟩
  rw [padRows_ix2]
  by_cases hl : l.val = 0
  · rw [if_pos hl]
    exact pad_apply_of_inside _ _ _ w _ pads_S1x128_S128x128_01270_000 h_S_ (ix2 l k) (ix2 0 k) (fun a => match a with
      | ⟨0, _⟩ => by show l.val = 0 + 0 * (0 + 1); omega
      | ⟨1, _⟩ => by show k.val = 0 + k.val * (0 + 1); omega)
  · rw [if_neg hl, pad_apply_of_not_inside _ _ _ w _ pads_S1x128_S128x128_01270_000 h_S_ (ix2 l k) 0
      (by show ¬(0 ≤ l.val ∧ (l.val - 0) % (0 + 1) = 0 ∧ (l.val - 0) / (0 + 1) < 1); omega)]
    exact padZero_apply _

/-- A length-`128` bias reshaped to one row. -/
theorem reshape_row (b : FVec Ideal S128 .f32) : shapeCast S1x128 b shapeCasts_S128_S1x128 = asRow b := by
  funext i
  obtain ⟨z, q, rfl⟩ : ∃ (z : Fin 1) (q : Fin 128), i = ix2 z q := ⟨i 0, i 1, eq_ix2 i⟩
  rw [asRow_ix2]
  refine shapeCast_apply b shapeCasts_S128_S1x128 (ix2 z q) (ix1 q) ?_
  have hz : z.val = 0 := by omega
  rw [Shape.rowMajor_val_one, Shape.rowMajor_val_two]
  show q.val = z.val * 128 + q.val
  omega

end Cert.Gin.K

end
-- ==== Proof.LibPlainDot.lean ====
/-
  A plain matrix product read at an entry.

  For dimension numbers that contract the left operand's second axis against the right operand's first, with no
  batch axes — an `M×K` array times a `K×N` array — the contraction's index set is one axis of extent `K`, and the
  operand indices at output entry `(p, q)` and contraction position `k` are `(p, k)` on the left and `(k, q)` on the
  right. So the sum over the contraction index set of the operands' products is the textbook
  `∑ k : Fin K, l (p, k) * r (k, q)`. Stated for any dimension-number record whose six lists are the plain ones, so
  that every printed record of this form meets it by `rfl` hypotheses.
-/
import Idealize.ShloMosaic.Lib.ValueIdx
import Idealize.ShloMosaic.PureOps.Ideal.Laws

noncomputable section

namespace Cert.LibPlainDot

open Idealize.ShloMosaic Idealize.ShloMosaic.ValueIdx

/-- The sum over a plain product's contraction index set, at output entry `(p, q)`, is the sum over `k : Fin K` of
    the left operand at `(p, k)` times the right operand at `(k, q)`, in any commutative additive monoid with a
    product. -/
theorem sum_plain {R : Type} [AddCommMonoid R] [Mul R] {M K N : Nat}
    (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → R) (r : (⟨2, ![K, N]⟩ : Shape).Idx → R) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

end Cert.LibPlainDot

end
-- ==== Proof.Payload.lean ====
/-
  The kernel body's arithmetic is the layer function on one tile of rows.

  The body loads a `5000 × 128` tile of the features and of the neighbour sums, the two `128 × 128` weight
  matrices and the two `1 × 128` bias rows, and stores
  `relu (relu ((x + a) · w1 + b1) · w2 + b2)` for the tile. On the extended reals a change of float format is the
  identity, a matrix product into a zero accumulator is the plain sum over the contracted axis, the bias row
  broadcast down the tile reads the row at the entry's column, and `relu t = max t 0`. So entry `(p, q)` of the
  stored tile is `mlpRow` of row `p` of `x + a`: the tile is `mlp` on `5000` rows.
-/
import proofs.«142862_j27290222199187_1_alg».proof.Proof.Gen.KernelIdeal.Skeleton
import proofs.«142862_j27290222199187_1_alg».proof.Proof.Mlp
import proofs.«142862_j27290222199187_1_alg».proof.Proof.LibPlainDot
import Idealize.ShloMosaic.Lib.Pipeline.Value

noncomputable section

namespace Cert.Gin.Tile

open Cert.KernelIdeal Cert.KernelIdeal.Facts₀ Idealize.ShloMosaic Idealize.ShloMosaic.ValueIdx Cert.Gin

/-- The scalar zero the body takes maxima against is the extended real `0`. -/
theorem zero_scalar : (Scalar.ofBits (F := Ideal) .f32 0x00000000#32 : EReal) = 0 := Ideal.ofBits_zero_f32

/-- A bias row broadcast down a tile, read at entry `(p, q)`, is the row's entry `q`. -/
theorem bias_tile (b : FVec Ideal S1x128 .f32) (p : Fin 5000) (q : Fin 128) :
    broadcastTo S5000x128 b broadcasts_S1x128_S5000x128 (ix2 p q) = b (ix2 0 q) :=
  broadcastTo_apply b broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)

/-- A tile times a weight matrix, accumulated into zeros, read at entry `(p, q)`: the sum over the `128` contracted
    positions. -/
theorem mm_tile {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  simp only [matmul]
  rw [Ideal.matmul_constant_zero_apply]
  exact Cert.LibPlainDot.sum_plain (R := EReal) dot_S5000x128_S128x128_S5000x128_1_0_0_1_n_n rfl rfl rfl rfl rfl rfl l r p q

/-- Launch 0's body stores the layer function of its tile. -/
theorem pay_eq0 (x0 x1 : Vec Ideal S5000x128 .f32) (x2 : Vec Ideal S128x128 .f32) (x3 : Vec Ideal S1x128 .f32)
    (x4 : Vec Ideal S128x128 .f32) (x5 : Vec Ideal S1x128 .f32) :
    Gen.k0_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k0_pay1 mlpRow
  simp only [shapeCast_self, maximumf_apply, addf_apply, bias_tile, broadcast_apply, mm_tile, truncf_apply, zero_scalar]

/-- Launch 1's body stores the layer function of its tile. -/
theorem pay_eq1 (x0 x1 : Vec Ideal S5000x128 .f32) (x2 : Vec Ideal S128x128 .f32) (x3 : Vec Ideal S1x128 .f32)
    (x4 : Vec Ideal S128x128 .f32) (x5 : Vec Ideal S1x128 .f32) :
    Gen.k1_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k1_pay1 mlpRow
  simp only [shapeCast_self, maximumf_apply, addf_apply, bias_tile, broadcast_apply, mm_tile, truncf_apply, zero_scalar]

/-- Launch 2's body stores the layer function of its tile. -/
theorem pay_eq2 (x0 x1 : Vec Ideal S5000x128 .f32) (x2 : Vec Ideal S128x128 .f32) (x3 : Vec Ideal S1x128 .f32)
    (x4 : Vec Ideal S128x128 .f32) (x5 : Vec Ideal S1x128 .f32) :
    Gen.k2_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k2_pay1 mlpRow
  simp only [shapeCast_self, maximumf_apply, addf_apply, bias_tile, broadcast_apply, mm_tile, truncf_apply, zero_scalar]

/-- Launch 3's body stores the layer function of its tile. -/
theorem pay_eq3 (x0 x1 : Vec Ideal S5000x128 .f32) (x2 : Vec Ideal S128x128 .f32) (x3 : Vec Ideal S1x128 .f32)
    (x4 : Vec Ideal S128x128 .f32) (x5 : Vec Ideal S1x128 .f32) :
    Gen.k3_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k3_pay1 mlpRow
  simp only [shapeCast_self, maximumf_apply, addf_apply, bias_tile, broadcast_apply, mm_tile, truncf_apply, zero_scalar]

/-- Launch 4's body stores the layer function of its tile. -/
theorem pay_eq4 (x0 x1 : Vec Ideal S5000x128 .f32) (x2 : Vec Ideal S128x128 .f32) (x3 : Vec Ideal S1x128 .f32)
    (x4 : Vec Ideal S128x128 .f32) (x5 : Vec Ideal S1x128 .f32) :
    Gen.k4_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k4_pay1 mlpRow
  simp only [shapeCast_self, maximumf_apply, addf_apply, bias_tile, broadcast_apply, mm_tile, truncf_apply, zero_scalar]

/-- Launch 5's body stores the layer function of its tile. -/
theorem pay_eq5 (x0 x1 : Vec Ideal S5000x128 .f32) (x2 : Vec Ideal S128x128 .f32) (x3 : Vec Ideal S1x128 .f32)
    (x4 : Vec Ideal S128x128 .f32) (x5 : Vec Ideal S1x128 .f32) :
    Gen.k5_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k5_pay1 mlpRow
  simp only [shapeCast_self, maximumf_apply, addf_apply, bias_tile, broadcast_apply, mm_tile, truncf_apply, zero_scalar]

/-- Launch 6's body stores the layer function of its tile. -/
theorem pay_eq6 (x0 x1 : Vec Ideal S5000x128 .f32) (x2 : Vec Ideal S128x128 .f32) (x3 : Vec Ideal S1x128 .f32)
    (x4 : Vec Ideal S128x128 .f32) (x5 : Vec Ideal S1x128 .f32) :
    Gen.k6_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k6_pay1 mlpRow
  simp only [shapeCast_self, maximumf_apply, addf_apply, bias_tile, broadcast_apply, mm_tile, truncf_apply, zero_scalar]

/-- Launch 7's body stores the layer function of its tile. -/
theorem pay_eq7 (x0 x1 : Vec Ideal S5000x128 .f32) (x2 : Vec Ideal S128x128 .f32) (x3 : Vec Ideal S1x128 .f32)
    (x4 : Vec Ideal S128x128 .f32) (x5 : Vec Ideal S1x128 .f32) :
    Gen.k7_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k7_pay1 mlpRow
  simp only [shapeCast_self, maximumf_apply, addf_apply, bias_tile, broadcast_apply, mm_tile, truncf_apply, zero_scalar]

/-- Launch 8's body stores the layer function of its tile. -/
theorem pay_eq8 (x0 x1 : Vec Ideal S5000x128 .f32) (x2 : Vec Ideal S128x128 .f32) (x3 : Vec Ideal S1x128 .f32)
    (x4 : Vec Ideal S128x128 .f32) (x5 : Vec Ideal S1x128 .f32) :
    Gen.k8_pay1 (F := Ideal) x0 x1 x2 x3 x4 x5 = mlp (R := 5000) x0 x1 x2 x3 x4 x5 := by
  funext j
  obtain ⟨p, q, rfl⟩ : ∃ (p : Fin 5000) (q : Fin 128), j = ix2 p q := ⟨j 0, j 1, eq_ix2 j⟩
  rw [mlp_ix2]
  unfold Gen.k8_pay1 mlpRow
  simp only [shapeCast_self, maximumf_apply, addf_apply, bias_tile, broadcast_apply, mm_tile, truncf_apply, zero_scalar]

end Cert.Gin.Tile

end
-- ==== Proof.Region0.lean ====
/-
  Launch 0 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region0

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem grid_size : cfg0.N = 10 := rfl

set_option maxHeartbeats 1000000 in
/-- What tile `t` writes back is the tile's rows of the layer function of the whole arrays. -/
theorem flushed_eq (c : Dev nD) (t : Fin cfg0.N) :
    (dat0 V c).flushed 6 t = ((cfg0.win 6).blk t).view.read (Elt Ideal)
      (mlp (R := 50000) (V c main_v14) (V c main_v15) (V c main_v16) (V c main_v17) (V c main_arg11) (V c main_v18)) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  rw [Tile.pay_eq0]
  obtain ⟨e00, e01, e10, e11, e20, e21, e30, e31, e40, e41, e50, e51, e60, e61⟩ := idx_facts t
  have hw2 : iblk0 V c 2 t = V c main_v16 := by
    funext y
    show V c main_v16 (((cfg0.win 2).blk t).view.emb y) = V c main_v16 y
    refine congrArg (V c main_v16) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  have hw3 : iblk0 V c 3 t = V c main_v17 := by
    funext y
    show V c main_v17 (((cfg0.win 3).blk t).view.emb y) = V c main_v17 y
    refine congrArg (V c main_v17) (funext fun a => Fin.ext ?_)
    match a with
    | ⟨0, _⟩ => show win0_3.index t (0 : Fin 2) * 1 + 1 * (y 0).val = (y 0).val; omega
    | ⟨1, _⟩ => show win0_3.index t (1 : Fin 2) * 128 + 1 * (y 1).val = (y 1).val; omega
  have hw4 : iblk0 V c 4 t = V c main_arg11 := by
    funext y
    show V c main_arg11 (((cfg0.win 4).blk t).view.emb y) = V c main_arg11 y
    refine congrArg (V c main_arg11) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hw5 : iblk0 V c 5 t = V c main_v18 := by
    funext y
    show V c main_v18 (((cfg0.win 5).blk t).view.emb y) = V c main_v18 y
    refine congrArg (V c main_v18) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg0.win 6).blk t).view.emb (ix2 p l) = ix2 (⟨t.val * 5000 + p.val, hrow⟩ : Fin 50000) l := fun l => by
    funext a; apply Fin.ext
    match a with
    | ⟨0, _⟩ => show win0_6.index t (0 : Fin 2) * 5000 + 1 * p.val = t.val * 5000 + p.val; omega
    | ⟨1, _⟩ => show win0_6.index t (1 : Fin 2) * 128 + 1 * l.val = l.val; omega
  have h0 : ∀ l : Fin 128, ((cfg0.win 0).blk t).view.emb (ix2 p l) = ix2 (⟨t.val * 5000 + p.val, hrow⟩ : Fin 50000) l := fun l => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * l.val = l.val; omega
  have h1 : ∀ l : Fin 128, ((cfg0.win 1).blk t).view.emb (ix2 p l) = ix2 (⟨t.val * 5000 + p.val, hrow⟩ : Fin 50000) l := fun l => by
    funext a; apply Fin.ext
    match a with
    | ⟨0, _⟩ => show win0_1.index t (0 : Fin 2) * 5000 + 1 * p.val = t.val * 5000 + p.val; omega
    | ⟨1, _⟩ => show win0_1.index t (1 : Fin 2) * 128 + 1 * l.val = l.val; omega
  show mlp (R := 5000) (iblk0 V c 0 t) (iblk0 V c 1 t) (V c main_v16) (V c main_v17) (V c main_arg11) (V c main_v18) (ix2 p q)
    = mlp (R := 50000) (V c main_v14) (V c main_v15) (V c main_v16) (V c main_v17) (V c main_arg11) (V c main_v18) (((cfg0.win 6).blk t).view.emb (ix2 p q))
  rw [h6 q, mlp_ix2, mlp_ix2]
  refine congrArg (fun f => mlpRow f (V c main_v16) (V c main_v17) (V c main_arg11) (V c main_v18) q) (funext fun l => ?_)
  exact (show ∀ {u u' w w' : EReal}, u = u' → w = w' → u + w = u' + w' from fun h h' => by rw [h, h'])
    (congrArg (V c main_v14) (h0 l)) (congrArg (V c main_v15) (h1 l))

/-- An index of the array is in tile `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v19).slice (win0_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat0 V c).arrAt 6 cfg0.N
    = mlp (R := 50000) (V c main_v14) (V c main_v15) (V c main_v16) (V c main_v17) (V c main_arg11) (V c main_v18) :=
  (dat0 V c).arrAt_eq_of_cover 6 _ (fun t _ => flushed_eq V c t) fun i => by
    have hi0 : (i 0).val < 50000 := (i 0).isLt
    have hi1 : (i 1).val < 128 := (i 1).isLt
    have ht : (i 0).val / 5000 < cfg0.N := by rw [grid_size]; omega
    refine ⟨⟨(i 0).val / 5000, ht⟩, flush0_6 _, ?_⟩
    rw [mem_blk]
    obtain ⟨-, -, -, -, -, -, -, -, -, -, -, -, e60, e61⟩ := idx_facts ⟨(i 0).val / 5000, ht⟩
    intro a
    match a with
    | ⟨0, _⟩ =>
      show win0_6.index ⟨(i 0).val / 5000, ht⟩ (0 : Fin 2) * 5000 ≤ (i 0).val
        ∧ (i 0).val < win0_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win0_6.index ⟨(i 0).val / 5000, ht⟩ (1 : Fin 2) * 128 ≤ (i 1).val
        ∧ (i 1).val < win0_6.index ⟨(i 0).val / 5000, ht⟩ (1 : Fin 2) * 128 + 128
      rw [e61]; omega

end Cert.Gin.Region0

end
-- ==== Proof.Region1.lean ====
/-
  Launch 1 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region1

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem grid_size : cfg1.N = 10 := rfl

set_option maxHeartbeats 1000000 in
/-- What tile `t` writes back is the tile's rows of the layer function of the whole arrays. -/
theorem flushed_eq (c : Dev nD) (t : Fin cfg1.N) :
    (dat1 V c).flushed 6 t = ((cfg1.win 6).blk t).view.read (Elt Ideal)
      (mlp (R := 50000) (V c main_v19) (V c main_v29) (V c main_arg13) (V c main_v30) (V c main_arg15) (V c main_v31)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  rw [Tile.pay_eq1]
  obtain ⟨e00, e01, e10, e11, e20, e21, e30, e31, e40, e41, e50, e51, e60, e61⟩ := idx_facts t
  have hw2 : iblk1 V c 2 t = V c main_arg13 := by
    funext y
    show V c main_arg13 (((cfg1.win 2).blk t).view.emb y) = V c main_arg13 y
    refine congrArg (V c main_arg13) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have hw3 : iblk1 V c 3 t = V c main_v30 := by
    funext y
    show V c main_v30 (((cfg1.win 3).blk t).view.emb y) = V c main_v30 y
    refine congrArg (V c main_v30) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have hw4 : iblk1 V c 4 t = V c main_arg15 := by
    funext y
    show V c main_arg15 (((cfg1.win 4).blk t).view.emb y) = V c main_arg15 y
    refine congrArg (V c main_arg15) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hw5 : iblk1 V c 5 t = V c main_v31 := by
    funext y
    show V c main_v31 (((cfg1.win 5).blk t).view.emb y) = V c main_v31 y
    refine congrArg (V c main_v31) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg1.win 6).blk t).view.emb (ix2 p l) = ix2 (⟨t.val * 5000 + p.val, hrow⟩ : Fin 50000) l := fun l => by
    funext a; apply Fin.ext
    match a with
    | ⟨0, _⟩ => show win1_6.index t (0 : Fin 2) * 5000 + 1 * p.val = t.val * 5000 + p.val; omega
    | ⟨1, _⟩ => show win1_6.index t (1 : Fin 2) * 128 + 1 * l.val = l.val; omega
  have h0 : ∀ l : Fin 128, ((cfg1.win 0).blk t).view.emb (ix2 p l) = ix2 (⟨t.val * 5000 + p.val, hrow⟩ : Fin 50000) l := fun l => by
    funext a; apply Fin.ext
    match a with
    | ⟨0, _⟩ => show win1_0.index t (0 : Fin 2) * 5000 + 1 * p.val = t.val * 5000 + p.val; omega
    | ⟨1, _⟩ => show win1_0.index t (1 : Fin 2) * 128 + 1 * l.val = l.val; omega
  have h1 : ∀ l : Fin 128, ((cfg1.win 1).blk t).view.emb (ix2 p l) = ix2 (⟨t.val * 5000 + p.val, hrow⟩ : Fin 50000) l := fun l => by
    funext a; apply Fin.ext
    match a with
    | ⟨0, _⟩ => show win1_1.index t (0 : Fin 2) * 5000 + 1 * p.val = t.val * 5000 + p.val; omega
    | ⟨1, _⟩ => show win1_1.index t (1 : Fin 2) * 128 + 1 * l.val = l.val; omega
  show mlp (R := 5000) (iblk1 V c 0 t) (iblk1 V c 1 t) (V c main_arg13) (V c main_v30) (V c main_arg15) (V c main_v31) (ix2 p q)
    = mlp (R := 50000) (V c main_v19) (V c main_v29) (V c main_arg13) (V c main_v30) (V c main_arg15) (V c main_v31) (((cfg1.win 6).blk t).view.emb (ix2 p q))
  rw [h6 q, mlp_ix2, mlp_ix2]
  refine congrArg (fun f => mlpRow f (V c main_arg13) (V c main_v30) (V c main_arg15) (V c main_v31) q) (funext fun l => ?_)
  exact (show ∀ {u u' w w' : EReal}, u = u' → w = w' → u + w = u' + w' from fun h h' => by rw [h, h'])
    (congrArg (V c main_v19) (h0 l)) (congrArg (V c main_v29) (h1 l))

/-- An index of the array is in tile `t`'s block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v32).slice (win1_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat1 V c).arrAt 6 cfg1.N
    = mlp (R := 50000) (V c main_v19) (V c main_v29) (V c main_arg13) (V c main_v30) (V c main_arg15) (V c main_v31) :=
  (dat1 V c).arrAt_eq_of_cover 6 _ (fun t _ => flushed_eq V c t) fun i => by
    have hi0 : (i 0).val < 50000 := (i 0).isLt
    have hi1 : (i 1).val < 128 := (i 1).isLt
    have ht : (i 0).val / 5000 < cfg1.N := by rw [grid_size]; omega
    refine ⟨⟨(i 0).val / 5000, ht⟩, flush1_6 _, ?_⟩
    rw [mem_blk]
    obtain ⟨-, -, -, -, -, -, -, -, -, -, -, -, e60, e61⟩ := idx_facts ⟨(i 0).val / 5000, ht⟩
    intro a
    match a with
    | ⟨0, _⟩ =>
      show win1_6.index ⟨(i 0).val / 5000, ht⟩ (0 : Fin 2) * 5000 ≤ (i 0).val
        ∧ (i 0).val < win1_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win1_6.index ⟨(i 0).val / 5000, ht⟩ (1 : Fin 2) * 128 ≤ (i 1).val
        ∧ (i 1).val < win1_6.index ⟨(i 0).val / 5000, ht⟩ (1 : Fin 2) * 128 + 128
      rw [e61]; omega

end Cert.Gin.Region1

end
-- ==== Proof.Region2.lean ====
/-
  Launch 2 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region2

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

theorem grid_size : cfg2.N = 10 := rfl

set_option maxHeartbeats 1000000 in
/-- What tile `t` writes back is the tile's rows of the layer function of the whole arrays. -/
theorem flushed_eq (c : Dev nD) (t : Fin cfg2.N) :
    (dat2 V c).flushed 6 t = ((cfg2.win 6).blk t).view.read (Elt Ideal)
      (mlp (R := 50000) (V c main_v32) (V c main_v42) (V c main_arg17) (V c main_v43) (V c main_arg19) (V c main_v44)) := by
  show (cfg2.win 6).cut (grid2.coords t) ((dat2 V c).after 6 t) = _
  rw [after2_6]
  unfold out2_6
  rw [View.canon_unit_zero hz]
  simp only [View.ld_unit_zero (S := S5000x128) hz, View.ld_unit_zero (S := S128x128) hz, View.ld_unit_zero (S := S1x128) hz]
  rw [Tile.pay_eq2]
  obtain ⟨e00, e01, e10, e11, e20, e21, e30, e31, e40, e41, e50, e51, e60, e61⟩ := idx_facts t
  have hw2 : iblk2 V c 2 t = V c main_arg17 := by
    funext y
    show V c main_arg17 (((cfg2.win 2).blk t).view.emb y) = V c main_arg17 y
    refine congrArg (V c main_arg17) (funext fun a => Fin.ext ?_)
    match a with
    | ⟨0, _⟩ => show win2_2.index t (0 : Fin 2) * 128 + 1 * (y 0).val = (y 0).val; omega
    | ⟨1, _⟩ => show win2_2.index t (1 : Fin 2) * 128 + 1 * (y 1).val = (y 1).val; omega
  have hw3 : iblk2 V c 3 t = V c main_v43 := by
    funext y
    show V c main_v43 (((cfg2.win 3).blk t).view.emb y) = V c main_v43 y
    refine congrArg (V c main_v43) (funext fun a => Fin.ext ?_)
    match a with
    | ⟨0, _⟩ => show win2_3.index t (0 : Fin 2) * 1 + 1 * (y 0).val = (y 0).val; omega
    | ⟨1, _⟩ => show win2_3.index t (1 : Fin 2) * 128 + 1 * (y 1).val = (y 1).val; omega
  have hw4 : iblk2 V c 4 t = V c main_arg19 := by
    funext y
    show V c main_arg19 (((cfg2.win 4).blk t).view.emb y) = V c main_arg19 y
    refine congrArg (V c main_arg19) (funext fun a => Fin.ext ?_)
    match a with
    | ⟨0, _⟩ => show win2_4.index t (0 : Fin 2) * 128 + 1 * (y 0).val = (y 0).val; omega
    | ⟨1, _⟩ => show win2_4.index t (1 : Fin 2) * 128 + 1 * (y 1).val = (y 1).val; omega
  have hw5 : iblk2 V c 5 t = V c main_v44 := by
    funext y
    show V c main_v44 (((cfg2.win 5).blk t).view.emb y) = V c main_v44 y
    refine congrArg (V c main_v44) (funext fun a => Fin.ext ?_)
    match a with
    | ⟨0, _⟩ => show win2_5.index t (0 : Fin 2) * 1 + 1 * (y 0).val = (y 0).val; omega
    | ⟨1, _⟩ => show win2_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg2.win 6).blk t).view.emb (ix2 p l) = ix2 (⟨t.val * 5000 + p.val, hrow⟩ : Fin 50000) l := fun l => by
    funext a; apply Fin.ext
    match a with
    | ⟨0, _⟩ => show win2_6.index t (0 : Fin 2) * 5000 + 1 * p.val = t.val * 5000 + p.val; omega
    | ⟨1, _⟩ => show win2_6.index t (1 : Fin 2) * 128 + 1 * l.val = l.val; omega
  have h0 : ∀ l : Fin 128, ((cfg2.win 0).blk t).view.emb (ix2 p l) = ix2 (⟨t.val * 5000 + p.val, hrow⟩ : Fin 50000) l := fun l => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * l.val = l.val; omega
  have h1 : ∀ l : Fin 128, ((cfg2.win 1).blk t).view.emb (ix2 p l) = ix2 (⟨t.val * 5000 + p.val, hrow⟩ : Fin 50000) l := fun l => by
    funext a; apply Fin.ext
    match a with
    | ⟨0, _⟩ => show win2_1.index t (0 : Fin 2) * 5000 + 1 * p.val = t.val * 5000 + p.val; omega
    | ⟨1, _⟩ => show win2_1.index t (1 : Fin 2) * 128 + 1 * l.val = l.val; omega
  show mlp (R := 5000) (iblk2 V c 0 t) (iblk2 V c 1 t) (V c main_arg17) (V c main_v43) (V c main_arg19) (V c main_v44) (ix2 p q)
    = mlp (R := 50000) (V c main_v32) (V c main_v42) (V c main_arg17) (V c main_v43) (V c main_arg19) (V c main_v44) (((cfg2.win 6).blk t).view.emb (ix2 p q))
  rw [h6 q, mlp_ix2, mlp_ix2]
  refine congrArg (fun f => mlpRow f (V c main_arg17) (V c main_v43) (V c main_arg19) (V c main_v44) q) (funext fun l => ?_)
  exact (show ∀ {u u' w w' : EReal}, u = u' → w = w' → u + w = u' + w' from fun h h' => by rw [h, h'])
    (congrArg (V c main_v32) (h0 l)) (congrArg (V c main_v42) (h1 l))

/-- An index of the array is in tile `t`'s block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v45).slice (win2_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat2 V c).arrAt 6 cfg2.N
    = mlp (R := 50000) (V c main_v32) (V c main_v42) (V c main_arg17) (V c main_v43) (V c main_arg19) (V c main_v44) :=
  (dat2 V c).arrAt_eq_of_cover 6 _ (fun t _ => flushed_eq V c t) fun i => by
    have hi0 : (i 0).val < 50000 := (i 0).isLt
    have hi1 : (i 1).val < 128 := (i 1).isLt
    have ht : (i 0).val / 5000 < cfg2.N := by rw [grid_size]; omega
    refine ⟨⟨(i 0).val / 5000, ht⟩, flush2_6 _, ?_⟩
    rw [mem_blk]
    obtain ⟨-, -, -, -, -, -, -, -, -, -, -, -, e60, e61⟩ := idx_facts ⟨(i 0).val / 5000, ht⟩
    intro a
    match a with
    | ⟨0, _⟩ =>
      show win2_6.index ⟨(i 0).val / 5000, ht⟩ (0 : Fin 2) * 5000 ≤ (i 0).val
        ∧ (i 0).val < win2_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win2_6.index ⟨(i 0).val / 5000, ht⟩ (1 : Fin 2) * 128 ≤ (i 1).val
        ∧ (i 1).val < win2_6.index ⟨(i 0).val / 5000, ht⟩ (1 : Fin 2) * 128 + 128
      rw [e61]; omega

end Cert.Gin.Region2

end
-- ==== Proof.KFoldA.lean ====
/-
  The anchor branch of the tiled program, read back through its segment boundaries.

  The branch is launches 0, 1, 2. The first launch's inputs are the widened features and neighbour sums
  and the lengthened first weight; each later launch's are the previous launch's output, that output's neighbour sums
  through the same edge list, and the layer's weights; the branch's result is the pooled, linearly mapped output of
  the third launch, written by the host stretch after it and untouched by everything later. Each launch's output is
  the layer function of its inputs (the launch lemmas), so the result is the branch function of the launch arrays.
-/
import proofs.«142862_j27290222199187_1_alg».proof.Proof.KFoldBase
import proofs.«142862_j27290222199187_1_alg».proof.Proof.KSpec
import proofs.«142862_j27290222199187_1_alg».proof.Proof.Region0
import proofs.«142862_j27290222199187_1_alg».proof.Proof.Region1
import proofs.«142862_j27290222199187_1_alg».proof.Proof.Region2

set_option maxRecDepth 16384
set_option maxHeartbeats 4000000

noncomputable section

namespace Cert.Gin.FoldA

open Cert.KernelIdeal Cert.KernelIdeal.Gen Cert.Gin
open Idealize.ShloMosaic Idealize.ShloMosaic.TcCoe Idealize.SL.Sem

variable (m : (ℓ : Loc nD τ sig) → Buf (Elt Ideal) ℓ) (ρ : Dev nD → PrngReg) (c : Dev nD)

/-- The features after layer 1: launch 0's output, its six inputs read back to the launch arrays. -/
theorem feat1_eq : W8 m ρ c (Proc.devRef .tc main_v19) = (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) := by
  refine ((W8_arr m ρ c 6).trans (Region0.final (V7 m ρ) c)).trans ?_
  unfold K.feat1
  have hx : V7 m ρ c main_v14 = padCols (R := 50000) (m ((c.tc : Thread nD τ).loc main_arg0)) :=
    (show V7 m ρ c main_v14 = pad S50000x128 ![0, 0] ![0, 127] ![0, 0] (m ((c.tc : Thread nD τ).loc main_arg0)) K.padZero pads_S50000x1_S50000x128_000_01270 h_S_
      from by fold_norm; try rfl).trans (K.pad_cols _)
  have ha : V7 m ρ c main_v15 = padCols (R := 50000) (K.agg1 (m ((c.tc : Thread nD τ).loc main_arg1)) (m ((c.tc : Thread nD τ).loc main_arg0))) := by
    refine Eq.trans ?_ (K.pad_cols _)
    fold_norm
    -- the padding operation reads its operands through typed buffer references, which are the identity on contents:
    -- with the padded array `z` abstract that is `rfl`, and the neighbour sums stay folded
    rw [show ∀ z : FVec Ideal S50000x1 .f32,
        (StableHlo.TRef.of (T := ⟨S50000x128, .f32⟩) main_v15).toBuf (Val := Elt Ideal)
          (pad S50000x128 ![0, 0] ![0, 127] ![0, 0]
            ((StableHlo.TRef.of (T := ⟨S50000x1, .f32⟩) main_v13).ofBuf (Val := Elt Ideal) z)
            ((StableHlo.TRef.of (T := ⟨S_, .f32⟩) main_call1_v0).ofBuf (Val := Elt Ideal)
              ((StableHlo.TRef.of (T := ⟨S_, .f32⟩) main_call1_v0).toBuf (Val := Elt Ideal)
                (sitofp (F := Ideal) FTy.f32 ((StableHlo.TRef.of (T := ⟨S_, .i32⟩) main_c_2).ofBuf (Val := Elt Ideal) (constantI S_ 32 0#32)))))
            pads_S50000x1_S50000x128_000_01270 h_S_)
          = pad S50000x128 ![0, 0] ![0, 127] ![0, 0] z K.padZero pads_S50000x1_S50000x128_000_01270 h_S_ from fun z => rfl]
    refine congrArg (fun z : FVec Ideal S50000x1 .f32 => pad S50000x128 ![0, 0] ![0, 127] ![0, 0] z K.padZero pads_S50000x1_S50000x128_000_01270 h_S_) ?_
    rfl
  have hw1 : V7 m ρ c main_v16 = padRows (m ((c.tc : Thread nD τ).loc main_arg9)) :=
    (show V7 m ρ c main_v16 = pad S128x128 ![0, 0] ![127, 0] ![0, 0] (m ((c.tc : Thread nD τ).loc main_arg9)) K.padZero pads_S1x128_S128x128_01270_000 h_S_
      from by fold_norm; try rfl).trans (K.pad_rows _)
  have hb1 : V7 m ρ c main_v17 = asRow (m ((c.tc : Thread nD τ).loc main_arg10)) :=
    (show V7 m ρ c main_v17 = shapeCast S1x128 (m ((c.tc : Thread nD τ).loc main_arg10)) shapeCasts_S128_S1x128 from by fold_norm; try rfl).trans (K.reshape_row _)
  have hw2 : V7 m ρ c main_arg11 = (m ((c.tc : Thread nD τ).loc main_arg11)) := by fold_norm; try rfl
  have hb2 : V7 m ρ c main_v18 = asRow (m ((c.tc : Thread nD τ).loc main_arg12)) :=
    (show V7 m ρ c main_v18 = shapeCast S1x128 (m ((c.tc : Thread nD τ).loc main_arg12)) shapeCasts_S128_S1x128 from by fold_norm; try rfl).trans (K.reshape_row _)
  rw [hx, ha, hw1, hb1, hw2, hb2]

/-- The features after layer 2: launch 1's output, its inputs read back — the previous features, their
    neighbour sums through the same edge list, the layer's weights and reshaped biases. -/
theorem feat2_eq : W10 m ρ c (Proc.devRef .tc main_v32) = (K.featNext (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg13)) (m ((c.tc : Thread nD τ).loc main_arg14)) (m ((c.tc : Thread nD τ).loc main_arg15)) (m ((c.tc : Thread nD τ).loc main_arg16))) := by
  refine ((W10_arr m ρ c 6).trans (Region1.final (V9 m ρ) c)).trans ?_
  unfold K.featNext
  have hH : V9 m ρ c main_v19 = (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) := by
    refine Eq.trans ?_ (feat1_eq m ρ c)
    fold_norm
    try rfl
  have hA : V9 m ρ c main_v29 = K.agg (m ((c.tc : Thread nD τ).loc main_arg1)) (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) := by
    rw [← feat1_eq m ρ c]
    fold_norm
    try rfl
  have hw1 : V9 m ρ c main_arg13 = (m ((c.tc : Thread nD τ).loc main_arg13)) := by fold_norm; try rfl
  have hb1 : V9 m ρ c main_v30 = asRow (m ((c.tc : Thread nD τ).loc main_arg14)) :=
    (show V9 m ρ c main_v30 = shapeCast S1x128 (m ((c.tc : Thread nD τ).loc main_arg14)) shapeCasts_S128_S1x128 from by fold_norm; try rfl).trans (K.reshape_row _)
  have hw2 : V9 m ρ c main_arg15 = (m ((c.tc : Thread nD τ).loc main_arg15)) := by fold_norm; try rfl
  have hb2 : V9 m ρ c main_v31 = asRow (m ((c.tc : Thread nD τ).loc main_arg16)) :=
    (show V9 m ρ c main_v31 = shapeCast S1x128 (m ((c.tc : Thread nD τ).loc main_arg16)) shapeCasts_S128_S1x128 from by fold_norm; try rfl).trans (K.reshape_row _)
  rw [hH, hA, hw1, hb1, hw2, hb2]
  try rfl

/-- The features after layer 3: launch 2's output, its inputs read back — the previous features, their
    neighbour sums through the same edge list, the layer's weights and reshaped biases. -/
theorem feat3_eq : W12 m ρ c (Proc.devRef .tc main_v45) = (K.featNext (K.featNext (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg1)) (m ((c.tc : Thread nD τ).loc main_arg17)) (m ((c.tc : Thread nD τ).loc main_arg18)) (m ((c.tc : Thread nD τ).loc main_arg19)) (m ((c.tc : Thread nD τ).loc main_arg20))) := by
  refine ((W12_arr m ρ c 6).trans (Region2.final (V11 m ρ) c)).trans ?_
  unfold K.featNext
  have hH : V11 m ρ c main_v32 = (K.featNext (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg13)) (m ((c.tc : Thread nD τ).loc main_arg14)) (m ((c.tc : Thread nD τ).loc main_arg15)) (m ((c.tc : Thread nD τ).loc main_arg16))) := by
    refine Eq.trans ?_ (feat2_eq m ρ c)
    fold_norm
    try rfl
  have hA : V11 m ρ c main_v42 = K.agg (m ((c.tc : Thread nD τ).loc main_arg1)) (K.featNext (K.feat1 (m ((c.tc : Thread nD τ).loc main_arg0)) (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg1)) (m ((c.tc : Thread nD τ).loc main_arg13)) (m ((c.tc : Thread nD τ).loc main_arg14)) (m ((c.tc : Thread nD τ).loc main_arg15)) (m ((c.tc : Thread nD τ).loc main_arg16))) := by
    rw [← feat2_eq m ρ c]
    fold_norm
    try rfl
  have hw1 : V11 m ρ c main_arg17 = (m ((c.tc : Thread nD τ).loc main_arg17)) := by fold_norm; try rfl
  have hb1 : V11 m ρ c main_v43 = asRow (m ((c.tc : Thread nD τ).loc main_arg18)) :=
    (show V11 m ρ c main_v43 = shapeCast S1x128 (m ((c.tc : Thread nD τ).loc main_arg18)) shapeCasts_S128_S1x128 from by fold_norm; try rfl).trans (K.reshape_row _)
  have hw2 : V11 m ρ c main_arg19 = (m ((c.tc : Thread nD τ).loc main_arg19)) := by fold_norm; try rfl
  have hb2 : V11 m ρ c main_v44 = asRow (m ((c.tc : Thread nD τ).loc main_arg20)) :=
    (show V11 m ρ c main_v44 = shapeCast S1x128 (m ((c.tc : Thread nD τ).loc main_arg20)) shapeCasts_S128_S1x128 from by fold_norm; try rfl).trans (K.reshape_row _)
  rw [hH, hA, hw1, hb1, hw2, hb2]
  try rfl

/-- The branch's result at the end of the run: written by the host stretch after the third launch from that launch's
    output, the graph assignment and the final weights, and rewritten by nothing after. -/
theorem result_eq : W37 m ρ c (Proc.devRef .tc main_v52) = K.branch (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold K.branch K.pool
  rw [← feat3_eq m ρ c]
  fold_norm
  try rfl

end Cert.Gin.FoldA

end
-- ==== Proof.Region3.lean ====
/-
  Launch 3 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region3

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

theorem grid_size : cfg3.N = 10 := rfl

set_option maxHeartbeats 1000000 in
/-- What tile `t` writes back is the tile's rows of the layer function of the whole arrays. -/
theorem flushed_eq (c : Dev nD) (t : Fin cfg3.N) :
    (dat3 V c).flushed 6 t = ((cfg3.win 6).blk t).view.read (Elt Ideal)
      (mlp (R := 50000) (V c main_v67) (V c main_v68) (V c main_v69) (V c main_v70) (V c main_arg11) (V c main_v71)) := by
  show (cfg3.win 6).cut (grid3.coords t) ((dat3 V c).after 6 t) = _
  rw [after3_6]
  unfold out3_6
  rw [View.canon_unit_zero hz]
  simp only [View.ld_unit_zero (S := S5000x128) hz, View.ld_unit_zero (S := S128x128) hz, View.ld_unit_zero (S := S1x128) hz]
  rw [Tile.pay_eq3]
  obtain ⟨e00, e01, e10, e11, e20, e21, e30, e31, e40, e41, e50, e51, e60, e61⟩ := idx_facts t
  have hw2 : iblk3 V c 2 t = V c main_v69 := by
    funext y
    show V c main_v69 (((cfg3.win 2).blk t).view.emb y) = V c main_v69 y
    refine congrArg (V c main_v69) (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega
  have hw3 : iblk3 V c 3 t = V c main_v70 := by
    funext y
    show V c main_v70 (((cfg3.win 3).blk t).view.emb y) = V c main_v70 y
    refine congrArg (V c main_v70) (funext fun a => Fin.ext ?_)
    match a with
    | ⟨0, _⟩ => show win3_3.index t (0 : Fin 2) * 1 + 1 * (y 0).val = (y 0).val; omega
    | ⟨1, _⟩ => show win3_3.index t (1 : Fin 2) * 128 + 1 * (y 1).val = (y 1).val; omega
  have hw4 : iblk3 V c 4 t = V c main_arg11 := by
    funext y
    show V c main_arg11 (((cfg3.win 4).blk t).view.emb y) = V c main_arg11 y
    refine congrArg (V c main_arg11) (funext fun a => Fin.ext ?_)
    match a with
    | ⟨0, _⟩ => show win3_4.index t (0 : Fin 2) * 128 + 1 * (y 0).val = (y 0).val; omega
    | ⟨1, _⟩ => show win3_4.index t (1 : Fin 2) * 128 + 1 * (y 1).val = (y 1).val; omega
  have hw5 : iblk3 V c 5 t = V c main_v71 := by
    funext y
    show V c main_v71 (((cfg3.win 5).blk t).view.emb y) = V c main_v71 y
    refine congrArg (V c main_v71) (funext fun a => Fin.ext ?_)
    match a with
    | ⟨0, _⟩ => show win3_5.index t (0 : Fin 2) * 1 + 1 * (y 0).val = (y 0).val; omega
    | ⟨1, _⟩ => show win3_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg3.win 6).blk t).view.emb (ix2 p l) = ix2 (⟨t.val * 5000 + p.val, hrow⟩ : Fin 50000) l := fun l => by
    funext a; apply Fin.ext
    match a with
    | ⟨0, _⟩ => show win3_6.index t (0 : Fin 2) * 5000 + 1 * p.val = t.val * 5000 + p.val; omega
    | ⟨1, _⟩ => show win3_6.index t (1 : Fin 2) * 128 + 1 * l.val = l.val; omega
  have h0 : ∀ l : Fin 128, ((cfg3.win 0).blk t).view.emb (ix2 p l) = ix2 (⟨t.val * 5000 + p.val, hrow⟩ : Fin 50000) l := fun l => by
    funext a; apply Fin.ext
    match a with
    | ⟨0, _⟩ => show win3_0.index t (0 : Fin 2) * 5000 + 1 * p.val = t.val * 5000 + p.val; omega
    | ⟨1, _⟩ => show win3_0.index t (1 : Fin 2) * 128 + 1 * l.val = l.val; omega
  have h1 : ∀ l : Fin 128, ((cfg3.win 1).blk t).view.emb (ix2 p l) = ix2 (⟨t.val * 5000 + p.val, hrow⟩ : Fin 50000) l := fun l => by
    funext a; apply Fin.ext
    match a with
    | ⟨0, _⟩ => show win3_1.index t (0 : Fin 2) * 5000 + 1 * p.val = t.val * 5000 + p.val; omega
    | ⟨1, _⟩ => show win3_1.index t (1 : Fin 2) * 128 + 1 * l.val = l.val; omega
  show mlp (R := 5000) (iblk3 V c 0 t) (iblk3 V c 1 t) (V c main_v69) (V c main_v70) (V c main_arg11) (V c main_v71) (ix2 p q)
    = mlp (R := 50000) (V c main_v67) (V c main_v68) (V c main_v69) (V c main_v70) (V c main_arg11) (V c main_v71) (((cfg3.win 6).blk t).view.emb (ix2 p q))
  rw [h6 q, mlp_ix2, mlp_ix2]
  refine congrArg (fun f => mlpRow f (V c main_v69) (V c main_v70) (V c main_arg11) (V c main_v71) q) (funext fun l => ?_)
  exact (show ∀ {u u' w w' : EReal}, u = u' → w = w' → u + w = u' + w' from fun h h' => by rw [h, h'])
    (congrArg (V c main_v67) (h0 l)) (congrArg (V c main_v68) (h1 l))

/-- An index of the array is in tile `t`'s block iff each coordinate is in the block's range on its axis. -/
theorem mem_blk (t : Fin cfg3.N) (i : S50000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v72).slice (win3_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat3 V c).arrAt 6 cfg3.N
    = mlp (R := 50000) (V c main_v67) (V c main_v68) (V c main_v69) (V c main_v70) (V c main_arg11) (V c main_v71) :=
  (dat3 V c).arrAt_eq_of_cover 6 _ (fun t _ => flushed_eq V c t) fun i => by
    have hi0 : (i 0).val < 50000 := (i 0).isLt
    have hi1 : (i 1).val < 128 := (i 1).isLt
    have ht : (i 0).val / 5000 < cfg3.N := by rw [grid_size]; omega
    refine ⟨⟨(i 0).val / 5000, ht⟩, flush3_6 _, ?_⟩
    rw [mem_blk]
    obtain ⟨-, -, -, -, -, -, -, -, -, -, -, -, e60, e61⟩ := idx_facts ⟨(i 0).val / 5000, ht⟩
    intro a
    match a with
    | ⟨0, _⟩ =>
      show win3_6.index ⟨(i 0).val / 5000, ht⟩ (0 : Fin 2) * 5000 ≤ (i 0).val
        ∧ (i 0).val < win3_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win3_6.index ⟨(i 0).val / 5000, ht⟩ (1 : Fin 2) * 128 ≤ (i 1).val
        ∧ (i 1).val < win3_6.index ⟨(i 0).val / 5000, ht⟩ (1 : Fin 2) * 128 + 128
      rw [e61]; omega

end Cert.Gin.Region3

end
-- ==== Proof.Region4.lean ====
/-
  Launch 4 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region4

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

theorem grid_size : cfg4.N = 10 := rfl

set_option maxHeartbeats 1000000 in
/-- What tile `t` writes back is the tile's rows of the layer function of the whole arrays. -/
theorem flushed_eq (c : Dev nD) (t : Fin cfg4.N) :
    (dat4 V c).flushed 6 t = ((cfg4.win 6).blk t).view.read (Elt Ideal)
      (mlp (R := 50000) (V c main_v72) (V c main_v82) (V c main_arg13) (V c main_v83) (V c main_arg15) (V c main_v84)) := by
  show (cfg4.win 6).cut (grid4.coords t) ((dat4 V c).after 6 t) = _
  rw [after4_6]
  unfold out4_6
  rw [View.canon_unit_zero hz]
  simp only [View.ld_unit_zero (S := S5000x128) hz, View.ld_unit_zero (S := S128x128) hz, View.ld_unit_zero (S := S1x128) hz]
  rw [Tile.pay_eq4]
  obtain ⟨e00, e01, e10, e11, e20, e21, e30, e31, e40, e41, e50, e51, e60, e61⟩ := idx_facts t
  have hw2 : iblk4 V c 2 t = V c main_arg13 := by
    funext y
    show V c main_arg13 (((cfg4.win 2).blk t).view.emb y) = V c main_arg13 y
    refine congrArg (V c main_arg13) (funext fun a => Fin.ext ?_)
    match a with
    | ⟨0, _⟩ => show win4_2.index t (0 : Fin 2) * 128 + 1 * (y 0).val = (y 0).val; omega
    | ⟨1, _⟩ => show win4_2.index t (1 : Fin 2) * 128 + 1 * (y 1).val = (y 1).val; omega
  have hw3 : iblk4 V c 3 t = V c main_v83 := by
    funext y
    show V c main_v83 (((cfg4.win 3).blk t).view.emb y) = V c main_v83 y
    refine congrArg (V c main_v83) (funext fun a => Fin.ext ?_)
    match a with
    | ⟨0, _⟩ => show win4_3.index t (0 : Fin 2) * 1 + 1 * (y 0).val = (y 0).val; omega
    | ⟨1, _⟩ => show win4_3.index t (1 : Fin 2) * 128 + 1 * (y 1).val = (y 1).val; omega
  have hw4 : iblk4 V c 4 t = V c main_arg15 := by
    funext y
    show V c main_arg15 (((cfg4.win 4).blk t).view.emb y) = V c main_arg15 y
    refine congrArg (V c main_arg15) (funext fun a => Fin.ext ?_)
    match a with
    | ⟨0, _⟩ => show win4_4.index t (0 : Fin 2) * 128 + 1 * (y 0).val = (y 0).val; omega
    | ⟨1, _⟩ => show win4_4.index t (1 : Fin 2) * 128 + 1 * (y 1).val = (y 1).val; omega
  have hw5 : iblk4 V c 5 t = V c main_v84 := by
    funext y
    show V c main_v84 (((cfg4.win 5).blk t).view.emb y) = V c main_v84 y
    refine congrArg (V c main_v84) (funext fun a => Fin.ext ?_)
    match a with
    | ⟨0, _⟩ => show win4_5.index t (0 : Fin 2) * 1 + 1 * (y 0).val = (y 0).val; omega
    | ⟨1, _⟩ => show win4_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg4.win 6).blk t).view.emb (ix2 p l) = ix2 (⟨t.val * 5000 + p.val, hrow⟩ : Fin 50000) l := fun l => by
    funext a; apply Fin.ext
    match a with
    | ⟨0, _⟩ => show win4_6.index t (0 : Fin 2) * 5000 + 1 * p.val = t.val * 5000 + p.val; omega
    | ⟨1, _⟩ => show win4_6.index t (1 : Fin 2) * 128 + 1 * l.val = l.val; omega
  have h0 : ∀ l : Fin 128, ((cfg4.win 0).blk t).view.emb (ix2 p l) = ix2 (⟨t.val * 5000 + p.val, hrow⟩ : Fin 50000) l := fun l => by
    funext a; apply Fin.ext
    match a with
    | ⟨0, _⟩ => show win4_0.index t (0 : Fin 2) * 5000 + 1 * p.val = t.val * 5000 + p.val; omega
    | ⟨1, _⟩ => show win4_0.index t (1 : Fin 2) * 128 + 1 * l.val = l.val; omega
  have h1 : ∀ l : Fin 128, ((cfg4.win 1).blk t).view.emb (ix2 p l) = ix2 (⟨t.val * 5000 + p.val, hrow⟩ : Fin 50000) l := fun l => by
    funext a; apply Fin.ext
    match a with
    | ⟨0, _⟩ => show win4_1.index t (0 : Fin 2) * 5000 + 1 * p.val = t.val * 5000 + p.val; omega
    | ⟨1, _⟩ => show win4_1.index t (1 : Fin 2) * 128 + 1 * l.val = l.val; omega
  show mlp (R := 5000) (iblk4 V c 0 t) (iblk4 V c 1 t) (V c main_arg13) (V c main_v83) (V c main_arg15) (V c main_v84) (ix2 p q)
    = mlp (R := 50000) (V c main_v72) (V c main_v82) (V c main_arg13) (V c main_v83) (V c main_arg15) (V c main_v84) (((cfg4.win 6).blk t).view.emb (ix2 p q))
  rw [h6 q, mlp_ix2, mlp_ix2]
  refine congrArg (fun f => mlpRow f (V c main_arg13) (V c main_v83) (V c main_arg15) (V c main_v84) q) (funext fun l => ?_)
  exact (show ∀ {u u' w w' : EReal}, u = u' → w = w' → u + w = u' + w' from fun h h' => by rw [h, h'])
    (congrArg (V c main_v72) (h0 l)) (congrArg (V c main_v82) (h1 l))

/-- An index of the array is in tile `t`'s block iff each coordinate is in the block's range on its axis. -/
theorem mem_blk (t : Fin cfg4.N) (i : S50000x128.Idx) :
    i ∈ ((cfg4.win 6).blk t).view.set ↔ ∀ a : Fin 2, win4_6.index t a * S5000x128.size a ≤ (i a).val
      ∧ (i a).val < win4_6.index t a * S5000x128.size a + S5000x128.size a := by
  show i ∈ ((View.whole main_v85).slice (win4_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat4 V c).arrAt 6 cfg4.N
    = mlp (R := 50000) (V c main_v72) (V c main_v82) (V c main_arg13) (V c main_v83) (V c main_arg15) (V c main_v84) :=
  (dat4 V c).arrAt_eq_of_cover 6 _ (fun t _ => flushed_eq V c t) fun i => by
    have hi0 : (i 0).val < 50000 := (i 0).isLt
    have hi1 : (i 1).val < 128 := (i 1).isLt
    have ht : (i 0).val / 5000 < cfg4.N := by rw [grid_size]; omega
    refine ⟨⟨(i 0).val / 5000, ht⟩, flush4_6 _, ?_⟩
    rw [mem_blk]
    obtain ⟨-, -, -, -, -, -, -, -, -, -, -, -, e60, e61⟩ := idx_facts ⟨(i 0).val / 5000, ht⟩
    intro a
    match a with
    | ⟨0, _⟩ =>
      show win4_6.index ⟨(i 0).val / 5000, ht⟩ (0 : Fin 2) * 5000 ≤ (i 0).val
        ∧ (i 0).val < win4_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win4_6.index ⟨(i 0).val / 5000, ht⟩ (1 : Fin 2) * 128 ≤ (i 1).val
        ∧ (i 1).val < win4_6.index ⟨(i 0).val / 5000, ht⟩ (1 : Fin 2) * 128 + 128
      rw [e61]; omega

end Cert.Gin.Region4

end
-- ==== Proof.Region5.lean ====
/-
  Launch 5 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region5

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

theorem grid_size : cfg5.N = 10 := rfl

set_option maxHeartbeats 1000000 in
/-- What tile `t` writes back is the tile's rows of the layer function of the whole arrays. -/
theorem flushed_eq (c : Dev nD) (t : Fin cfg5.N) :
    (dat5 V c).flushed 6 t = ((cfg5.win 6).blk t).view.read (Elt Ideal)
      (mlp (R := 50000) (V c main_v85) (V c main_v95) (V c main_arg17) (V c main_v96) (V c main_arg19) (V c main_v97)) := by
  show (cfg5.win 6).cut (grid5.coords t) ((dat5 V c).after 6 t) = _
  rw [after5_6]
  unfold out5_6
  rw [View.canon_unit_zero hz]
  simp only [View.ld_unit_zero (S := S5000x128) hz, View.ld_unit_zero (S := S128x128) hz, View.ld_unit_zero (S := S1x128) hz]
  rw [Tile.pay_eq5]
  obtain ⟨e00, e01, e10, e11, e20, e21, e30, e31, e40, e41, e50, e51, e60, e61⟩ := idx_facts t
  have hw2 : iblk5 V c 2 t = V c main_arg17 := by
    funext y
    show V c main_arg17 (((cfg5.win 2).blk t).view.emb y) = V c main_arg17 y
    refine congrArg (V c main_arg17) (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega
  have hw3 : iblk5 V c 3 t = V c main_v96 := by
    funext y
    show V c main_v96 (((cfg5.win 3).blk t).view.emb y) = V c main_v96 y
    refine congrArg (V c main_v96) (funext fun a => Fin.ext ?_)
    match a with
    | ⟨0, _⟩ => show win5_3.index t (0 : Fin 2) * 1 + 1 * (y 0).val = (y 0).val; omega
    | ⟨1, _⟩ => show win5_3.index t (1 : Fin 2) * 128 + 1 * (y 1).val = (y 1).val; omega
  have hw4 : iblk5 V c 4 t = V c main_arg19 := by
    funext y
    show V c main_arg19 (((cfg5.win 4).blk t).view.emb y) = V c main_arg19 y
    refine congrArg (V c main_arg19) (funext fun a => Fin.ext ?_)
    match a with
    | ⟨0, _⟩ => show win5_4.index t (0 : Fin 2) * 128 + 1 * (y 0).val = (y 0).val; omega
    | ⟨1, _⟩ => show win5_4.index t (1 : Fin 2) * 128 + 1 * (y 1).val = (y 1).val; omega
  have hw5 : iblk5 V c 5 t = V c main_v97 := by
    funext y
    show V c main_v97 (((cfg5.win 5).blk t).view.emb y) = V c main_v97 y
    refine congrArg (V c main_v97) (funext fun a => Fin.ext ?_)
    match a with
    | ⟨0, _⟩ => show win5_5.index t (0 : Fin 2) * 1 + 1 * (y 0).val = (y 0).val; omega
    | ⟨1, _⟩ => show win5_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg5.win 6).blk t).view.emb (ix2 p l) = ix2 (⟨t.val * 5000 + p.val, hrow⟩ : Fin 50000) l := fun l => by
    funext a; apply Fin.ext
    match a with
    | ⟨0, _⟩ => show win5_6.index t (0 : Fin 2) * 5000 + 1 * p.val = t.val * 5000 + p.val; omega
    | ⟨1, _⟩ => show win5_6.index t (1 : Fin 2) * 128 + 1 * l.val = l.val; omega
  have h0 : ∀ l : Fin 128, ((cfg5.win 0).blk t).view.emb (ix2 p l) = ix2 (⟨t.val * 5000 + p.val, hrow⟩ : Fin 50000) l := fun l => by
    funext a; apply Fin.ext
    match a with
    | ⟨0, _⟩ => show win5_0.index t (0 : Fin 2) * 5000 + 1 * p.val = t.val * 5000 + p.val; omega
    | ⟨1, _⟩ => show win5_0.index t (1 : Fin 2) * 128 + 1 * l.val = l.val; omega
  have h1 : ∀ l : Fin 128, ((cfg5.win 1).blk t).view.emb (ix2 p l) = ix2 (⟨t.val * 5000 + p.val, hrow⟩ : Fin 50000) l := fun l => by
    funext a; apply Fin.ext
    match a with
    | ⟨0, _⟩ => show win5_1.index t (0 : Fin 2) * 5000 + 1 * p.val = t.val * 5000 + p.val; omega
    | ⟨1, _⟩ => show win5_1.index t (1 : Fin 2) * 128 + 1 * l.val = l.val; omega
  show mlp (R := 5000) (iblk5 V c 0 t) (iblk5 V c 1 t) (V c main_arg17) (V c main_v96) (V c main_arg19) (V c main_v97) (ix2 p q)
    = mlp (R := 50000) (V c main_v85) (V c main_v95) (V c main_arg17) (V c main_v96) (V c main_arg19) (V c main_v97) (((cfg5.win 6).blk t).view.emb (ix2 p q))
  rw [h6 q, mlp_ix2, mlp_ix2]
  refine congrArg (fun f => mlpRow f (V c main_arg17) (V c main_v96) (V c main_arg19) (V c main_v97) q) (funext fun l => ?_)
  exact (show ∀ {u u' w w' : EReal}, u = u' → w = w' → u + w = u' + w' from fun h h' => by rw [h, h'])
    (congrArg (V c main_v85) (h0 l)) (congrArg (V c main_v95) (h1 l))

/-- An index of the array is in tile `t`'s block iff each coordinate is in the block's range on its axis. -/
theorem mem_blk (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v98).slice (win5_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat5 V c).arrAt 6 cfg5.N
    = mlp (R := 50000) (V c main_v85) (V c main_v95) (V c main_arg17) (V c main_v96) (V c main_arg19) (V c main_v97) :=
  (dat5 V c).arrAt_eq_of_cover 6 _ (fun t _ => flushed_eq V c t) fun i => by
    have hi0 : (i 0).val < 50000 := (i 0).isLt
    have hi1 : (i 1).val < 128 := (i 1).isLt
    have ht : (i 0).val / 5000 < cfg5.N := by rw [grid_size]; omega
    refine ⟨⟨(i 0).val / 5000, ht⟩, flush5_6 _, ?_⟩
    rw [mem_blk]
    obtain ⟨-, -, -, -, -, -, -, -, -, -, -, -, e60, e61⟩ := idx_facts ⟨(i 0).val / 5000, ht⟩
    intro a
    match a with
    | ⟨0, _⟩ =>
      show win5_6.index ⟨(i 0).val / 5000, ht⟩ (0 : Fin 2) * 5000 ≤ (i 0).val
        ∧ (i 0).val < win5_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win5_6.index ⟨(i 0).val / 5000, ht⟩ (1 : Fin 2) * 128 ≤ (i 1).val
        ∧ (i 1).val < win5_6.index ⟨(i 0).val / 5000, ht⟩ (1 : Fin 2) * 128 + 128
      rw [e61]; omega

end Cert.Gin.Region5

end
-- ==== Proof.KFoldP.lean ====
/-
  The positive branch of the tiled program, read back through its segment boundaries.

  The branch is launches 3, 4, 5. The first launch's inputs are the widened features and neighbour sums
  and the lengthened first weight; each later launch's are the previous launch's output, that output's neighbour sums
  through the same edge list, and the layer's weights; the branch's result is the pooled, linearly mapped output of
  the third launch, written by the host stretch after it and untouched by everything later. Each launch's output is
  the layer function of its inputs (the launch lemmas), so the result is the branch function of the launch arrays.
-/
import proofs.«142862_j27290222199187_1_alg».proof.Proof.KFoldBase
import proofs.«142862_j27290222199187_1_alg».proof.Proof.KSpec
import proofs.«142862_j27290222199187_1_alg».proof.Proof.Region3
import proofs.«142862_j27290222199187_1_alg».proof.Proof.Region4
import proofs.«142862_j27290222199187_1_alg».proof.Proof.Region5

set_option maxRecDepth 16384
set_option maxHeartbeats 4000000

noncomputable section

namespace Cert.Gin.FoldP

open Cert.KernelIdeal Cert.KernelIdeal.Gen Cert.Gin
open Idealize.ShloMosaic Idealize.ShloMosaic.TcCoe Idealize.SL.Sem

variable (m : (ℓ : Loc nD τ sig) → Buf (Elt Ideal) ℓ) (ρ : Dev nD → PrngReg) (c : Dev nD)

/-- The features after layer 1: launch 3's output, its six inputs read back to the launch arrays. -/
theorem feat1_eq : W20 m ρ c (Proc.devRef .tc main_v72) = (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) := by
  refine ((W20_arr m ρ c 6).trans (Region3.final (V19 m ρ) c)).trans ?_
  unfold K.feat1
  have hx : V19 m ρ c main_v67 = padCols (R := 50000) (m ((c.tc : Thread nD τ).loc main_arg3)) :=
    (show V19 m ρ c main_v67 = pad S50000x128 ![0, 0] ![0, 127] ![0, 0] (m ((c.tc : Thread nD τ).loc main_arg3)) K.padZero pads_S50000x1_S50000x128_000_01270 h_S_
      from by fold_norm; try rfl).trans (K.pad_cols _)
  have ha : V19 m ρ c main_v68 = padCols (R := 50000) (K.agg1 (m ((c.tc : Thread nD τ).loc main_arg4)) (m ((c.tc : Thread nD τ).loc main_arg3))) := by
    refine Eq.trans ?_ (K.pad_cols _)
    fold_norm
    -- the padding operation reads its operands through typed buffer references, which are the identity on contents:
    -- with the padded array `z` abstract that is `rfl`, and the neighbour sums stay folded
    rw [show ∀ z : FVec Ideal S50000x1 .f32,
        (StableHlo.TRef.of (T := ⟨S50000x128, .f32⟩) main_v68).toBuf (Val := Elt Ideal)
          (pad S50000x128 ![0, 0] ![0, 127] ![0, 0]
            ((StableHlo.TRef.of (T := ⟨S50000x1, .f32⟩) main_v66).ofBuf (Val := Elt Ideal) z)
            ((StableHlo.TRef.of (T := ⟨S_, .f32⟩) main_call4_v0).ofBuf (Val := Elt Ideal)
              ((StableHlo.TRef.of (T := ⟨S_, .f32⟩) main_call4_v0).toBuf (Val := Elt Ideal)
                (sitofp (F := Ideal) FTy.f32 ((StableHlo.TRef.of (T := ⟨S_, .i32⟩) main_c_15).ofBuf (Val := Elt Ideal) (constantI S_ 32 0#32)))))
            pads_S50000x1_S50000x128_000_01270 h_S_)
          = pad S50000x128 ![0, 0] ![0, 127] ![0, 0] z K.padZero pads_S50000x1_S50000x128_000_01270 h_S_ from fun z => rfl]
    refine congrArg (fun z : FVec Ideal S50000x1 .f32 => pad S50000x128 ![0, 0] ![0, 127] ![0, 0] z K.padZero pads_S50000x1_S50000x128_000_01270 h_S_) ?_
    rfl
  have hw1 : V19 m ρ c main_v69 = padRows (m ((c.tc : Thread nD τ).loc main_arg9)) :=
    (show V19 m ρ c main_v69 = pad S128x128 ![0, 0] ![127, 0] ![0, 0] (m ((c.tc : Thread nD τ).loc main_arg9)) K.padZero pads_S1x128_S128x128_01270_000 h_S_
      from by fold_norm; try rfl).trans (K.pad_rows _)
  have hb1 : V19 m ρ c main_v70 = asRow (m ((c.tc : Thread nD τ).loc main_arg10)) :=
    (show V19 m ρ c main_v70 = shapeCast S1x128 (m ((c.tc : Thread nD τ).loc main_arg10)) shapeCasts_S128_S1x128 from by fold_norm; try rfl).trans (K.reshape_row _)
  have hw2 : V19 m ρ c main_arg11 = (m ((c.tc : Thread nD τ).loc main_arg11)) := by fold_norm; try rfl
  have hb2 : V19 m ρ c main_v71 = asRow (m ((c.tc : Thread nD τ).loc main_arg12)) :=
    (show V19 m ρ c main_v71 = shapeCast S1x128 (m ((c.tc : Thread nD τ).loc main_arg12)) shapeCasts_S128_S1x128 from by fold_norm; try rfl).trans (K.reshape_row _)
  rw [hx, ha, hw1, hb1, hw2, hb2]

/-- The features after layer 2: launch 4's output, its inputs read back — the previous features, their
    neighbour sums through the same edge list, the layer's weights and reshaped biases. -/
theorem feat2_eq : W22 m ρ c (Proc.devRef .tc main_v85) = (K.featNext (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16))) := by
  refine ((W22_arr m ρ c 6).trans (Region4.final (V21 m ρ) c)).trans ?_
  unfold K.featNext
  have hH : V21 m ρ c main_v72 = (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) := by
    refine Eq.trans ?_ (feat1_eq m ρ c)
    fold_norm
    try rfl
  have hA : V21 m ρ c main_v82 = K.agg (m ((c.tc : Thread nD τ).loc main_arg4)) (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) := by
    rw [← feat1_eq m ρ c]
    fold_norm
    try rfl
  have hw1 : V21 m ρ c main_arg13 = (m ((c.tc : Thread nD τ).loc main_arg13)) := by fold_norm; try rfl
  have hb1 : V21 m ρ c main_v83 = asRow (m ((c.tc : Thread nD τ).loc main_arg14)) :=
    (show V21 m ρ c main_v83 = shapeCast S1x128 (m ((c.tc : Thread nD τ).loc main_arg14)) shapeCasts_S128_S1x128 from by fold_norm; try rfl).trans (K.reshape_row _)
  have hw2 : V21 m ρ c main_arg15 = (m ((c.tc : Thread nD τ).loc main_arg15)) := by fold_norm; try rfl
  have hb2 : V21 m ρ c main_v84 = asRow (m ((c.tc : Thread nD τ).loc main_arg16)) :=
    (show V21 m ρ c main_v84 = shapeCast S1x128 (m ((c.tc : Thread nD τ).loc main_arg16)) shapeCasts_S128_S1x128 from by fold_norm; try rfl).trans (K.reshape_row _)
  rw [hH, hA, hw1, hb1, hw2, hb2]
  try rfl

/-- The features after layer 3: launch 5's output, its inputs read back — the previous features, their
    neighbour sums through the same edge list, the layer's weights and reshaped biases. -/
theorem feat3_eq : W24 m ρ c (Proc.devRef .tc main_v98) = (K.featNext (K.featNext (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg4)) (m ((c.tc : Thread nD τ).loc main_arg17)) (m ((c.tc : Thread nD τ).loc main_arg18)) (m ((c.tc : Thread nD τ).loc main_arg19)) (m ((c.tc : Thread nD τ).loc main_arg20))) := by
  refine ((W24_arr m ρ c 6).trans (Region5.final (V23 m ρ) c)).trans ?_
  unfold K.featNext
  have hH : V23 m ρ c main_v85 = (K.featNext (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16))) := by
    refine Eq.trans ?_ (feat2_eq m ρ c)
    fold_norm
    try rfl
  have hA : V23 m ρ c main_v95 = K.agg (m ((c.tc : Thread nD τ).loc main_arg4)) (K.featNext (K.feat1 (m ((c.tc : Thread nD τ).loc main_arg3)) (m ((c.tc : Thread nD τ).loc main_arg4)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg4)) (m ((c.tc : Thread nD τ).loc main_arg13)) (m ((c.tc : Thread nD τ).loc main_arg14)) (m ((c.tc : Thread nD τ).loc main_arg15)) (m ((c.tc : Thread nD τ).loc main_arg16))) := by
    rw [← feat2_eq m ρ c]
    fold_norm
    try rfl
  have hw1 : V23 m ρ c main_arg17 = (m ((c.tc : Thread nD τ).loc main_arg17)) := by fold_norm; try rfl
  have hb1 : V23 m ρ c main_v96 = asRow (m ((c.tc : Thread nD τ).loc main_arg18)) :=
    (show V23 m ρ c main_v96 = shapeCast S1x128 (m ((c.tc : Thread nD τ).loc main_arg18)) shapeCasts_S128_S1x128 from by fold_norm; try rfl).trans (K.reshape_row _)
  have hw2 : V23 m ρ c main_arg19 = (m ((c.tc : Thread nD τ).loc main_arg19)) := by fold_norm; try rfl
  have hb2 : V23 m ρ c main_v97 = asRow (m ((c.tc : Thread nD τ).loc main_arg20)) :=
    (show V23 m ρ c main_v97 = shapeCast S1x128 (m ((c.tc : Thread nD τ).loc main_arg20)) shapeCasts_S128_S1x128 from by fold_norm; try rfl).trans (K.reshape_row _)
  rw [hH, hA, hw1, hb1, hw2, hb2]
  try rfl

/-- The branch's result at the end of the run: written by the host stretch after the third launch from that launch's
    output, the graph assignment and the final weights, and rewritten by nothing after. -/
theorem result_eq : W37 m ρ c (Proc.devRef .tc main_v105) = K.branch (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold K.branch K.pool
  rw [← feat3_eq m ρ c]
  fold_norm
  try rfl

end Cert.Gin.FoldP

end
-- ==== Proof.Region6.lean ====
/-
  Launch 6 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region6

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = t.val ∧ win6_6.index t (1 : Fin 2) = 0 :=
  (by decide +kernel : ∀ t : Fin grid6.N, _)

theorem grid_size : cfg6.N = 10 := rfl

set_option maxHeartbeats 1000000 in
/-- What tile `t` writes back is the tile's rows of the layer function of the whole arrays. -/
theorem flushed_eq (c : Dev nD) (t : Fin cfg6.N) :
    (dat6 V c).flushed 6 t = ((cfg6.win 6).blk t).view.read (Elt Ideal)
      (mlp (R := 50000) (V c main_v120) (V c main_v121) (V c main_v122) (V c main_v123) (V c main_arg11) (V c main_v124)) := by
  show (cfg6.win 6).cut (grid6.coords t) ((dat6 V c).after 6 t) = _
  rw [after6_6]
  unfold out6_6
  rw [View.canon_unit_zero hz]
  simp only [View.ld_unit_zero (S := S5000x128) hz, View.ld_unit_zero (S := S128x128) hz, View.ld_unit_zero (S := S1x128) hz]
  rw [Tile.pay_eq6]
  obtain ⟨e00, e01, e10, e11, e20, e21, e30, e31, e40, e41, e50, e51, e60, e61⟩ := idx_facts t
  have hw2 : iblk6 V c 2 t = V c main_v122 := by
    funext y
    show V c main_v122 (((cfg6.win 2).blk t).view.emb y) = V c main_v122 y
    refine congrArg (V c main_v122) (funext fun a => Fin.ext ?_)
    match a with
    | ⟨0, _⟩ => show win6_2.index t (0 : Fin 2) * 128 + 1 * (y 0).val = (y 0).val; omega
    | ⟨1, _⟩ => show win6_2.index t (1 : Fin 2) * 128 + 1 * (y 1).val = (y 1).val; omega
  have hw3 : iblk6 V c 3 t = V c main_v123 := by
    funext y
    show V c main_v123 (((cfg6.win 3).blk t).view.emb y) = V c main_v123 y
    refine congrArg (V c main_v123) (funext fun a => Fin.ext ?_)
    match a with
    | ⟨0, _⟩ => show win6_3.index t (0 : Fin 2) * 1 + 1 * (y 0).val = (y 0).val; omega
    | ⟨1, _⟩ => show win6_3.index t (1 : Fin 2) * 128 + 1 * (y 1).val = (y 1).val; omega
  have hw4 : iblk6 V c 4 t = V c main_arg11 := by
    funext y
    show V c main_arg11 (((cfg6.win 4).blk t).view.emb y) = V c main_arg11 y
    refine congrArg (V c main_arg11) (funext fun a => Fin.ext ?_)
    match a with
    | ⟨0, _⟩ => show win6_4.index t (0 : Fin 2) * 128 + 1 * (y 0).val = (y 0).val; omega
    | ⟨1, _⟩ => show win6_4.index t (1 : Fin 2) * 128 + 1 * (y 1).val = (y 1).val; omega
  have hw5 : iblk6 V c 5 t = V c main_v124 := by
    funext y
    show V c main_v124 (((cfg6.win 5).blk t).view.emb y) = V c main_v124 y
    refine congrArg (V c main_v124) (funext fun a => Fin.ext ?_)
    match a with
    | ⟨0, _⟩ => show win6_5.index t (0 : Fin 2) * 1 + 1 * (y 0).val = (y 0).val; omega
    | ⟨1, _⟩ => show win6_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg6.win 6).blk t).view.emb (ix2 p l) = ix2 (⟨t.val * 5000 + p.val, hrow⟩ : Fin 50000) l := fun l => by
    funext a; apply Fin.ext
    match a with
    | ⟨0, _⟩ => show win6_6.index t (0 : Fin 2) * 5000 + 1 * p.val = t.val * 5000 + p.val; omega
    | ⟨1, _⟩ => show win6_6.index t (1 : Fin 2) * 128 + 1 * l.val = l.val; omega
  have h0 : ∀ l : Fin 128, ((cfg6.win 0).blk t).view.emb (ix2 p l) = ix2 (⟨t.val * 5000 + p.val, hrow⟩ : Fin 50000) l := fun l => by
    funext a; apply Fin.ext
    match a with
    | ⟨0, _⟩ => show win6_0.index t (0 : Fin 2) * 5000 + 1 * p.val = t.val * 5000 + p.val; omega
    | ⟨1, _⟩ => show win6_0.index t (1 : Fin 2) * 128 + 1 * l.val = l.val; omega
  have h1 : ∀ l : Fin 128, ((cfg6.win 1).blk t).view.emb (ix2 p l) = ix2 (⟨t.val * 5000 + p.val, hrow⟩ : Fin 50000) l := fun l => by
    funext a; apply Fin.ext
    match a with
    | ⟨0, _⟩ => show win6_1.index t (0 : Fin 2) * 5000 + 1 * p.val = t.val * 5000 + p.val; omega
    | ⟨1, _⟩ => show win6_1.index t (1 : Fin 2) * 128 + 1 * l.val = l.val; omega
  show mlp (R := 5000) (iblk6 V c 0 t) (iblk6 V c 1 t) (V c main_v122) (V c main_v123) (V c main_arg11) (V c main_v124) (ix2 p q)
    = mlp (R := 50000) (V c main_v120) (V c main_v121) (V c main_v122) (V c main_v123) (V c main_arg11) (V c main_v124) (((cfg6.win 6).blk t).view.emb (ix2 p q))
  rw [h6 q, mlp_ix2, mlp_ix2]
  refine congrArg (fun f => mlpRow f (V c main_v122) (V c main_v123) (V c main_arg11) (V c main_v124) q) (funext fun l => ?_)
  exact (show ∀ {u u' w w' : EReal}, u = u' → w = w' → u + w = u' + w' from fun h h' => by rw [h, h'])
    (congrArg (V c main_v120) (h0 l)) (congrArg (V c main_v121) (h1 l))

/-- An index of the array is in tile `t`'s block iff each coordinate is in the block's range on its axis. -/
theorem mem_blk (t : Fin cfg6.N) (i : S50000x128.Idx) :
    i ∈ ((cfg6.win 6).blk t).view.set ↔ ∀ a : Fin 2, win6_6.index t a * S5000x128.size a ≤ (i a).val
      ∧ (i a).val < win6_6.index t a * S5000x128.size a + S5000x128.size a := by
  show i ∈ ((View.whole main_v125).slice (win6_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat6 V c).arrAt 6 cfg6.N
    = mlp (R := 50000) (V c main_v120) (V c main_v121) (V c main_v122) (V c main_v123) (V c main_arg11) (V c main_v124) :=
  (dat6 V c).arrAt_eq_of_cover 6 _ (fun t _ => flushed_eq V c t) fun i => by
    have hi0 : (i 0).val < 50000 := (i 0).isLt
    have hi1 : (i 1).val < 128 := (i 1).isLt
    have ht : (i 0).val / 5000 < cfg6.N := by rw [grid_size]; omega
    refine ⟨⟨(i 0).val / 5000, ht⟩, flush6_6 _, ?_⟩
    rw [mem_blk]
    obtain ⟨-, -, -, -, -, -, -, -, -, -, -, -, e60, e61⟩ := idx_facts ⟨(i 0).val / 5000, ht⟩
    intro a
    match a with
    | ⟨0, _⟩ =>
      show win6_6.index ⟨(i 0).val / 5000, ht⟩ (0 : Fin 2) * 5000 ≤ (i 0).val
        ∧ (i 0).val < win6_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win6_6.index ⟨(i 0).val / 5000, ht⟩ (1 : Fin 2) * 128 ≤ (i 1).val
        ∧ (i 1).val < win6_6.index ⟨(i 0).val / 5000, ht⟩ (1 : Fin 2) * 128 + 128
      rw [e61]; omega

end Cert.Gin.Region6

end
-- ==== Proof.Region7.lean ====
/-
  Launch 7 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region7

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = t.val ∧ win7_6.index t (1 : Fin 2) = 0 :=
  (by decide +kernel : ∀ t : Fin grid7.N, _)

theorem grid_size : cfg7.N = 10 := rfl

set_option maxHeartbeats 1000000 in
/-- What tile `t` writes back is the tile's rows of the layer function of the whole arrays. -/
theorem flushed_eq (c : Dev nD) (t : Fin cfg7.N) :
    (dat7 V c).flushed 6 t = ((cfg7.win 6).blk t).view.read (Elt Ideal)
      (mlp (R := 50000) (V c main_v125) (V c main_v135) (V c main_arg13) (V c main_v136) (V c main_arg15) (V c main_v137)) := by
  show (cfg7.win 6).cut (grid7.coords t) ((dat7 V c).after 6 t) = _
  rw [after7_6]
  unfold out7_6
  rw [View.canon_unit_zero hz]
  simp only [View.ld_unit_zero (S := S5000x128) hz, View.ld_unit_zero (S := S128x128) hz, View.ld_unit_zero (S := S1x128) hz]
  rw [Tile.pay_eq7]
  obtain ⟨e00, e01, e10, e11, e20, e21, e30, e31, e40, e41, e50, e51, e60, e61⟩ := idx_facts t
  have hw2 : iblk7 V c 2 t = V c main_arg13 := by
    funext y
    show V c main_arg13 (((cfg7.win 2).blk t).view.emb y) = V c main_arg13 y
    refine congrArg (V c main_arg13) (funext fun a => Fin.ext ?_)
    match a with
    | ⟨0, _⟩ => show win7_2.index t (0 : Fin 2) * 128 + 1 * (y 0).val = (y 0).val; omega
    | ⟨1, _⟩ => show win7_2.index t (1 : Fin 2) * 128 + 1 * (y 1).val = (y 1).val; omega
  have hw3 : iblk7 V c 3 t = V c main_v136 := by
    funext y
    show V c main_v136 (((cfg7.win 3).blk t).view.emb y) = V c main_v136 y
    refine congrArg (V c main_v136) (funext fun a => Fin.ext ?_)
    match a with
    | ⟨0, _⟩ => show win7_3.index t (0 : Fin 2) * 1 + 1 * (y 0).val = (y 0).val; omega
    | ⟨1, _⟩ => show win7_3.index t (1 : Fin 2) * 128 + 1 * (y 1).val = (y 1).val; omega
  have hw4 : iblk7 V c 4 t = V c main_arg15 := by
    funext y
    show V c main_arg15 (((cfg7.win 4).blk t).view.emb y) = V c main_arg15 y
    refine congrArg (V c main_arg15) (funext fun a => Fin.ext ?_)
    match a with
    | ⟨0, _⟩ => show win7_4.index t (0 : Fin 2) * 128 + 1 * (y 0).val = (y 0).val; omega
    | ⟨1, _⟩ => show win7_4.index t (1 : Fin 2) * 128 + 1 * (y 1).val = (y 1).val; omega
  have hw5 : iblk7 V c 5 t = V c main_v137 := by
    funext y
    show V c main_v137 (((cfg7.win 5).blk t).view.emb y) = V c main_v137 y
    refine congrArg (V c main_v137) (funext fun a => Fin.ext ?_)
    match a with
    | ⟨0, _⟩ => show win7_5.index t (0 : Fin 2) * 1 + 1 * (y 0).val = (y 0).val; omega
    | ⟨1, _⟩ => show win7_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg7.win 6).blk t).view.emb (ix2 p l) = ix2 (⟨t.val * 5000 + p.val, hrow⟩ : Fin 50000) l := fun l => by
    funext a; apply Fin.ext
    match a with
    | ⟨0, _⟩ => show win7_6.index t (0 : Fin 2) * 5000 + 1 * p.val = t.val * 5000 + p.val; omega
    | ⟨1, _⟩ => show win7_6.index t (1 : Fin 2) * 128 + 1 * l.val = l.val; omega
  have h0 : ∀ l : Fin 128, ((cfg7.win 0).blk t).view.emb (ix2 p l) = ix2 (⟨t.val * 5000 + p.val, hrow⟩ : Fin 50000) l := fun l => by
    funext a; apply Fin.ext
    match a with
    | ⟨0, _⟩ => show win7_0.index t (0 : Fin 2) * 5000 + 1 * p.val = t.val * 5000 + p.val; omega
    | ⟨1, _⟩ => show win7_0.index t (1 : Fin 2) * 128 + 1 * l.val = l.val; omega
  have h1 : ∀ l : Fin 128, ((cfg7.win 1).blk t).view.emb (ix2 p l) = ix2 (⟨t.val * 5000 + p.val, hrow⟩ : Fin 50000) l := fun l => by
    funext a; apply Fin.ext
    match a with
    | ⟨0, _⟩ => show win7_1.index t (0 : Fin 2) * 5000 + 1 * p.val = t.val * 5000 + p.val; omega
    | ⟨1, _⟩ => show win7_1.index t (1 : Fin 2) * 128 + 1 * l.val = l.val; omega
  show mlp (R := 5000) (iblk7 V c 0 t) (iblk7 V c 1 t) (V c main_arg13) (V c main_v136) (V c main_arg15) (V c main_v137) (ix2 p q)
    = mlp (R := 50000) (V c main_v125) (V c main_v135) (V c main_arg13) (V c main_v136) (V c main_arg15) (V c main_v137) (((cfg7.win 6).blk t).view.emb (ix2 p q))
  rw [h6 q, mlp_ix2, mlp_ix2]
  refine congrArg (fun f => mlpRow f (V c main_arg13) (V c main_v136) (V c main_arg15) (V c main_v137) q) (funext fun l => ?_)
  exact (show ∀ {u u' w w' : EReal}, u = u' → w = w' → u + w = u' + w' from fun h h' => by rw [h, h'])
    (congrArg (V c main_v125) (h0 l)) (congrArg (V c main_v135) (h1 l))

/-- An index of the array is in tile `t`'s block iff each coordinate is in the block's range on its axis. -/
theorem mem_blk (t : Fin cfg7.N) (i : S50000x128.Idx) :
    i ∈ ((cfg7.win 6).blk t).view.set ↔ ∀ a : Fin 2, win7_6.index t a * S5000x128.size a ≤ (i a).val
      ∧ (i a).val < win7_6.index t a * S5000x128.size a + S5000x128.size a := by
  show i ∈ ((View.whole main_v138).slice (win7_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat7 V c).arrAt 6 cfg7.N
    = mlp (R := 50000) (V c main_v125) (V c main_v135) (V c main_arg13) (V c main_v136) (V c main_arg15) (V c main_v137) :=
  (dat7 V c).arrAt_eq_of_cover 6 _ (fun t _ => flushed_eq V c t) fun i => by
    have hi0 : (i 0).val < 50000 := (i 0).isLt
    have hi1 : (i 1).val < 128 := (i 1).isLt
    have ht : (i 0).val / 5000 < cfg7.N := by rw [grid_size]; omega
    refine ⟨⟨(i 0).val / 5000, ht⟩, flush7_6 _, ?_⟩
    rw [mem_blk]
    obtain ⟨-, -, -, -, -, -, -, -, -, -, -, -, e60, e61⟩ := idx_facts ⟨(i 0).val / 5000, ht⟩
    intro a
    match a with
    | ⟨0, _⟩ =>
      show win7_6.index ⟨(i 0).val / 5000, ht⟩ (0 : Fin 2) * 5000 ≤ (i 0).val
        ∧ (i 0).val < win7_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win7_6.index ⟨(i 0).val / 5000, ht⟩ (1 : Fin 2) * 128 ≤ (i 1).val
        ∧ (i 1).val < win7_6.index ⟨(i 0).val / 5000, ht⟩ (1 : Fin 2) * 128 + 128
      rw [e61]; omega

end Cert.Gin.Region7

end
-- ==== Proof.Region8.lean ====
/-
  Launch 8 of the tiled kernel: its output array is the layer function of its six input arrays.

  The launch walks ten tiles of `5000` rows. At tile `t` the two row-tiled inputs and the output are at rows
  `5000 t … 5000 t + 4999` (all `128` columns), the two weight matrices and the two bias rows are whole. The body
  stores the layer function of its tile (the payload lemma), and a row of the layer function depends only on the
  same row of the inputs, so what tile `t` writes back is the restriction to its rows of the layer function of the
  WHOLE input arrays as the launch finds them. Every row lies in exactly the tile `row / 5000`, so the tiles cover
  the array and the array after the launch is that function everywhere.
-/
import proofs.«142862_j27290222199187_1_alg».proof.Proof.Gen.KernelIdeal.Frame
import proofs.«142862_j27290222199187_1_alg».proof.Proof.Payload

set_option maxRecDepth 16384

noncomputable section

namespace Cert.Gin.Region8

open Cert.KernelIdeal Cert.KernelIdeal.Gen Cert.Gin
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The launch's index maps over its ten tiles: the row-tiled windows are at block row `t`, column block `0`; the
    whole windows at block `(0, 0)`. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = t.val ∧ win8_6.index t (1 : Fin 2) = 0 :=
  (by decide +kernel : ∀ t : Fin grid8.N, _)

theorem grid_size : cfg8.N = 10 := rfl

set_option maxHeartbeats 1000000 in
/-- What tile `t` writes back is the tile's rows of the layer function of the whole arrays. -/
theorem flushed_eq (c : Dev nD) (t : Fin cfg8.N) :
    (dat8 V c).flushed 6 t = ((cfg8.win 6).blk t).view.read (Elt Ideal)
      (mlp (R := 50000) (V c main_v138) (V c main_v148) (V c main_arg17) (V c main_v149) (V c main_arg19) (V c main_v150)) := by
  show (cfg8.win 6).cut (grid8.coords t) ((dat8 V c).after 6 t) = _
  rw [after8_6]
  unfold out8_6
  rw [View.canon_unit_zero hz]
  simp only [View.ld_unit_zero (S := S5000x128) hz, View.ld_unit_zero (S := S128x128) hz, View.ld_unit_zero (S := S1x128) hz]
  rw [Tile.pay_eq8]
  obtain ⟨e00, e01, e10, e11, e20, e21, e30, e31, e40, e41, e50, e51, e60, e61⟩ := idx_facts t
  have hw2 : iblk8 V c 2 t = V c main_arg17 := by
    funext y
    show V c main_arg17 (((cfg8.win 2).blk t).view.emb y) = V c main_arg17 y
    refine congrArg (V c main_arg17) (funext fun a => Fin.ext ?_)
    match a with
    | ⟨0, _⟩ => show win8_2.index t (0 : Fin 2) * 128 + 1 * (y 0).val = (y 0).val; omega
    | ⟨1, _⟩ => show win8_2.index t (1 : Fin 2) * 128 + 1 * (y 1).val = (y 1).val; omega
  have hw3 : iblk8 V c 3 t = V c main_v149 := by
    funext y
    show V c main_v149 (((cfg8.win 3).blk t).view.emb y) = V c main_v149 y
    refine congrArg (V c main_v149) (funext fun a => Fin.ext ?_)
    match a with
    | ⟨0, _⟩ => show win8_3.index t (0 : Fin 2) * 1 + 1 * (y 0).val = (y 0).val; omega
    | ⟨1, _⟩ => show win8_3.index t (1 : Fin 2) * 128 + 1 * (y 1).val = (y 1).val; omega
  have hw4 : iblk8 V c 4 t = V c main_arg19 := by
    funext y
    show V c main_arg19 (((cfg8.win 4).blk t).view.emb y) = V c main_arg19 y
    refine congrArg (V c main_arg19) (funext fun a => Fin.ext ?_)
    match a with
    | ⟨0, _⟩ => show win8_4.index t (0 : Fin 2) * 128 + 1 * (y 0).val = (y 0).val; omega
    | ⟨1, _⟩ => show win8_4.index t (1 : Fin 2) * 128 + 1 * (y 1).val = (y 1).val; omega
  have hw5 : iblk8 V c 5 t = V c main_v150 := by
    funext y
    show V c main_v150 (((cfg8.win 5).blk t).view.emb y) = V c main_v150 y
    refine congrArg (V c main_v150) (funext fun a => Fin.ext ?_)
    match a with
    | ⟨0, _⟩ => show win8_5.index t (0 : Fin 2) * 1 + 1 * (y 0).val = (y 0).val; omega
    | ⟨1, _⟩ => show win8_5.index t (1 : Fin 2) * 128 + 1 * (y 1).val = (y 1).val; omega
  rw [hw2, hw3, hw4, hw5]
  funext j
  obtain ⟨p, q, rfl⟩ : ∃ (p : Fin 5000) (q : Fin 128), j = ix2 p q := ⟨j 0, j 1, eq_ix2 j⟩
  have htl : t.val < 10 := t.isLt
  have hrow : t.val * 5000 + p.val < 50000 := by have := p.isLt; omega
  have h6 : ∀ l : Fin 128, ((cfg8.win 6).blk t).view.emb (ix2 p l) = ix2 (⟨t.val * 5000 + p.val, hrow⟩ : Fin 50000) l := fun l => by
    funext a; apply Fin.ext
    match a with
    | ⟨0, _⟩ => show win8_6.index t (0 : Fin 2) * 5000 + 1 * p.val = t.val * 5000 + p.val; omega
    | ⟨1, _⟩ => show win8_6.index t (1 : Fin 2) * 128 + 1 * l.val = l.val; omega
  have h0 : ∀ l : Fin 128, ((cfg8.win 0).blk t).view.emb (ix2 p l) = ix2 (⟨t.val * 5000 + p.val, hrow⟩ : Fin 50000) l := fun l => by
    funext a; apply Fin.ext
    match a with
    | ⟨0, _⟩ => show win8_0.index t (0 : Fin 2) * 5000 + 1 * p.val = t.val * 5000 + p.val; omega
    | ⟨1, _⟩ => show win8_0.index t (1 : Fin 2) * 128 + 1 * l.val = l.val; omega
  have h1 : ∀ l : Fin 128, ((cfg8.win 1).blk t).view.emb (ix2 p l) = ix2 (⟨t.val * 5000 + p.val, hrow⟩ : Fin 50000) l := fun l => by
    funext a; apply Fin.ext
    match a with
    | ⟨0, _⟩ => show win8_1.index t (0 : Fin 2) * 5000 + 1 * p.val = t.val * 5000 + p.val; omega
    | ⟨1, _⟩ => show win8_1.index t (1 : Fin 2) * 128 + 1 * l.val = l.val; omega
  show mlp (R := 5000) (iblk8 V c 0 t) (iblk8 V c 1 t) (V c main_arg17) (V c main_v149) (V c main_arg19) (V c main_v150) (ix2 p q)
    = mlp (R := 50000) (V c main_v138) (V c main_v148) (V c main_arg17) (V c main_v149) (V c main_arg19) (V c main_v150) (((cfg8.win 6).blk t).view.emb (ix2 p q))
  rw [h6 q, mlp_ix2, mlp_ix2]
  refine congrArg (fun f => mlpRow f (V c main_arg17) (V c main_v149) (V c main_arg19) (V c main_v150) q) (funext fun l => ?_)
  exact (show ∀ {u u' w w' : EReal}, u = u' → w = w' → u + w = u' + w' from fun h h' => by rw [h, h'])
    (congrArg (V c main_v138) (h0 l)) (congrArg (V c main_v148) (h1 l))

/-- An index of the array is in tile `t`'s block iff each coordinate is in the block's range on its axis. -/
theorem mem_blk (t : Fin cfg8.N) (i : S50000x128.Idx) :
    i ∈ ((cfg8.win 6).blk t).view.set ↔ ∀ a : Fin 2, win8_6.index t a * S5000x128.size a ≤ (i a).val
      ∧ (i a).val < win8_6.index t a * S5000x128.size a + S5000x128.size a := by
  show i ∈ ((View.whole main_v151).slice (win8_6.rect t)).set ↔ _
  rw [View.set_slice_whole, Rect.mem_set_unit]
  exact Iff.rfl

/-- The array after the launch is the layer function of the input arrays as the launch finds them: row `r` lies in
    the tile `r / 5000`, so the tiles cover the array. -/
theorem final (c : Dev nD) : (dat8 V c).arrAt 6 cfg8.N
    = mlp (R := 50000) (V c main_v138) (V c main_v148) (V c main_arg17) (V c main_v149) (V c main_arg19) (V c main_v150) :=
  (dat8 V c).arrAt_eq_of_cover 6 _ (fun t _ => flushed_eq V c t) fun i => by
    have hi0 : (i 0).val < 50000 := (i 0).isLt
    have hi1 : (i 1).val < 128 := (i 1).isLt
    have ht : (i 0).val / 5000 < cfg8.N := by rw [grid_size]; omega
    refine ⟨⟨(i 0).val / 5000, ht⟩, flush8_6 _, ?_⟩
    rw [mem_blk]
    obtain ⟨-, -, -, -, -, -, -, -, -, -, -, -, e60, e61⟩ := idx_facts ⟨(i 0).val / 5000, ht⟩
    intro a
    match a with
    | ⟨0, _⟩ =>
      show win8_6.index ⟨(i 0).val / 5000, ht⟩ (0 : Fin 2) * 5000 ≤ (i 0).val
        ∧ (i 0).val < win8_6.index ⟨(i 0).val / 5000, ht⟩ (0 : Fin 2) * 5000 + 5000
      rw [e60]; show (i 0).val / 5000 * 5000 ≤ (i 0).val ∧ (i 0).val < (i 0).val / 5000 * 5000 + 5000; omega
    | ⟨1, _⟩ =>
      show win8_6.index ⟨(i 0).val / 5000, ht⟩ (1 : Fin 2) * 128 ≤ (i 1).val
        ∧ (i 1).val < win8_6.index ⟨(i 0).val / 5000, ht⟩ (1 : Fin 2) * 128 + 128
      rw [e61]; omega

end Cert.Gin.Region8

end
-- ==== Proof.KFoldN.lean ====
/-
  The negative branch of the tiled program, read back through its segment boundaries.

  The branch is launches 6, 7, 8. The first launch's inputs are the widened features and neighbour sums
  and the lengthened first weight; each later launch's are the previous launch's output, that output's neighbour sums
  through the same edge list, and the layer's weights; the branch's result is the pooled, linearly mapped output of
  the third launch, written by the host stretch after it and untouched by everything later. Each launch's output is
  the layer function of its inputs (the launch lemmas), so the result is the branch function of the launch arrays.
-/
import proofs.«142862_j27290222199187_1_alg».proof.Proof.KFoldBase
import proofs.«142862_j27290222199187_1_alg».proof.Proof.KSpec
import proofs.«142862_j27290222199187_1_alg».proof.Proof.Region6
import proofs.«142862_j27290222199187_1_alg».proof.Proof.Region7
import proofs.«142862_j27290222199187_1_alg».proof.Proof.Region8

set_option maxRecDepth 16384
set_option maxHeartbeats 4000000

noncomputable section

namespace Cert.Gin.FoldN

open Cert.KernelIdeal Cert.KernelIdeal.Gen Cert.Gin
open Idealize.ShloMosaic Idealize.ShloMosaic.TcCoe Idealize.SL.Sem

variable (m : (ℓ : Loc nD τ sig) → Buf (Elt Ideal) ℓ) (ρ : Dev nD → PrngReg) (c : Dev nD)

/-- The features after layer 1: launch 6's output, its six inputs read back to the launch arrays. -/
theorem feat1_eq : W32 m ρ c (Proc.devRef .tc main_v125) = (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) := by
  refine ((W32_arr m ρ c 6).trans (Region6.final (V31 m ρ) c)).trans ?_
  unfold K.feat1
  have hx : V31 m ρ c main_v120 = padCols (R := 50000) (m ((c.tc : Thread nD τ).loc main_arg6)) :=
    (show V31 m ρ c main_v120 = pad S50000x128 ![0, 0] ![0, 127] ![0, 0] (m ((c.tc : Thread nD τ).loc main_arg6)) K.padZero pads_S50000x1_S50000x128_000_01270 h_S_
      from by fold_norm; try rfl).trans (K.pad_cols _)
  have ha : V31 m ρ c main_v121 = padCols (R := 50000) (K.agg1 (m ((c.tc : Thread nD τ).loc main_arg7)) (m ((c.tc : Thread nD τ).loc main_arg6))) := by
    refine Eq.trans ?_ (K.pad_cols _)
    fold_norm
    -- the padding operation reads its operands through typed buffer references, which are the identity on contents:
    -- with the padded array `z` abstract that is `rfl`, and the neighbour sums stay folded
    rw [show ∀ z : FVec Ideal S50000x1 .f32,
        (StableHlo.TRef.of (T := ⟨S50000x128, .f32⟩) main_v121).toBuf (Val := Elt Ideal)
          (pad S50000x128 ![0, 0] ![0, 127] ![0, 0]
            ((StableHlo.TRef.of (T := ⟨S50000x1, .f32⟩) main_v119).ofBuf (Val := Elt Ideal) z)
            ((StableHlo.TRef.of (T := ⟨S_, .f32⟩) main_call7_v0).ofBuf (Val := Elt Ideal)
              ((StableHlo.TRef.of (T := ⟨S_, .f32⟩) main_call7_v0).toBuf (Val := Elt Ideal)
                (sitofp (F := Ideal) FTy.f32 ((StableHlo.TRef.of (T := ⟨S_, .i32⟩) main_c_28).ofBuf (Val := Elt Ideal) (constantI S_ 32 0#32)))))
            pads_S50000x1_S50000x128_000_01270 h_S_)
          = pad S50000x128 ![0, 0] ![0, 127] ![0, 0] z K.padZero pads_S50000x1_S50000x128_000_01270 h_S_ from fun z => rfl]
    refine congrArg (fun z : FVec Ideal S50000x1 .f32 => pad S50000x128 ![0, 0] ![0, 127] ![0, 0] z K.padZero pads_S50000x1_S50000x128_000_01270 h_S_) ?_
    rfl
  have hw1 : V31 m ρ c main_v122 = padRows (m ((c.tc : Thread nD τ).loc main_arg9)) :=
    (show V31 m ρ c main_v122 = pad S128x128 ![0, 0] ![127, 0] ![0, 0] (m ((c.tc : Thread nD τ).loc main_arg9)) K.padZero pads_S1x128_S128x128_01270_000 h_S_
      from by fold_norm; try rfl).trans (K.pad_rows _)
  have hb1 : V31 m ρ c main_v123 = asRow (m ((c.tc : Thread nD τ).loc main_arg10)) :=
    (show V31 m ρ c main_v123 = shapeCast S1x128 (m ((c.tc : Thread nD τ).loc main_arg10)) shapeCasts_S128_S1x128 from by fold_norm; try rfl).trans (K.reshape_row _)
  have hw2 : V31 m ρ c main_arg11 = (m ((c.tc : Thread nD τ).loc main_arg11)) := by fold_norm; try rfl
  have hb2 : V31 m ρ c main_v124 = asRow (m ((c.tc : Thread nD τ).loc main_arg12)) :=
    (show V31 m ρ c main_v124 = shapeCast S1x128 (m ((c.tc : Thread nD τ).loc main_arg12)) shapeCasts_S128_S1x128 from by fold_norm; try rfl).trans (K.reshape_row _)
  rw [hx, ha, hw1, hb1, hw2, hb2]

/-- The features after layer 2: launch 7's output, its inputs read back — the previous features, their
    neighbour sums through the same edge list, the layer's weights and reshaped biases. -/
theorem feat2_eq : W34 m ρ c (Proc.devRef .tc main_v138) = (K.featNext (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg7)) (m ((c.tc : Thread nD τ).loc main_arg13)) (m ((c.tc : Thread nD τ).loc main_arg14)) (m ((c.tc : Thread nD τ).loc main_arg15)) (m ((c.tc : Thread nD τ).loc main_arg16))) := by
  refine ((W34_arr m ρ c 6).trans (Region7.final (V33 m ρ) c)).trans ?_
  unfold K.featNext
  have hH : V33 m ρ c main_v125 = (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) := by
    refine Eq.trans ?_ (feat1_eq m ρ c)
    fold_norm
    try rfl
  have hA : V33 m ρ c main_v135 = K.agg (m ((c.tc : Thread nD τ).loc main_arg7)) (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) := by
    rw [← feat1_eq m ρ c]
    fold_norm
    try rfl
  have hw1 : V33 m ρ c main_arg13 = (m ((c.tc : Thread nD τ).loc main_arg13)) := by fold_norm; try rfl
  have hb1 : V33 m ρ c main_v136 = asRow (m ((c.tc : Thread nD τ).loc main_arg14)) :=
    (show V33 m ρ c main_v136 = shapeCast S1x128 (m ((c.tc : Thread nD τ).loc main_arg14)) shapeCasts_S128_S1x128 from by fold_norm; try rfl).trans (K.reshape_row _)
  have hw2 : V33 m ρ c main_arg15 = (m ((c.tc : Thread nD τ).loc main_arg15)) := by fold_norm; try rfl
  have hb2 : V33 m ρ c main_v137 = asRow (m ((c.tc : Thread nD τ).loc main_arg16)) :=
    (show V33 m ρ c main_v137 = shapeCast S1x128 (m ((c.tc : Thread nD τ).loc main_arg16)) shapeCasts_S128_S1x128 from by fold_norm; try rfl).trans (K.reshape_row _)
  rw [hH, hA, hw1, hb1, hw2, hb2]
  try rfl

/-- The features after layer 3: launch 8's output, its inputs read back — the previous features, their
    neighbour sums through the same edge list, the layer's weights and reshaped biases. -/
theorem feat3_eq : W36 m ρ c (Proc.devRef .tc main_v151) = (K.featNext (K.featNext (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg7)) (m ((c.tc : Thread nD τ).loc main_arg13)) (m ((c.tc : Thread nD τ).loc main_arg14)) (m ((c.tc : Thread nD τ).loc main_arg15)) (m ((c.tc : Thread nD τ).loc main_arg16))) (m ((c.tc : Thread nD τ).loc main_arg7)) (m ((c.tc : Thread nD τ).loc main_arg17)) (m ((c.tc : Thread nD τ).loc main_arg18)) (m ((c.tc : Thread nD τ).loc main_arg19)) (m ((c.tc : Thread nD τ).loc main_arg20))) := by
  refine ((W36_arr m ρ c 6).trans (Region8.final (V35 m ρ) c)).trans ?_
  unfold K.featNext
  have hH : V35 m ρ c main_v138 = (K.featNext (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg7)) (m ((c.tc : Thread nD τ).loc main_arg13)) (m ((c.tc : Thread nD τ).loc main_arg14)) (m ((c.tc : Thread nD τ).loc main_arg15)) (m ((c.tc : Thread nD τ).loc main_arg16))) := by
    refine Eq.trans ?_ (feat2_eq m ρ c)
    fold_norm
    try rfl
  have hA : V35 m ρ c main_v148 = K.agg (m ((c.tc : Thread nD τ).loc main_arg7)) (K.featNext (K.feat1 (m ((c.tc : Thread nD τ).loc main_arg6)) (m ((c.tc : Thread nD τ).loc main_arg7)) (m ((c.tc : Thread nD τ).loc main_arg9)) (m ((c.tc : Thread nD τ).loc main_arg10)) (m ((c.tc : Thread nD τ).loc main_arg11)) (m ((c.tc : Thread nD τ).loc main_arg12))) (m ((c.tc : Thread nD τ).loc main_arg7)) (m ((c.tc : Thread nD τ).loc main_arg13)) (m ((c.tc : Thread nD τ).loc main_arg14)) (m ((c.tc : Thread nD τ).loc main_arg15)) (m ((c.tc : Thread nD τ).loc main_arg16))) := by
    rw [← feat2_eq m ρ c]
    fold_norm
    try rfl
  have hw1 : V35 m ρ c main_arg17 = (m ((c.tc : Thread nD τ).loc main_arg17)) := by fold_norm; try rfl
  have hb1 : V35 m ρ c main_v149 = asRow (m ((c.tc : Thread nD τ).loc main_arg18)) :=
    (show V35 m ρ c main_v149 = shapeCast S1x128 (m ((c.tc : Thread nD τ).loc main_arg18)) shapeCasts_S128_S1x128 from by fold_norm; try rfl).trans (K.reshape_row _)
  have hw2 : V35 m ρ c main_arg19 = (m ((c.tc : Thread nD τ).loc main_arg19)) := by fold_norm; try rfl
  have hb2 : V35 m ρ c main_v150 = asRow (m ((c.tc : Thread nD τ).loc main_arg20)) :=
    (show V35 m ρ c main_v150 = shapeCast S1x128 (m ((c.tc : Thread nD τ).loc main_arg20)) shapeCasts_S128_S1x128 from by fold_norm; try rfl).trans (K.reshape_row _)
  rw [hH, hA, hw1, hb1, hw2, hb2]
  try rfl

/-- The branch's result at the end of the run: written by the host stretch after the third launch from that launch's
    output, the graph assignment and the final weights, and rewritten by nothing after. -/
theorem result_eq : W37 m ρ c (Proc.devRef .tc main_v158) = K.branch (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold K.branch K.pool
  rw [← feat3_eq m ρ c]
  fold_norm
  try rfl

end Cert.Gin.FoldN

end
-- ==== Proof.RefLayer.lean ====
/-
  One layer of the reference, read entry by entry.

  The reference computes a layer with whole-array host operations: the sum `h + a` of the features and the
  neighbour sums, a matrix product with `w1`, the bias `b1` broadcast to every row, a maximum against a zero
  array, then the same with `w2, b2`. On the extended reals the host's matrix product is the plain sum over the
  contracted axis, the two-step broadcast of a length-`128` bias reads the bias at the entry's column, and the zero
  array reads `0`. So the layer is `mlp` on `50000` rows. In the first layer the features have ONE column and
  `w1` one row; the contraction over that single position equals the contraction of the zero-padded arrays over
  `128` positions (`sum_padded`), which is how the tiled program runs it.
-/
import proofs.«142862_j27290222199187_1_alg».proof.Proof.Gen.ReferenceIdeal
import proofs.«142862_j27290222199187_1_alg».proof.Proof.Mlp
import proofs.«142862_j27290222199187_1_alg».proof.Proof.LibPlainDot
import Idealize.ShloMosaic.Lib.Pipeline.Value

noncomputable section

namespace Cert.Gin.Ref

open Cert.ReferenceIdeal Cert.ReferenceIdeal.Facts₀ Idealize.ShloMosaic Idealize.ShloMosaic.ValueIdx Cert.Gin

/-- The all-zero `50000 × 128` array the reference takes maxima against. -/
abbrev zeros : FVec Ideal S50000x128 .f32 :=
  broadcastInDim S50000x128 ![] bcast_S_S50000x128 (constant (F := Ideal) S_ .f32 0x00000000#32)

/-- A length-`128` bias broadcast to every row. -/
abbrev biasAll (b : FVec Ideal S128 .f32) : FVec Ideal S50000x128 .f32 :=
  broadcastInDim S50000x128 ![0, 1] bcast_S1x128_S50000x128_0_1 (broadcastInDim S1x128 ![1] bcast_S128_S1x128_1 b)

/-- A layer on `128` input features, as the reference's host operations. -/
def layer (h a : FVec Ideal S50000x128 .f32) (w1 : FVec Ideal S128x128 .f32) (b1 : FVec Ideal S128 .f32)
    (w2 : FVec Ideal S128x128 .f32) (b2 : FVec Ideal S128 .f32) : FVec Ideal S50000x128 .f32 :=
  maximumf (addf (Host.dotGeneral dot_S50000x128_S128x128_S50000x128_1_0_0_1_n_n none
    (maximumf (addf (Host.dotGeneral dot_S50000x128_S128x128_S50000x128_1_0_0_1_n_n none (addf h a) w1) (biasAll b1)) zeros)
    w2) (biasAll b2)) zeros

/-- The first layer, on ONE input feature. -/
def layer1 (x a : FVec Ideal S50000x1 .f32) (w1 : FVec Ideal S1x128 .f32) (b1 : FVec Ideal S128 .f32)
    (w2 : FVec Ideal S128x128 .f32) (b2 : FVec Ideal S128 .f32) : FVec Ideal S50000x128 .f32 :=
  maximumf (addf (Host.dotGeneral dot_S50000x128_S128x128_S50000x128_1_0_0_1_n_n none
    (maximumf (addf (Host.dotGeneral dot_S50000x1_S1x128_S50000x128_1_0_0_1_n_n none (addf x a) w1) (biasAll b1)) zeros)
    w2) (biasAll b2)) zeros

theorem zeros_apply (i : S50000x128.Idx) : zeros i = 0 := by
  show broadcastInDim S50000x128 ![] bcast_S_S50000x128 (constant (F := Ideal) S_ .f32 0x00000000#32) i = 0
  rw [broadcastInDim_apply _ bcast_S_S50000x128 _ i ix0 (fun a => a.elim0)]
  exact Ideal.ofBits_zero_f32

theorem biasAll_apply (b : FVec Ideal S128 .f32) (p : Fin 50000) (q : Fin 128) : biasAll b (ix2 p q) = b (ix1 q) := by
  show broadcastInDim S50000x128 ![0, 1] bcast_S1x128_S50000x128_0_1 (broadcastInDim S1x128 ![1] bcast_S128_S1x128_1 b) (ix2 p q) = _
  rw [broadcastInDim_apply _ bcast_S1x128_S50000x128_0_1 _ (ix2 p q) (ix2 0 q) (fun a => match a with
    | ⟨0, _⟩ => by show (0 : Nat) = if (1 : Nat) = 1 then 0 else _; rw [if_pos rfl]
    | ⟨1, _⟩ => by show q.val = if (128 : Nat) = 1 then 0 else _; rw [if_neg (by decide)]; rfl)]
  exact broadcastInDim_apply _ bcast_S128_S1x128_1 b (ix2 0 q) (ix1 q) (fun a => match a with
    | ⟨0, _⟩ => by show q.val = if (128 : Nat) = 1 then 0 else _; rw [if_neg (by decide)]; rfl)

theorem dot128_apply (l : FVec Ideal S50000x128 .f32) (r : FVec Ideal S128x128 .f32) (p : Fin 50000) (q : Fin 128) :
    Host.dotGeneral dot_S50000x128_S128x128_S50000x128_1_0_0_1_n_n none l r (ix2 p q) = ∑ k : Fin 128, l (ix2 p k) * r (ix2 k q) := by
  simp only [Host.dotGeneral]
  rw [Ideal.dotGeneral_apply]
  exact Cert.LibPlainDot.sum_plain (R := EReal) dot_S50000x128_S128x128_S50000x128_1_0_0_1_n_n rfl rfl rfl rfl rfl rfl l r p q

theorem dot1_apply (l : FVec Ideal S50000x1 .f32) (r : FVec Ideal S1x128 .f32) (p : Fin 50000) (q : Fin 128) :
    Host.dotGeneral dot_S50000x1_S1x128_S50000x128_1_0_0_1_n_n none l r (ix2 p q) = l (ix2 p 0) * r (ix2 0 q) := by
  simp only [Host.dotGeneral]
  rw [Ideal.dotGeneral_apply,
    Cert.LibPlainDot.sum_plain (R := EReal) dot_S50000x1_S1x128_S50000x128_1_0_0_1_n_n rfl rfl rfl rfl rfl rfl l r p q]
  exact Fin.sum_univ_one _

/-- A layer on `128` features is the layer function of its whole arrays. -/
theorem layer_eq (h a : FVec Ideal S50000x128 .f32) (w1 : FVec Ideal S128x128 .f32) (b1 : FVec Ideal S128 .f32)
    (w2 : FVec Ideal S128x128 .f32) (b2 : FVec Ideal S128 .f32) :
    layer h a w1 b1 w2 b2 = mlp (R := 50000) h a w1 (asRow b1) w2 (asRow b2) := by
  funext i
  obtain ⟨p, q, rfl⟩ : ∃ (p : Fin 50000) (q : Fin 128), i = ix2 p q := ⟨i 0, i 1, eq_ix2 i⟩
  rw [mlp_ix2]
  unfold layer mlpRow
  simp only [maximumf_apply, addf_apply, dot128_apply, biasAll_apply, zeros_apply, asRow_ix2]

/-- The first layer is the layer function of the zero-padded arrays. -/
theorem layer1_eq (x a : FVec Ideal S50000x1 .f32) (w1 : FVec Ideal S1x128 .f32) (b1 : FVec Ideal S128 .f32)
    (w2 : FVec Ideal S128x128 .f32) (b2 : FVec Ideal S128 .f32) :
    layer1 x a w1 b1 w2 b2 = mlp (R := 50000) (padCols x) (padCols a) (padRows w1) (asRow b1) w2 (asRow b2) := by
  funext i
  obtain ⟨p, q, rfl⟩ : ∃ (p : Fin 50000) (q : Fin 128), i = ix2 p q := ⟨i 0, i 1, eq_ix2 i⟩
  rw [mlp_ix2]
  unfold layer1 mlpRow
  simp only [maximumf_apply, addf_apply, dot128_apply, dot1_apply, biasAll_apply, zeros_apply, asRow_ix2, sum_padded]

end Cert.Gin.Ref

end
-- ==== Proof.RefBranch.lean ====
/-
  One branch of the reference as three applications of the layer function.

  The reference runs, on a branch's node features `x`, edge list `e` and graph assignment `bt`: three layers —
  each the host form of `relu (relu ((h + agg h) · w1 + b1) · w2 + b2)` where `agg h` gathers every edge's source
  row of `h` and adds it into the edge's destination row — then the per-graph sum of the node rows and a final
  linear map. The gather, the scatter-add and the final map are kept as the host operations they are: only the dense
  part of each layer is read entry by entry (the layer lemmas), and it is the layer function `mlp`.
-/
import proofs.«142862_j27290222199187_1_alg».proof.Proof.RefLayer

noncomputable section

namespace Cert.Gin.Ref

open Cert.ReferenceIdeal Cert.ReferenceIdeal.Facts₀ Idealize.ShloMosaic Idealize.ShloMosaic.ValueIdx Cert.Gin

/-- Row `0` of the edge list: each edge's source node. -/
def src (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000

/-- Row `1` of the edge list: each edge's destination node. -/
def dst (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- A negative node number counts from the end: `s + 50000` where `s < 0`. -/
def wrap (s : (⟨S800000, .i32⟩ : BufTy).Contents (Elt Ideal)) : (⟨S800000, .i32⟩ : BufTy).Contents (Elt Ideal) :=
  select (cmpi .slt s (broadcastInDim S800000 ![] bcast_S_S800000 (constantI S_ 32 0#32)))
    (addi s (broadcastInDim S800000 ![] bcast_S_S800000 (constantI S_ 32 50000#32))) s

/-- The neighbour sums of one-column features: gather each edge's source row, add it into the destination row. -/
def agg1 (e : (⟨S2x800000, .i32⟩ : BufTy).Contents (Elt Ideal)) (x : FVec Ideal S50000x1 .f32) : FVec Ideal S50000x1 .f32 :=
  Host.scatterAdd scatter_S50000x1_S800000x1_S800000x1_1_0_0_1
    (broadcastInDim S50000x1 ![] bcast_S_S50000x1 (constant S_ .f32 0x00000000#32))
    (broadcastInDim S800000x1 ![0] bcast_S800000_S800000x1_0 (dst e))
    (Host.gather gather_S50000x1_S800000x1_S800000x1_1_0_n_n_0_1_11 x
      (broadcastInDim S800000x1 ![0] bcast_S800000_S800000x1_0 (wrap (src e))))

/-- The neighbour sums of `128`-column features. -/
def agg (e : (⟨S2x800000, .i32⟩ : BufTy).Contents (Elt Ideal)) (h : FVec Ideal S50000x128 .f32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 (dst e))
    (Host.gather gather_S50000x128_S800000x1_S800000x128_1_0_n_n_0_1_1128 h
      (broadcastInDim S800000x1 ![0] bcast_S800000_S800000x1_0 (wrap (src e))))

/-- Sum the node rows of each graph, then the final linear map with its bias. -/
def pool (bt : (⟨S50000, .i32⟩ : BufTy).Contents (Elt Ideal)) (h : FVec Ideal S50000x128 .f32) (fcw : FVec Ideal S128x128 .f32) (fcb : FVec Ideal S128 .f32) :
    FVec Ideal S128x128 .f32 :=
  addf (Host.dotGeneral dot_S128x128_S128x128_S128x128_1_0_0_1_n_n none
      (Host.scatterAdd scatter_S128x128_S50000x1_S50000x128_1_0_0_1
        (broadcastInDim S128x128 ![] bcast_S_S128x128 (constant S_ .f32 0x00000000#32))
        (broadcastInDim S50000x1 ![0] bcast_S50000_S50000x1_0 bt) h) fcw)
    (broadcastInDim S128x128 ![0, 1] bcast_S1x128_S128x128_0_1 (broadcastInDim S1x128 ![1] bcast_S128_S1x128_1 fcb))

/-- The features after the first, second and third layer, each the layer function of the previous features and
    their neighbour sums. -/
def feat1 (x : FVec Ideal S50000x1 .f32) (e : (⟨S2x800000, .i32⟩ : BufTy).Contents (Elt Ideal)) (w11 : FVec Ideal S1x128 .f32) (b11 : FVec Ideal S128 .f32)
    (w12 : FVec Ideal S128x128 .f32) (b12 : FVec Ideal S128 .f32) : FVec Ideal S50000x128 .f32 :=
  mlp (R := 50000) (padCols x) (padCols (agg1 e x)) (padRows w11) (asRow b11) w12 (asRow b12)

def featNext (h : FVec Ideal S50000x128 .f32) (e : (⟨S2x800000, .i32⟩ : BufTy).Contents (Elt Ideal)) (w1 : FVec Ideal S128x128 .f32) (b1 : FVec Ideal S128 .f32)
    (w2 : FVec Ideal S128x128 .f32) (b2 : FVec Ideal S128 .f32) : FVec Ideal S50000x128 .f32 :=
  mlp (R := 50000) h (agg e h) w1 (asRow b1) w2 (asRow b2)

/-- One branch of the network: three layers, the pooling, the final linear map. -/
def branch (x : FVec Ideal S50000x1 .f32) (e : (⟨S2x800000, .i32⟩ : BufTy).Contents (Elt Ideal)) (bt : (⟨S50000, .i32⟩ : BufTy).Contents (Elt Ideal))
    (w11 : FVec Ideal S1x128 .f32) (b11 : FVec Ideal S128 .f32) (w12 : FVec Ideal S128x128 .f32) (b12 : FVec Ideal S128 .f32)
    (w21 : FVec Ideal S128x128 .f32) (b21 : FVec Ideal S128 .f32) (w22 : FVec Ideal S128x128 .f32) (b22 : FVec Ideal S128 .f32)
    (w31 : FVec Ideal S128x128 .f32) (b31 : FVec Ideal S128 .f32) (w32 : FVec Ideal S128x128 .f32) (b32 : FVec Ideal S128 .f32)
    (fcw : FVec Ideal S128x128 .f32) (fcb : FVec Ideal S128 .f32) : FVec Ideal S128x128 .f32 :=
  pool bt (featNext (featNext (feat1 x e w11 b11 w12 b12) e w21 b21 w22 b22) e w31 b31 w32 b32) fcw fcb

/-- The same branch with every layer in the reference's host form. -/
def branchHost (x : FVec Ideal S50000x1 .f32) (e : (⟨S2x800000, .i32⟩ : BufTy).Contents (Elt Ideal)) (bt : (⟨S50000, .i32⟩ : BufTy).Contents (Elt Ideal))
    (w11 : FVec Ideal S1x128 .f32) (b11 : FVec Ideal S128 .f32) (w12 : FVec Ideal S128x128 .f32) (b12 : FVec Ideal S128 .f32)
    (w21 : FVec Ideal S128x128 .f32) (b21 : FVec Ideal S128 .f32) (w22 : FVec Ideal S128x128 .f32) (b22 : FVec Ideal S128 .f32)
    (w31 : FVec Ideal S128x128 .f32) (b31 : FVec Ideal S128 .f32) (w32 : FVec Ideal S128x128 .f32) (b32 : FVec Ideal S128 .f32)
    (fcw : FVec Ideal S128x128 .f32) (fcb : FVec Ideal S128 .f32) : FVec Ideal S128x128 .f32 :=
  pool bt
    (layer (layer (layer1 x (agg1 e x) w11 b11 w12 b12)
        (agg e (layer1 x (agg1 e x) w11 b11 w12 b12)) w21 b21 w22 b22)
      (agg e (layer (layer1 x (agg1 e x) w11 b11 w12 b12)
        (agg e (layer1 x (agg1 e x) w11 b11 w12 b12)) w21 b21 w22 b22)) w31 b31 w32 b32) fcw fcb

/-- The host form of a branch is the branch: each layer is the layer function (the layer lemmas). -/
theorem branchHost_eq (x : FVec Ideal S50000x1 .f32) (e : (⟨S2x800000, .i32⟩ : BufTy).Contents (Elt Ideal)) (bt : (⟨S50000, .i32⟩ : BufTy).Contents (Elt Ideal))
    (w11 : FVec Ideal S1x128 .f32) (b11 : FVec Ideal S128 .f32) (w12 : FVec Ideal S128x128 .f32) (b12 : FVec Ideal S128 .f32)
    (w21 : FVec Ideal S128x128 .f32) (b21 : FVec Ideal S128 .f32) (w22 : FVec Ideal S128x128 .f32) (b22 : FVec Ideal S128 .f32)
    (w31 : FVec Ideal S128x128 .f32) (b31 : FVec Ideal S128 .f32) (w32 : FVec Ideal S128x128 .f32) (b32 : FVec Ideal S128 .f32)
    (fcw : FVec Ideal S128x128 .f32) (fcb : FVec Ideal S128 .f32) :
    branchHost x e bt w11 b11 w12 b12 w21 b21 w22 b22 w31 b31 w32 b32 fcw fcb
      = branch x e bt w11 b11 w12 b12 w21 b21 w22 b22 w31 b31 w32 b32 fcw fcb := by
  unfold branchHost branch featNext feat1
  rw [layer1_eq, layer_eq, layer_eq]

end Cert.Gin.Ref

end
-- ==== Proof.RefRun.lean ====
/-
  The reference's three results are the three branches.

  The reference's run ends with each returned array at the composition of its host operations on the launch arrays.
  That composition is, spelled out, the host form of a branch — on the anchor, the positive and the negative inputs
  in turn, all three with the same weights — hence the branch function itself.
-/
import proofs.«142862_j27290222199187_1_alg».proof.Proof.Gen.ReferenceIdeal.Run
import proofs.«142862_j27290222199187_1_alg».proof.Proof.RefBranch

set_option maxRecDepth 16384

noncomputable section

namespace Cert.Gin.Ref

open Cert.ReferenceIdeal Cert.ReferenceIdeal.Facts₀ Cert.ReferenceIdeal.Value Idealize.ShloMosaic Idealize.ShloMosaic.TcCoe Idealize.SL.Sem Cert.Gin

variable (m : (ℓ : Loc nD τ sig) → Buf (Elt Ideal) ℓ) (c : Dev nD)

theorem res0_eq : res_main_v73 m c = branch (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (show res_main_v73 m c = branchHost (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) from by unfold res_main_v73; rfl).trans
    (branchHost_eq _ _ _ _ _ _ _ _ _ _ _ _ _ _ _ _ _)

theorem res1_eq : res_main_v147 m c = branch (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (show res_main_v147 m c = branchHost (m ((c.tc : Thread nD τ).loc main_arg3)) (m ((c.tc : Thread nD τ).loc main_arg4)) (m ((c.tc : Thread nD τ).loc main_arg5)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) from by unfold res_main_v147; rfl).trans
    (branchHost_eq _ _ _ _ _ _ _ _ _ _ _ _ _ _ _ _ _)

theorem res2_eq : res_main_v221 m c = branch (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) :=
  (show res_main_v221 m c = branchHost (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) from by unfold res_main_v221; rfl).trans
    (branchHost_eq _ _ _ _ _ _ _ _ _ _ _ _ _ _ _ _ _)

end Cert.Gin.Ref

end
-- ==== Proof.Bridge.lean ====
/-
  The two programs' branch functions are one function.

  Each program prints its own copy of the dimension numbers of the gather, the scatter-add and the final matrix
  product, and of the shapes; the copies are the same literal data. So the branch function written over the
  reference's copies and the one written over the tiled program's copies are equal by unfolding both.
-/
import proofs.«142862_j27290222199187_1_alg».proof.Proof.RefBranch
import proofs.«142862_j27290222199187_1_alg».proof.Proof.KSpec

set_option maxRecDepth 16384

noncomputable section

namespace Cert.Gin

open Idealize.ShloMosaic

theorem branch_agree (x : FVec Ideal Cert.ReferenceIdeal.S50000x1 .f32) (e : (⟨Cert.ReferenceIdeal.S2x800000, .i32⟩ : BufTy).Contents (Elt Ideal)) (bt : (⟨Cert.ReferenceIdeal.S50000, .i32⟩ : BufTy).Contents (Elt Ideal))
    (w11 : FVec Ideal Cert.ReferenceIdeal.S1x128 .f32) (b11 : FVec Ideal Cert.ReferenceIdeal.S128 .f32) (w12 : FVec Ideal Cert.ReferenceIdeal.S128x128 .f32) (b12 : FVec Ideal Cert.ReferenceIdeal.S128 .f32)
    (w21 : FVec Ideal Cert.ReferenceIdeal.S128x128 .f32) (b21 : FVec Ideal Cert.ReferenceIdeal.S128 .f32) (w22 : FVec Ideal Cert.ReferenceIdeal.S128x128 .f32) (b22 : FVec Ideal Cert.ReferenceIdeal.S128 .f32)
    (w31 : FVec Ideal Cert.ReferenceIdeal.S128x128 .f32) (b31 : FVec Ideal Cert.ReferenceIdeal.S128 .f32) (w32 : FVec Ideal Cert.ReferenceIdeal.S128x128 .f32) (b32 : FVec Ideal Cert.ReferenceIdeal.S128 .f32)
    (fcw : FVec Ideal Cert.ReferenceIdeal.S128x128 .f32) (fcb : FVec Ideal Cert.ReferenceIdeal.S128 .f32) :
    Ref.branch x e bt w11 b11 w12 b12 w21 b21 w22 b22 w31 b31 w32 b32 fcw fcb
      = K.branch x e bt w11 b11 w12 b12 w21 b21 w22 b22 w31 b31 w32 b32 fcw fcb := rfl

end Cert.Gin

end
-- ==== Proof.lean ====
/-
  The certificate of a three-layer graph-isomorphism network evaluated on three inputs (anchor, positive, negative)
  with shared weights: a program that runs the dense part of every layer as a tiled kernel, against a reference
  that runs everything as whole-array host operations.

  Per input, each program computes three layers `h ↦ relu (relu ((h + agg h) · w1 + b1) · w2 + b2)`, where `agg h`
  gathers every edge's source row of `h` and adds it into the edge's destination row, then sums the node rows of
  each graph and applies a final linear map. The two programs use the same gather, scatter-add, pooling and final
  map; they differ in the dense part. The tiled program walks ten tiles of `5000` rows, converts the operands of its
  two matrix products to a narrower float format (the identity on the extended reals), and runs the first layer —
  whose features have ONE column — on arrays padded with zeros to `128` columns and a weight padded to `128` rows.
  On the extended reals both dense parts are the same function `mlp`: a row of the result depends only on the same
  row of the inputs, so tiling changes nothing; a matrix product is the plain sum over the contracted axis; and the
  padded contraction equals the unpadded one because every extra term is `(0 + 0) * 0 = 0` and adding `0` changes
  no extended real. No law that fails at infinities is used, so the inputs' finiteness is never opened.

  `Gin.Tile.pay_eq`: the kernel body is `mlp` on a tile. `Gin.Region<k>.final`: launch `k`'s output array is `mlp` of
  its input arrays. `Gin.Fold{A,P,N}.result_eq`: a branch's result, read back through the program's segment
  boundaries, is the branch function of the launch arrays. `Gin.Ref.res<i>_eq`: so is the reference's.
  `Gin.branch_agree`: the two branch functions are one.
-/
import proofs.«142862_j27290222199187_1_alg».proof.Defs
import proofs.«142862_j27290222199187_1_alg».proof.Proof.Gen.Kernel
import proofs.«142862_j27290222199187_1_alg».proof.Proof.Gen.Kernel.Skeleton
import proofs.«142862_j27290222199187_1_alg».proof.Proof.Gen.Kernel.Launch
import proofs.«142862_j27290222199187_1_alg».proof.Proof.Gen.Kernel.Points
import proofs.«142862_j27290222199187_1_alg».proof.Proof.Gen.Kernel.Frame
import proofs.«142862_j27290222199187_1_alg».proof.Proof.Gen.KernelIdeal
import proofs.«142862_j27290222199187_1_alg».proof.Proof.Gen.KernelIdeal.Skeleton
import proofs.«142862_j27290222199187_1_alg».proof.Proof.Gen.KernelIdeal.Launch
import proofs.«142862_j27290222199187_1_alg».proof.Proof.Gen.KernelIdeal.Points
import proofs.«142862_j27290222199187_1_alg».proof.Proof.Gen.KernelIdeal.Frame
import proofs.«142862_j27290222199187_1_alg».proof.Proof.Gen.ReferenceIdeal
import proofs.«142862_j27290222199187_1_alg».proof.Proof.Gen.ReferenceIdeal.Run
import proofs.«142862_j27290222199187_1_alg».proof.Proof.Gen.Pre_finite_inputs
import proofs.«142862_j27290222199187_1_alg».proof.Proof.KernelRun
import proofs.«142862_j27290222199187_1_alg».proof.Proof.KFoldA
import proofs.«142862_j27290222199187_1_alg».proof.Proof.KFoldP
import proofs.«142862_j27290222199187_1_alg».proof.Proof.KFoldN
import proofs.«142862_j27290222199187_1_alg».proof.Proof.RefRun
import proofs.«142862_j27290222199187_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The tiled program as printed terminates without a fault and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- So does the reference: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

set_option maxHeartbeats 4000000 in
/-- From memories agreeing on the arguments, both programs end with the three branch functions of the launch
    arrays: the tiled program's results read back through its segment boundaries, the reference's read off its
    run, and the two branch functions one function. -/
theorem algebraic : Cert.algebraic_KernelIdeal_ReferenceIdeal := by
  intro m ρ m' ρ' _ hagree
  refine ⟨fun c => Cert.KernelIdeal.Gen.W37 m ρ c (Proc.devRef .tc Cert.KernelIdeal.main_v52),
    fun c => Cert.KernelIdeal.Gen.W37 m ρ c (Proc.devRef .tc Cert.KernelIdeal.main_v105),
    fun c => Cert.KernelIdeal.Gen.W37 m ρ c (Proc.devRef .tc Cert.KernelIdeal.main_v158),
    Cert.KernelIdeal.Results.run m ρ, ?_⟩
  refine (θ_run Cert.ReferenceIdeal.defs _ _).mono (fun r h c => ?_) (Cert.ReferenceIdeal.Value.run (F := Ideal) m' ρ')
  obtain ⟨h0, h1, h2, hargs⟩ := h c
  obtain ⟨a0, a1, a2, a3, a4, a5, a6, a7, a8, a9, a10, a11, a12, a13, a14, a15, a16, a17, a18, a19, a20, a21, a22⟩ := hagree c
  refine ⟨h0.trans ?_, h1.trans ?_, h2.trans ?_, hargs⟩
  · show _ = Cert.KernelIdeal.Gen.W37 m ρ c (Proc.devRef .tc Cert.KernelIdeal.main_v52)
    rw [Cert.Gin.Ref.res0_eq, Cert.Gin.FoldA.result_eq, a0, a1, a2, a9, a10, a11, a12, a13, a14, a15, a16, a17, a18, a19, a20, a21, a22]
    exact Cert.Gin.branch_agree _ _ _ _ _ _ _ _ _ _ _ _ _ _ _ _ _
  · show _ = Cert.KernelIdeal.Gen.W37 m ρ c (Proc.devRef .tc Cert.KernelIdeal.main_v105)
    rw [Cert.Gin.Ref.res1_eq, Cert.Gin.FoldP.result_eq, a3, a4, a5, a9, a10, a11, a12, a13, a14, a15, a16, a17, a18, a19, a20, a21, a22]
    exact Cert.Gin.branch_agree _ _ _ _ _ _ _ _ _ _ _ _ _ _ _ _ _
  · show _ = Cert.KernelIdeal.Gen.W37 m ρ c (Proc.devRef .tc Cert.KernelIdeal.main_v158)
    rw [Cert.Gin.Ref.res2_eq, Cert.Gin.FoldN.result_eq, a6, a7, a8, a9, a10, a11, a12, a13, a14, a15, a16, a17, a18, a19, a20, a21, a22]
    exact Cert.Gin.branch_agree _ _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
